-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S16x4x2048x64 : Shape := ⟨4, ![16, 4, 2048, 64]⟩
abbrev S512x1024 : Shape := ⟨2, ![512, 1024]⟩
abbrev S16x1x512x64 : Shape := ⟨4, ![16, 1, 512, 64]⟩
abbrev S512x3072 : Shape := ⟨2, ![512, 3072]⟩
abbrev S512x16x64 : Shape := ⟨3, ![512, 16, 64]⟩
abbrev S16x512x64 : Shape := ⟨3, ![16, 512, 64]⟩
abbrev S64x2048x64 : Shape := ⟨3, ![64, 2048, 64]⟩
abbrev S1x1024x64 : Shape := ⟨3, ![1, 1024, 64]⟩
abbrev S1x2048x64 : Shape := ⟨3, ![1, 2048, 64]⟩
abbrev S1024x64 : Shape := ⟨2, ![1024, 64]⟩
abbrev S2048x64 : Shape := ⟨2, ![2048, 64]⟩
abbrev S1024x2048 : Shape := ⟨2, ![1024, 2048]⟩
abbrev S1x1024 : Shape := ⟨2, ![1, 1024]⟩

abbrev nBuf : Space → Nat
  | .hbm => 32
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x3072, .bf16⟩
  | .hbm, ⟨19, _⟩ => ⟨S3072, .f32⟩
  | .hbm, ⟨20, _⟩ => ⟨S1x3072, .f32⟩
  | .hbm, ⟨21, _⟩ => ⟨S16x4x2048x64, .bf16⟩
  | .hbm, ⟨22, _⟩ => ⟨S16x4x2048x64, .bf16⟩
  | .hbm, ⟨23, _⟩ => ⟨S16x4x2048x64, .bf16⟩
  | .hbm, ⟨24, _⟩ => ⟨S64x2048x64, .bf16⟩
  | .hbm, ⟨25, _⟩ => ⟨S64x2048x64, .bf16⟩
  | .hbm, ⟨26, _⟩ => ⟨S64x2048x64, .bf16⟩
  | .hbm, ⟨27, _⟩ => ⟨S64x2048x64, .bf16⟩
  | .hbm, ⟨28, _⟩ => ⟨S16x4x2048x64, .bf16⟩
  | .hbm, ⟨29, _⟩ => ⟨S1x1024, .f32⟩
  | .hbm, ⟨30, _⟩ => ⟨S8192x1024, .f32⟩
  | .hbm, ⟨31, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S16x1x512x64, .bf16⟩
  | .local _ .vmem, ⟨5, _⟩ => ⟨S16x1x512x64, .bf16⟩
  | .local _ .vmem, ⟨6, _⟩ => ⟨S16x1x512x64, .bf16⟩
  | .local _ .vmem, ⟨7, _⟩ => ⟨S16x1x512x64, .bf16⟩
  | .local _ .vmem, ⟨8, _⟩ => ⟨S16x1x512x64, .bf16⟩
  | .local _ .vmem, ⟨9, _⟩ => ⟨S16x1x512x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .bf16⟩
  | .local _ .vmem, ⟨15, _⟩ => ⟨S1x2048x64, .bf16⟩
  | .local _ .vmem, ⟨16, _⟩ => ⟨S1x1024x64, .bf16⟩
  | .local _ .vmem, ⟨17, _⟩ => ⟨S1x1024x64, .bf16⟩
  | .local _ .vmem, ⟨18, _⟩ => ⟨S16x1x512x64, .bf16⟩
  | .local _ .vmem, ⟨19, _⟩ => ⟨S16x1x512x64, .bf16⟩
  | .local _ .vmem, ⟨20, _⟩ => ⟨S1024x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1x512x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1x512x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![64, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x1x512x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  shapeCasts_S512x1024_S512x16x64 : S512x1024.ShapeCasts S512x16x64
  transposes_S512x16x64_p1_0_2_S16x512x64 : S512x16x64.Transposes [1, 0, 2] S16x512x64
  inb_S16x1x512x64_S16x1x512x64_0_0_0_0 : ∀ a, (![0, 0, 0, 0] : Fin 4 → Nat) a + S16x1x512x64.size a ≤ S16x1x512x64.size a
  h_S16x1x512x64 : 0 < S16x1x512x64.numel
  shapeCasts_S16x1x512x64_S16x512x64 : S16x1x512x64.ShapeCasts S16x512x64
  shapeCasts_S16x512x64_S16x1x512x64 : S16x512x64.ShapeCasts S16x1x512x64
  packedbf16_S16x1x512x64_S16x1x512x64_0_0_0_0 : (Rect.unit (s := S16x1x512x64) ![0, 0, 0, 0] S16x1x512x64.size inb_S16x1x512x64_S16x1x512x64_0_0_0_0).PackedRows (EltTy.packing .bf16)
  shapeCasts_S16x4x2048x64_S64x2048x64 : S16x4x2048x64.ShapeCasts S64x2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  shapeCasts_S64x2048x64_S16x4x2048x64 : S64x2048x64.ShapeCasts S16x4x2048x64
  shapeCasts_S1024_S1x1024 : S1024.ShapeCasts S1x1024
  transposes_S16x512x64_p1_0_2_S512x16x64 : S16x512x64.Transposes [1, 0, 2] S512x16x64
  shapeCasts_S512x16x64_S512x1024 : S512x16x64.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x3072_S512x3072_1_0_0_1_n_n_wf : DotDims.WF S512x1024 S1024x3072 S512x3072 [1] [0] [0] [1] [] []
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1x512x64.size a ≤ S16x4x2048x64.size a
  hwx0_3 : ∀ i : grid0.Coords, EltTy.bits .bf16 = 32 ∨ (Rect.block (s := S16x4x2048x64) S16x1x512x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1x512x64.size a ≤ S16x4x2048x64.size a
  hwx0_4 : ∀ i : grid0.Coords, EltTy.bits .bf16 = 32 ∨ (Rect.block (s := S16x4x2048x64) S16x1x512x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x1x512x64.size a ≤ S16x4x2048x64.size a
  hwx0_5 : ∀ i : grid0.Coords, EltTy.bits .bf16 = 32 ∨ (Rect.block (s := S16x4x2048x64) S16x1x512x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S64x2048x64.size a
  hwx1_0 : ∀ i : grid1.Coords, EltTy.bits .bf16 = 32 ∨ (Rect.block (s := S64x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S64x2048x64.size a
  hwx1_1 : ∀ i : grid1.Coords, EltTy.bits .bf16 = 32 ∨ (Rect.block (s := S64x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S64x2048x64.size a
  hwx1_2 : ∀ i : grid1.Coords, EltTy.bits .bf16 = 32 ∨ (Rect.block (s := S64x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S64x2048x64.size a
  hwx1_3 : ∀ i : grid1.Coords, EltTy.bits .bf16 = 32 ∨ (Rect.block (s := S64x2048x64) S1x1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x1x512x64.size a ≤ S16x4x2048x64.size a
  hwx2_0 : ∀ i : grid2.Coords, EltTy.bits .bf16 = 32 ∨ (Rect.block (s := S16x4x2048x64) S16x1x512x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S16x1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S16x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_2) S16x1x512x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v13) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v17) S16x1x512x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x16x64, .f32⟩
  | .hbm, ⟨14, _⟩ => ⟨S4x16x2048x64, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x16x64, .f32⟩
  | .hbm, ⟨20, _⟩ => ⟨S4x16x2048x64, .f32⟩
  | .hbm, ⟨21, _⟩ => ⟨S4x2048x1024, .f32⟩
  | .hbm, ⟨22, _⟩ => ⟨S1x1x1024, .f32⟩
  | .hbm, ⟨23, _⟩ => ⟨S4x2048x1024, .f32⟩
  | .hbm, ⟨24, _⟩ => ⟨S4x2048x1024, .f32⟩
  | .hbm, ⟨25, _⟩ => ⟨S4x2048x16x64, .f32⟩
  | .hbm, ⟨26, _⟩ => ⟨S4x16x2048x64, .f32⟩
  | .hbm, ⟨27, _⟩ => ⟨S4x16x2048x2048, .f32⟩
  | .hbm, ⟨28, _⟩ => ⟨S_, .f32⟩
  | .hbm, ⟨29, _⟩ => ⟨S_, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S_, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S4x16x2048x64, .f32⟩
  | .hbm, ⟨38, _⟩ => ⟨S4x2048x16x64, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_cst : Ref sig .tc := ⟨.hbm, 33, rfl⟩
abbrev main_call0_v1 : Ref sig .tc := ⟨.hbm, 34, rfl⟩
abbrev main_call0_v2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Kernel.ProjectionBody.lean ====
/-
  The first of the program's three kernels — the fused projection: one row block of 512 tokens times the joined
  weight matrix [1024, 3072], plus the joined bias, cut into its query / key / value thirds (the query third scaled
  by 1/8) and each third re-laid head-major [16, 1, 512, 64] — as a Hoare triple over its six staging buffers, for any
  float instance: the three input buffers are read and kept, and each of the three output buffers ends holding the
  one whole-buffer store of its payload (the skeleton's pure term of the three loaded blocks). From the triple: the
  proof data of the pipeline at ANY contents `V` of the core's buffers at the region's entry (every input buffer holds
  its window's block of `V`'s array at each grid point; every output buffer what the body stores there), and the
  library's body obligation at every grid point.
-/
import proofs.«133815_j49941879717923_2_alg».proof.Proof.Gen.Kernel.Launch
import proofs.«133815_j49941879717923_2_alg».proof.Proof.Gen.Kernel.Skeleton
import proofs.«133815_j49941879717923_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token rows' staging buffer holds the point's row block at every point, for any proof data over `V`'s array
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The joined weights' staging buffer (fetched once: its block index never moves) holds the whole matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The joined bias' staging buffer (fetched once) holds the whole bias row at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S16x1x512x64 := Rect.unit (s := S16x1x512x64) ![0, 0, 0, 0] S16x1x512x64.size inb_S16x1x512x64_S16x1x512x64_0_0_0_0

/-! ## What the body leaves in each output buffer -/

/-- The query buffer after the body: one whole-buffer store of the scaled, re-laid query third. -/
def out0_3 (x0 : Vec F S512x1024 .f32) (x1 : Vec F S1024x3072 .bf16) (x2 : Vec F S1x3072 .f32) : Vec F S16x1x512x64 .bf16 :=
  View.canon [⟨r0_3, k0_pay2 (View.ld x0 r0_0) (View.ld x1 r0_1) (View.ld x2 r0_2)⟩]
/-- The key buffer after the body: one whole-buffer store of the re-laid key third. -/
def out0_4 (x0 : Vec F S512x1024 .f32) (x1 : Vec F S1024x3072 .bf16) (x2 : Vec F S1x3072 .f32) : Vec F S16x1x512x64 .bf16 :=
  View.canon [⟨r0_3, k0_pay3 (View.ld x0 r0_0) (View.ld x1 r0_1) (View.ld x2 r0_2)⟩]
/-- The value buffer after the body: one whole-buffer store of the re-laid value third. -/
def out0_5 (x0 : Vec F S512x1024 .f32) (x1 : Vec F S1024x3072 .bf16) (x2 : Vec F S1x3072 .f32) : Vec F S16x1x512x64 .bf16 :=
  View.canon [⟨r0_3, k0_pay4 (View.ld x0 r0_0) (View.ld x1 r0_1) (View.ld x2 r0_2)⟩]

/-- One whole-buffer store covers the buffer. -/
theorem cover0 (p0 : Vec F S16x1x512x64 .bf16) (y : S16x1x512x64.Idx) :
    ∃ pc ∈ ([⟨r0_3, p0⟩] : List (View.Piece (Elt F) S16x1x512x64 .bf16)), y ∈ pc.1.set :=
  View.cover_of_tiled [⟨r0_3, p0⟩] S16x1x512x64.size (by rfl) y

/-! ## The body's triple -/

set_option maxHeartbeats 4000000 in
/-- The body on whole staging buffers — the inputs' at contents `x0 x1 x2`, the outputs' at anything — runs to the
    continuation with the inputs' buffers as they were and each output's at its one store's payload. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S16x1x512x64 .bf16) (harg4 : arg4.IsWhole) (arg5 : Memref sig .tc .vmem S16x1x512x64 .bf16) (harg5 : arg5.IsWhole) (arg6 : Memref sig .tc .vmem S16x1x512x64 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of the projection pipeline on core `c`: the arrays as the region finds them; after the body at
    point `t` each input buffer at its block and each output buffer at its payload of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.AttentionBody.lean ====
/-
  The second of the program's three kernels — attention for one head and one block of 1024 query rows: the scores
  q kᵀ [1024, 2048] against the head's whole key matrix, each score s turned into s · (1 / (1 + |s|)), and the result
  times the head's whole value matrix — as a Hoare triple over its four staging buffers, for any float instance: the
  three input buffers are read and kept, the output buffer ends holding the one whole-buffer store of its payload
  (the skeleton's pure term of the three loaded blocks). From the triple: the proof data of the pipeline at ANY
  contents `V` of the core's buffers at the region's entry, and the library's body obligation at every grid point.
-/
import proofs.«133815_j49941879717923_2_alg».proof.Proof.Gen.Kernel.Launch
import proofs.«133815_j49941879717923_2_alg».proof.Proof.Gen.Kernel.Skeleton
import proofs.«133815_j49941879717923_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' staging buffer holds the point's block of 1024 query rows at every point, for any proof data over `V`'s array whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the head's whole key matrix at every point (fetched when the head changes, unmoved between). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer holds the head's whole value matrix at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_0 : Rect S1x1024x64 := Rect.unit (s := S1x1024x64) ![0, 0, 0] S1x1024x64.size inb_S1x1024x64_S1x1024x64_0_0_0
abbrev r1_1 : Rect S1x2048x64 := Rect.unit (s := S1x2048x64) ![0, 0, 0] S1x2048x64.size inb_S1x2048x64_S1x2048x64_0_0_0

/-! ## What the body leaves in the output buffer -/

/-- The context buffer after the body: one whole-buffer store of the attention payload. -/
def out1_3 (x0 : Vec F S1x1024x64 .bf16) (x1 : Vec F S1x2048x64 .bf16) (x2 : Vec F S1x2048x64 .bf16) : Vec F S1x1024x64 .bf16 :=
  View.canon [⟨r1_0, k1_pay1 (View.ld x0 r1_0) (View.ld x1 r1_1) (View.ld x2 r1_1)⟩]

/-- One whole-buffer store covers the buffer. -/
theorem cover1 (p0 : Vec F S1x1024x64 .bf16) (y : S1x1024x64.Idx) :
    ∃ pc ∈ ([⟨r1_0, p0⟩] : List (View.Piece (Elt F) S1x1024x64 .bf16)), y ∈ pc.1.set :=
  View.cover_of_tiled [⟨r1_0, p0⟩] S1x1024x64.size (by rfl) y

/-! ## The body's triple -/

set_option maxHeartbeats 4000000 in
/-- The body on whole staging buffers — the inputs' at contents `x0 x1 x2`, the output's at anything — runs to the
    continuation with the inputs' buffers as they were and the output's at its one store's payload. -/
theorem sound_kernel1 (c : Dev nD) (E : Set ℕ) (i : grid1.Coords) (arg2 : Memref sig .tc .vmem S1x1024x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x1024x64 .bf16) (harg5 : arg5.IsWhole)
    (x0 : Vec F S1x1024x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The proof data of the attention pipeline on core `c`: the arrays as the region finds them; after the body at point
    `t` each input buffer at its block and the output buffer at its payload of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.OutputBody.lean ====
/-
  The third of the program's three kernels — the output projection: one block of 512 token rows of the head-major
  context [16, 1, 512, 64] re-laid to [512, 1024], times the weight matrix [1024, 1024], plus the bias row — as a Hoare
  triple over its four staging buffers, for any float instance: the three input buffers are read and kept, the output
  buffer ends holding the one whole-buffer store of its payload (the skeleton's pure term of the three loaded blocks).
  From the triple: the proof data of the pipeline at ANY contents `V` of the core's buffers at the region's entry, and
  the library's body obligation at every grid point.
-/
import proofs.«133815_j49941879717923_2_alg».proof.Proof.Gen.Kernel.Launch
import proofs.«133815_j49941879717923_2_alg».proof.Proof.Gen.Kernel.Skeleton
import proofs.«133815_j49941879717923_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The context's staging buffer holds the point's block (all heads, 512 token rows) at every point, for any proof data over `V`'s array whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer (fetched once: its block index never moves) holds the whole matrix at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias' staging buffer (fetched once) holds the whole bias row at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S16x1x512x64 := Rect.unit (s := S16x1x512x64) ![0, 0, 0, 0] S16x1x512x64.size inb_S16x1x512x64_S16x1x512x64_0_0_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in the output buffer -/

/-- The result buffer after the body: one whole-buffer store of the projected rows. -/
def out2_3 (x0 : Vec F S16x1x512x64 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- One whole-buffer store covers the buffer. -/
theorem cover2 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 4000000 in
/-- The body on whole staging buffers — the inputs' at contents `x0 x1 x2`, the output's at anything — runs to the
    continuation with the inputs' buffers as they were and the output's at its one store's payload. -/
theorem sound_kernel2 (c : Dev nD) (E : Set ℕ) (i : grid2.Coords) (arg1 : Memref sig .tc .vmem S16x1x512x64 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S16x1x512x64 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The pipeline's proof data -/

/-- The proof data of the output-projection pipeline on core `c`: the arrays as the region finds them; after the body
    at point `t` each input buffer at its block and the output buffer at its payload of the input blocks; the
    invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Stages.lean ====
/-
  The run of the whole program: four stretches of host operations (the re-layouts of the arguments, three reshapes
  between the kernels, the last reshape) around the three kernels, from the launch to the return, for any float
  instance. The buffers' contents at the eight boundaries are a fold from the launch memory (`bufs0 … bufs7`: a host
  stretch applies its operations, `StableHlo.after`; a kernel's pipeline leaves its input arrays as entered and each
  output array at what its write-backs fold to, `Dat.arrAt … N`, every other buffer untouched). Each kernel enters
  the run as a segment record over its body obligation (Proof/Kernel/ProjectionBody, AttentionBody, OutputBody), each
  host stretch as a line of operations; the library's launch theorem for a list of segments then gives `run_all`:
  every weakly fair execution terminates, faulting nowhere, with every unscoped buffer at `bufs7`. Two corollaries are
  what the claims ask: the nine arguments end as launched (`frame`: no host operation and no kernel writes an
  argument), and the result array is `bufs7` at the result's buffer (`run_result`).
-/
import proofs.«133815_j49941879717923_2_alg».proof.Proof.Kernel.ProjectionBody
import proofs.«133815_j49941879717923_2_alg».proof.Proof.Kernel.AttentionBody
import proofs.«133815_j49941879717923_2_alg».proof.Proof.Kernel.OutputBody
import proofs.«133815_j49941879717923_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through the program -/

/-- Core `c`'s buffers at launch. -/
abbrev bufs0 : Dev nD → Valuation τ sig (Elt F) := fun c b => (s₀ m ρ).mem ((c : Dev nD), b)
/-- After the first host stretch (the arguments re-laid: the first kernel's entry). -/
abbrev bufs1 : Dev nD → Valuation τ sig (Elt F) := fun c => StableHlo.after hostOps0 (bufs0 m ρ c)
/-- The same read at the core's references (what the first kernel's proof data take). -/
abbrev ent1 : (c : Dev nD) → (b : Ref sig .tc) → Buf (Elt F) ((c : Thread nD τ).loc b) := fun c b => bufs1 m ρ c b
/-- At the first kernel's exit: its arrays at what the pipeline leaves, every other buffer as entered. -/
def bufs2 (c : Dev nD) : Valuation τ sig (Elt F) :=
  Pipeline.withArrays spec0 c (bufs1 m ρ c) fun w => (dat0 (ent1 m ρ) c).arrAt w cfg0.N
theorem bufs2_arr (c : Dev nD) (w : Fin cfg0.W) :
    bufs2 m ρ c (Proc.devRef .tc (Pipeline.arrRef spec0 w)) = (dat0 (ent1 m ρ) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m ρ c (Proc.devRef .tc b) = bufs1 m ρ c (Proc.devRef .tc b) := by
  unfold bufs2; exact Pipeline.withArrays_of_ne spec0 c _ _ b hb
abbrev ext2 : (c : Dev nD) → (b : Ref sig .tc) → Buf (Elt F) ((c : Thread nD τ).loc b) := fun c b => bufs2 m ρ c b
theorem left0 (c : Dev nD) (w : Fin cfg0.W) : (dat0 (ent1 m ρ) c).arrAt w cfg0.N = ext2 m ρ c (Pipeline.arrRef spec0 w) :=
  (bufs2_arr m ρ c w).symm
theorem others0 (c : Dev nD) : ∀ b, b ∉ Finset.univ.image (Pipeline.arrRef spec0) → ext2 m ρ c b = ent1 m ρ c b :=
  fun b hb => bufs2_of_ne m ρ c b fun w e => hb (Finset.mem_image.mpr ⟨w, Finset.mem_univ _, e⟩)

/-- After the second host stretch (the three projections read as 64 pairs: the attention kernel's entry). -/
abbrev bufs3 : Dev nD → Valuation τ sig (Elt F) := fun c => StableHlo.after hostOps1 (bufs2 m ρ c)
abbrev ent3 : (c : Dev nD) → (b : Ref sig .tc) → Buf (Elt F) ((c : Thread nD τ).loc b) := fun c b => bufs3 m ρ c b
/-- At the attention kernel's exit. -/
def bufs4 (c : Dev nD) : Valuation τ sig (Elt F) :=
  Pipeline.withArrays spec1 c (bufs3 m ρ c) fun w => (dat1 (ent3 m ρ) c).arrAt w cfg1.N
theorem bufs4_arr (c : Dev nD) (w : Fin cfg1.W) :
    bufs4 m ρ c (Proc.devRef .tc (Pipeline.arrRef spec1 w)) = (dat1 (ent3 m ρ) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m ρ c (Proc.devRef .tc b) = bufs3 m ρ c (Proc.devRef .tc b) := by
  unfold bufs4; exact Pipeline.withArrays_of_ne spec1 c _ _ b hb
abbrev ext4 : (c : Dev nD) → (b : Ref sig .tc) → Buf (Elt F) ((c : Thread nD τ).loc b) := fun c b => bufs4 m ρ c b
theorem left1 (c : Dev nD) (w : Fin cfg1.W) : (dat1 (ent3 m ρ) c).arrAt w cfg1.N = ext4 m ρ c (Pipeline.arrRef spec1 w) :=
  (bufs4_arr m ρ c w).symm
theorem others1 (c : Dev nD) : ∀ b, b ∉ Finset.univ.image (Pipeline.arrRef spec1) → ext4 m ρ c b = ent3 m ρ c b :=
  fun b hb => bufs4_of_ne m ρ c b fun w e => hb (Finset.mem_image.mpr ⟨w, Finset.mem_univ _, e⟩)

/-- After the third host stretch (the context read head-major, the last bias as a row: the last kernel's entry). -/
abbrev bufs5 : Dev nD → Valuation τ sig (Elt F) := fun c => StableHlo.after hostOps2 (bufs4 m ρ c)
abbrev ent5 : (c : Dev nD) → (b : Ref sig .tc) → Buf (Elt F) ((c : Thread nD τ).loc b) := fun c b => bufs5 m ρ c b
/-- At the last kernel's exit. -/
def bufs6 (c : Dev nD) : Valuation τ sig (Elt F) :=
  Pipeline.withArrays spec2 c (bufs5 m ρ c) fun w => (dat2 (ent5 m ρ) c).arrAt w cfg2.N
theorem bufs6_arr (c : Dev nD) (w : Fin cfg2.W) :
    bufs6 m ρ c (Proc.devRef .tc (Pipeline.arrRef spec2 w)) = (dat2 (ent5 m ρ) c).arrAt w cfg2.N := by
  unfold bufs6; exact Pipeline.withArrays_arr spec2 launch2.win.arr_inj c _ _ w
theorem bufs6_of_ne (c : Dev nD) (b : Ref sig .tc) (hb : ∀ w, Pipeline.arrRef spec2 w ≠ b) :
    bufs6 m ρ c (Proc.devRef .tc b) = bufs5 m ρ c (Proc.devRef .tc b) := by
  unfold bufs6; exact Pipeline.withArrays_of_ne spec2 c _ _ b hb
abbrev ext6 : (c : Dev nD) → (b : Ref sig .tc) → Buf (Elt F) ((c : Thread nD τ).loc b) := fun c b => bufs6 m ρ c b
theorem left2 (c : Dev nD) (w : Fin cfg2.W) : (dat2 (ent5 m ρ) c).arrAt w cfg2.N = ext6 m ρ c (Pipeline.arrRef spec2 w) :=
  (bufs6_arr m ρ c w).symm
theorem others2 (c : Dev nD) : ∀ b, b ∉ Finset.univ.image (Pipeline.arrRef spec2) → ext6 m ρ c b = ent5 m ρ c b :=
  fun b hb => bufs6_of_ne m ρ c b fun w e => hb (Finset.mem_image.mpr ⟨w, Finset.mem_univ _, e⟩)

/-- After the last host stretch (the result rows read as [4, 2048, 1024]): the return. -/
abbrev bufs7 : Dev nD → Valuation τ sig (Elt F) := fun c => StableHlo.after hostOps3 (bufs6 m ρ c)

/-- A buffer that no host operation writes and that is no kernel's array ends as launched: the fold at its reference
    walks back to the launch memory. -/
theorem bufs7_untouched (c : Dev nD) (b : Ref sig .tc) (h0 : b ∉ hostOps0_W) (h1 : b ∉ hostOps1_W) (h2 : b ∉ hostOps2_W)
    (h3 : b ∉ hostOps3_W) (a0 : ∀ w, Pipeline.arrRef spec0 w ≠ b) (a1 : ∀ w, Pipeline.arrRef spec1 w ≠ b)
    (a2 : ∀ w, Pipeline.arrRef spec2 w ≠ b) :
    bufs7 m ρ c (Proc.devRef .tc b) = m ((c : Thread nD τ).loc b) :=
  calc bufs7 m ρ c (Proc.devRef .tc b)
    _ = bufs6 m ρ c (Proc.devRef .tc b) := StableHlo.after_of_writes_sub hostOps3 _ hostOps3_writes h3
    _ = bufs5 m ρ c (Proc.devRef .tc b) := bufs6_of_ne m ρ c b a2
    _ = bufs4 m ρ c (Proc.devRef .tc b) := StableHlo.after_of_writes_sub hostOps2 _ hostOps2_writes h2
    _ = bufs3 m ρ c (Proc.devRef .tc b) := bufs4_of_ne m ρ c b a1
    _ = bufs2 m ρ c (Proc.devRef .tc b) := StableHlo.after_of_writes_sub hostOps1 _ hostOps1_writes h1
    _ = bufs1 m ρ c (Proc.devRef .tc b) := bufs2_of_ne m ρ c b a0
    _ = bufs0 m ρ c (Proc.devRef .tc b) := StableHlo.after_of_writes_sub hostOps0 _ hostOps0_writes h0
    _ = m ((c : Thread nD τ).loc b) := rfl

/-! ## The proof data family and the thread state -/

/-- The prefetched tables' admissible contents: no pipeline has a table. -/
abbrev tables : (p : Fin 3) → (pcfgs (F := F) p).Adm := fun p => (cfgs p).toPCfg_adm
/-- Every pipeline's proof data, each at its kernel's entry contents — a literal match on the pipeline's number. -/
def pdats : (p : Fin 3) → (c : Dev nD) → Dat τ (Elt F) Unit ℕ (UR sig nD τ) ℕ (Pipeline.pin (pcfgs (F := F)) tables p) c
  | ⟨0, _⟩ => fun c => dat0 (ent1 m ρ) c
  | ⟨1, _⟩ => fun c => dat1 (ent3 m ρ) c
  | ⟨2, _⟩ => fun c => dat2 (ent5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev rest (c : Dev nD) : sProp 𝕄 := iprop((∃ r, prngReg c r) ∗ ∃ W, owes (c : Thread nD τ) (0 : CellTallies nD τ sig Unit) W)
/-- A host stretch as a segment: a line of operations over the unscoped references from the contents `W`, `rest` riding
    along. -/
abbrev hostStage (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev lastState (c : Dev nD) : sProp 𝕄 := iprop(StableHlo.held (c : Thread nD τ) (Pipeline.ucRefs τ sig) (bufs7 m ρ c) ∗ ∃ r, prngReg c r)

/-! ## The kernels as segments -/

-- the library's lemmas are stated over the pinned configuration `pin pcs a p`, which unifies with the printed one only
-- when unification may unfold plain definitions in a metavariable's type
set_option backward.isDefEq.respectTransparency.types false in
/-- THE PROJECTION KERNEL as a segment of the run: entered from every unscoped buffer at `bufs1`, left at `bufs2`. Its arrays are
    split out of the unscoped buffers on entry and put back at their exit contents; the generator register goes into
    the pipeline's invariant and comes out; nothing is owed; the kernel has no semaphore of its own. -/
def region0 : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent1 m ρ) c).loose
  hwaits := Pipeline.hwaits_of_owed_zero _ _ _ _ L lv 0 fun _ _ => rfl
  pre c := iprop(StableHlo.held (c : Thread nD τ) (Pipeline.ucRefs τ sig) (bufs1 m ρ c) ∗ rest c)
  post c := iprop(StableHlo.held (c : Thread nD τ) (Pipeline.ucRefs τ sig) (bufs2 m ρ c) ∗ rest c)
  X c := iprop(∃ r, prngReg c r)
  Y c := iprop(∃ r, prngReg c r)
  Z c := Pipeline.unscopedRest (Ix := Unit) (Name := ℕ) (U := UR sig nD τ) (Lvl := ℕ) spec0 c (ent1 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (ent1 m ρ c) (ext2 m ρ c) ((pdats m ρ 0 c).arrAt · cfg0.N) (left0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`, which unifies with the printed one only
-- when unification may unfold plain definitions in a metavariable's type
set_option backward.isDefEq.respectTransparency.types false in
/-- THE ATTENTION KERNEL as a segment of the run: entered from every unscoped buffer at `bufs3`, left at `bufs4`. Its arrays are
    split out of the unscoped buffers on entry and put back at their exit contents; the generator register goes into
    the pipeline's invariant and comes out; nothing is owed; the kernel has no semaphore of its own. -/
def region1 : Pipeline.RegionSeg (pcfgs (F := F)) tables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent3 m ρ) c).loose
  hwaits := Pipeline.hwaits_of_owed_zero _ _ _ _ L lv 1 fun _ _ => rfl
  pre c := iprop(StableHlo.held (c : Thread nD τ) (Pipeline.ucRefs τ sig) (bufs3 m ρ c) ∗ rest c)
  post c := iprop(StableHlo.held (c : Thread nD τ) (Pipeline.ucRefs τ sig) (bufs4 m ρ c) ∗ rest c)
  X c := iprop(∃ r, prngReg c r)
  Y c := iprop(∃ r, prngReg c r)
  Z c := Pipeline.unscopedRest (Ix := Unit) (Name := ℕ) (U := UR sig nD τ) (Lvl := ℕ) spec1 c (ent3 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (ent3 m ρ c) (ext4 m ρ c) ((pdats m ρ 1 c).arrAt · cfg1.N) (left1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`, which unifies with the printed one only
-- when unification may unfold plain definitions in a metavariable's type
set_option backward.isDefEq.respectTransparency.types false in
/-- THE OUTPUT-PROJECTION KERNEL as a segment of the run: entered from every unscoped buffer at `bufs5`, left at `bufs6`. Its arrays are
    split out of the unscoped buffers on entry and put back at their exit contents; the generator register goes into
    the pipeline's invariant and comes out; nothing is owed; the kernel has no semaphore of its own. -/
def region2 : Pipeline.RegionSeg (pcfgs (F := F)) tables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent5 m ρ) c).loose
  hwaits := Pipeline.hwaits_of_owed_zero _ _ _ _ L lv 2 fun _ _ => rfl
  pre c := iprop(StableHlo.held (c : Thread nD τ) (Pipeline.ucRefs τ sig) (bufs5 m ρ c) ∗ rest c)
  post c := iprop(StableHlo.held (c : Thread nD τ) (Pipeline.ucRefs τ sig) (bufs6 m ρ c) ∗ rest c)
  X c := iprop(∃ r, prngReg c r)
  Y c := iprop(∃ r, prngReg c r)
  Z c := Pipeline.unscopedRest (Ix := Unit) (Name := ℕ) (U := UR sig nD τ) (Lvl := ℕ) spec2 c (ent5 m ρ c)
  hentry c := by
    rw [Pipeline.ownSems0_none]
    have hsplit := Pipeline.arrays_of_unscopedBufs (p := 2) (pcfgs (F := F)) tables (pdats m ρ) launch2.win launch2.arr_whole c
      ((pdats m ρ 2 c).share_full fun _ => rfl) (ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (pdats m ρ) ((pdats m ρ 2 c).share_full fun _ => rfl)
      (ent5 m ρ c) (ext6 m ρ c) ((pdats m ρ 2 c).arrAt · cfg2.N) (left2 m ρ c) (others2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order: a host segment per stretch from its boundary's contents, a record per kernel. -/
abbrev stages : List (Pipeline.Seg (pcfgs (F := F)) tables (pdats m ρ) () defs₀ 𝒱₀ L lv) :=
  [ .host (hostStage hostOps0 hostOps0_sub hostOps0_fresh (bufs0 m ρ)),
    .region (region0 m ρ),
    .host (hostStage hostOps1 hostOps1_sub hostOps1_fresh (bufs2 m ρ)),
    .region (region1 m ρ),
    .host (hostStage hostOps2 hostOps2_sub hostOps2_fresh (bufs4 m ρ)),
    .region (region2 m ρ),
    .host (hostStage hostOps3 hostOps3_sub hostOps3_fresh (bufs6 m ρ)) ]
/-- The program IS the run of the segments. -/
theorem main_run (c : Dev nD) : main (F := F) c = Pipeline.Seg.run (stages m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the cores terminates,
    nothing faulting, and every final state has every unscoped buffer of every core at `bufs7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bufs7 m ρ c b) :=
  Pipeline.θ_run_regions_kit (pcfgs (F := F)) tables (pdats m ρ) () cellOf_inj emb₁ defs₀ 𝒱₀ L lv m ρ main (stages m ρ)
    (fun c Q => by rw [main_run m ρ c])
    (by simp only [stages, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m ρ c) ∗ rest c)) (Tₙ := lastState m ρ)
    (hch := ⟨fun _ => .rfl, fun _ => .rfl, fun _ => .rfl, fun _ => .rfl, fun _ => .rfl, fun _ => .rfl, fun _ => .rfl, fun c =>
      (show (iprop(StableHlo.held (c : Thread nD τ) (Pipeline.ucRefs τ sig) (bufs7 m ρ c) ∗ rest c) : sProp 𝕄)
          ⊢ iprop(lastState m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (bufs0 m ρ c)
        from Pipeline.unscopedBufs_held c (bufs0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs7 m ρ c b)
    (hfin := fun c s' => by
      iintro ⟨⟨Hh, -⟩, HSI⟩
      unfold StableHlo.held
      imodintro
      iapply (pointsTo_read_all (Pipeline.ucRefs τ sig) (fun b => (((c : Thread nD τ)).1, b)) (bufs7 m ρ c) s')
      isplitl [Hh] <;> iassumption)
    (hQ := fun s h => h)

/-! ## What the claims ask of the run -/

/-- An argument's buffer at the return is its launch contents. -/
theorem kept (c : Dev nD) (b : Ref sig .tc) (h0 : b ∉ hostOps0_W) (h1 : b ∉ hostOps1_W) (h2 : b ∉ hostOps2_W)
    (h3 : b ∉ hostOps3_W) (a0 : ∀ w, Pipeline.arrRef spec0 w ≠ b) (a1 : ∀ w, Pipeline.arrRef spec1 w ≠ b)
    (a2 : ∀ w, Pipeline.arrRef spec2 w ≠ b) (hu : ¬ (Proc.devRef .tc b : DevRef τ sig).isScoped)
    (r : PUnit × MemSt nD τ sig (Elt F))
    (h : ∀ c : Dev nD, ∀ b ∈ Pipeline.ucRefs τ sig, r.2.mem (((c : Thread nD τ)).1, b) = bufs7 m ρ c b) :
    r.2.mem ((c.tc : Thread nD τ).loc b) = m ((c.tc : Thread nD τ).loc b) :=
  (h c _ (mem_uc b hu)).trans (bufs7_untouched m ρ c b h0 h1 h2 h3 a0 a1 a2)

/-- The run with the result's buffer named and the nine arguments as launched: the post both value claims are read
    from. -/
theorem run_result : θ_run defs (onTc (τ := τ) (main (F := F))) ⟨m, fun _ => 0, ρ⟩ (fun r => ∀ c : Dev nD,
      r.2.mem ((c.tc : Thread nD τ).loc main_v20) = bufs7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v20 (by decide)),
    kept m ρ c main_arg0 (by decide) (by decide) (by decide) (by decide) (by decide) (by decide) (by decide) (by decide) r h,
    kept m ρ c main_arg1 (by decide) (by decide) (by decide) (by decide) (by decide) (by decide) (by decide) (by decide) r h,
    kept m ρ c main_arg2 (by decide) (by decide) (by decide) (by decide) (by decide) (by decide) (by decide) (by decide) r h,
    kept m ρ c main_arg3 (by decide) (by decide) (by decide) (by decide) (by decide) (by decide) (by decide) (by decide) r h,
    kept m ρ c main_arg4 (by decide) (by decide) (by decide) (by decide) (by decide) (by decide) (by decide) (by decide) r h,
    kept m ρ c main_arg5 (by decide) (by decide) (by decide) (by decide) (by decide) (by decide) (by decide) (by decide) r h,
    kept m ρ c main_arg6 (by decide) (by decide) (by decide) (by decide) (by decide) (by decide) (by decide) (by decide) r h,
    kept m ρ c main_arg7 (by decide) (by decide) (by decide) (by decide) (by decide) (by decide) (by decide) (by decide) r h,
    kept m ρ c main_arg8 (by decide) (by decide) (by decide) (by decide) (by decide) (by decide) (by decide) (by decide) r h⟩)
    (run_all m ρ)

/-- THE FRAME: every weakly fair execution terminates, nothing faulting, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Hand

end
-- ==== Proof.KernelIdeal.ProjectionBody.lean ====
/-
  The first of the program's three kernels — the fused projection: one row block of 512 tokens times the joined
  weight matrix [1024, 3072], plus the joined bias, cut into its query / key / value thirds (the query third scaled
  by 1/8) and each third re-laid head-major [16, 1, 512, 64] — as a Hoare triple over its six staging buffers, for any
  float instance: the three input buffers are read and kept, and each of the three output buffers ends holding the
  one whole-buffer store of its payload (the skeleton's pure term of the three loaded blocks). From the triple: the
  proof data of the pipeline at ANY contents `V` of the core's buffers at the region's entry (every input buffer holds
  its window's block of `V`'s array at each grid point; every output buffer what the body stores there), and the
  library's body obligation at every grid point.
-/
import proofs.«133815_j49941879717923_2_alg».proof.Proof.Gen.KernelIdeal.Launch
import proofs.«133815_j49941879717923_2_alg».proof.Proof.Gen.KernelIdeal.Skeleton
import proofs.«133815_j49941879717923_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The token rows' staging buffer holds the point's row block at every point, for any proof data over `V`'s array
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The joined weights' staging buffer (fetched once: its block index never moves) holds the whole matrix at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The joined bias' staging buffer (fetched once) holds the whole bias row at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read and written whole -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0
abbrev r0_3 : Rect S16x1x512x64 := Rect.unit (s := S16x1x512x64) ![0, 0, 0, 0] S16x1x512x64.size inb_S16x1x512x64_S16x1x512x64_0_0_0_0

/-! ## What the body leaves in each output buffer -/

/-- The query buffer after the body: one whole-buffer store of the scaled, re-laid query third. -/
def out0_3 (x0 : Vec F S512x1024 .f32) (x1 : Vec F S1024x3072 .bf16) (x2 : Vec F S1x3072 .f32) : Vec F S16x1x512x64 .bf16 :=
  View.canon [⟨r0_3, k0_pay2 (View.ld x0 r0_0) (View.ld x1 r0_1) (View.ld x2 r0_2)⟩]
/-- The key buffer after the body: one whole-buffer store of the re-laid key third. -/
def out0_4 (x0 : Vec F S512x1024 .f32) (x1 : Vec F S1024x3072 .bf16) (x2 : Vec F S1x3072 .f32) : Vec F S16x1x512x64 .bf16 :=
  View.canon [⟨r0_3, k0_pay3 (View.ld x0 r0_0) (View.ld x1 r0_1) (View.ld x2 r0_2)⟩]
/-- The value buffer after the body: one whole-buffer store of the re-laid value third. -/
def out0_5 (x0 : Vec F S512x1024 .f32) (x1 : Vec F S1024x3072 .bf16) (x2 : Vec F S1x3072 .f32) : Vec F S16x1x512x64 .bf16 :=
  View.canon [⟨r0_3, k0_pay4 (View.ld x0 r0_0) (View.ld x1 r0_1) (View.ld x2 r0_2)⟩]

/-- One whole-buffer store covers the buffer. -/
theorem cover0 (p0 : Vec F S16x1x512x64 .bf16) (y : S16x1x512x64.Idx) :
    ∃ pc ∈ ([⟨r0_3, p0⟩] : List (View.Piece (Elt F) S16x1x512x64 .bf16)), y ∈ pc.1.set :=
  View.cover_of_tiled [⟨r0_3, p0⟩] S16x1x512x64.size (by rfl) y

/-! ## The body's triple -/

set_option maxHeartbeats 4000000 in
/-- The body on whole staging buffers — the inputs' at contents `x0 x1 x2`, the outputs' at anything — runs to the
    continuation with the inputs' buffers as they were and each output's at its one store's payload. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S16x1x512x64 .bf16) (harg4 : arg4.IsWhole) (arg5 : Memref sig .tc .vmem S16x1x512x64 .bf16) (harg5 : arg5.IsWhole) (arg6 : Memref sig .tc .vmem S16x1x512x64 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of the projection pipeline on core `c`: the arrays as the region finds them; after the body at
    point `t` each input buffer at its block and each output buffer at its payload of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.AttentionBody.lean ====
/-
  The second of the program's three kernels — attention for one head and one block of 1024 query rows: the scores
  q kᵀ [1024, 2048] against the head's whole key matrix, each score s turned into s · (1 / (1 + |s|)), and the result
  times the head's whole value matrix — as a Hoare triple over its four staging buffers, for any float instance: the
  three input buffers are read and kept, the output buffer ends holding the one whole-buffer store of its payload
  (the skeleton's pure term of the three loaded blocks). From the triple: the proof data of the pipeline at ANY
  contents `V` of the core's buffers at the region's entry, and the library's body obligation at every grid point.
-/
import proofs.«133815_j49941879717923_2_alg».proof.Proof.Gen.KernelIdeal.Launch
import proofs.«133815_j49941879717923_2_alg».proof.Proof.Gen.KernelIdeal.Skeleton
import proofs.«133815_j49941879717923_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query rows' staging buffer holds the point's block of 1024 query rows at every point, for any proof data over `V`'s array whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The keys' staging buffer holds the head's whole key matrix at every point (fetched when the head changes, unmoved between). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The values' staging buffer holds the head's whole value matrix at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read and written whole -/

abbrev r1_0 : Rect S1x1024x64 := Rect.unit (s := S1x1024x64) ![0, 0, 0] S1x1024x64.size inb_S1x1024x64_S1x1024x64_0_0_0
abbrev r1_1 : Rect S1x2048x64 := Rect.unit (s := S1x2048x64) ![0, 0, 0] S1x2048x64.size inb_S1x2048x64_S1x2048x64_0_0_0

/-! ## What the body leaves in the output buffer -/

/-- The context buffer after the body: one whole-buffer store of the attention payload. -/
def out1_3 (x0 : Vec F S1x1024x64 .bf16) (x1 : Vec F S1x2048x64 .bf16) (x2 : Vec F S1x2048x64 .bf16) : Vec F S1x1024x64 .bf16 :=
  View.canon [⟨r1_0, k1_pay1 (View.ld x0 r1_0) (View.ld x1 r1_1) (View.ld x2 r1_1)⟩]

/-- One whole-buffer store covers the buffer. -/
theorem cover1 (p0 : Vec F S1x1024x64 .bf16) (y : S1x1024x64.Idx) :
    ∃ pc ∈ ([⟨r1_0, p0⟩] : List (View.Piece (Elt F) S1x1024x64 .bf16)), y ∈ pc.1.set :=
  View.cover_of_tiled [⟨r1_0, p0⟩] S1x1024x64.size (by rfl) y

/-! ## The body's triple -/

set_option maxHeartbeats 4000000 in
/-- The body on whole staging buffers — the inputs' at contents `x0 x1 x2`, the output's at anything — runs to the
    continuation with the inputs' buffers as they were and the output's at its one store's payload. -/
theorem sound_kernel1 (c : Dev nD) (E : Set ℕ) (i : grid1.Coords) (arg2 : Memref sig .tc .vmem S1x1024x64 .bf16) (harg2 : arg2.IsWhole) (arg3 : Memref sig .tc .vmem S1x2048x64 .bf16) (harg3 : arg3.IsWhole) (arg4 : Memref sig .tc .vmem S1x2048x64 .bf16) (harg4 : arg4.IsWhole) (arg5 : Memref sig .tc .vmem S1x1024x64 .bf16) (harg5 : arg5.IsWhole)
    (x0 : Vec F S1x1024x64 .bf16) (x1 : Vec F S1x2048x64 .bf16) (x2 : Vec F S1x2048x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The pipeline's proof data -/

/-- The proof data of the attention pipeline on core `c`: the arrays as the region finds them; after the body at point
    `t` each input buffer at its block and the output buffer at its payload of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.OutputBody.lean ====
/-
  The third of the program's three kernels — the output projection: one block of 512 token rows of the head-major
  context [16, 1, 512, 64] re-laid to [512, 1024], times the weight matrix [1024, 1024], plus the bias row — as a Hoare
  triple over its four staging buffers, for any float instance: the three input buffers are read and kept, the output
  buffer ends holding the one whole-buffer store of its payload (the skeleton's pure term of the three loaded blocks).
  From the triple: the proof data of the pipeline at ANY contents `V` of the core's buffers at the region's entry, and
  the library's body obligation at every grid point.
-/
import proofs.«133815_j49941879717923_2_alg».proof.Proof.Gen.KernelIdeal.Launch
import proofs.«133815_j49941879717923_2_alg».proof.Proof.Gen.KernelIdeal.Skeleton
import proofs.«133815_j49941879717923_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at grid point `t`, read off the window's array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The context's staging buffer holds the point's block (all heads, 512 token rows) at every point, for any proof data over `V`'s array whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer (fetched once: its block index never moves) holds the whole matrix at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias' staging buffer (fetched once) holds the whole bias row at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read and written whole -/

abbrev r2_0 : Rect S16x1x512x64 := Rect.unit (s := S16x1x512x64) ![0, 0, 0, 0] S16x1x512x64.size inb_S16x1x512x64_S16x1x512x64_0_0_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0
abbrev r2_3 : Rect S512x1024 := Rect.unit (s := S512x1024) ![0, 0] S512x1024.size inb_S512x1024_S512x1024_0_0

/-! ## What the body leaves in the output buffer -/

/-- The result buffer after the body: one whole-buffer store of the projected rows. -/
def out2_3 (x0 : Vec F S16x1x512x64 .bf16) (x1 : Vec F S1024x1024 .bf16) (x2 : Vec F S1x1024 .f32) : Vec F S512x1024 .f32 :=
  View.canon [⟨r2_3, k2_pay1 (View.ld x0 r2_0) (View.ld x1 r2_1) (View.ld x2 r2_2)⟩]

/-- One whole-buffer store covers the buffer. -/
theorem cover2 (p0 : Vec F S512x1024 .f32) (y : S512x1024.Idx) :
    ∃ pc ∈ ([⟨r2_3, p0⟩] : List (View.Piece (Elt F) S512x1024 .f32)), y ∈ pc.1.set :=
  View.cover_of_tiled [⟨r2_3, p0⟩] S512x1024.size (by rfl) y

/-! ## The body's triple -/

set_option maxHeartbeats 4000000 in
/-- The body on whole staging buffers — the inputs' at contents `x0 x1 x2`, the output's at anything — runs to the
    continuation with the inputs' buffers as they were and the output's at its one store's payload. -/
theorem sound_kernel2 (c : Dev nD) (E : Set ℕ) (i : grid2.Coords) (arg1 : Memref sig .tc .vmem S16x1x512x64 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole)
    (x0 : Vec F S16x1x512x64 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__outproj_kernel i arg1 harg1 arg2 harg2 arg3 harg3 arg4 harg4) K := by
  simp only [cc2__outproj_kernel_eq_skeleton]; unfold cc2__outproj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-! ## The pipeline's proof data -/

/-- The proof data of the output-projection pipeline on core `c`: the arrays as the region finds them; after the body
    at point `t` each input buffer at its block and the output buffer at its payload of the input blocks; the
    invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Stages.lean ====
/-
  The run of the whole program: four stretches of host operations (the re-layouts of the arguments, three reshapes
  between the kernels, the last reshape) around the three kernels, from the launch to the return, for any float
  instance. The buffers' contents at the eight boundaries are a fold from the launch memory (`bufs0 … bufs7`: a host
  stretch applies its operations, `StableHlo.after`; a kernel's pipeline leaves its input arrays as entered and each
  output array at what its write-backs fold to, `Dat.arrAt … N`, every other buffer untouched). Each kernel enters
  the run as a segment record over its body obligation (Proof/KernelIdeal/ProjectionBody, AttentionBody, OutputBody), each
  host stretch as a line of operations; the library's launch theorem for a list of segments then gives `run_all`:
  every weakly fair execution terminates, faulting nowhere, with every unscoped buffer at `bufs7`. Two corollaries are
  what the claims ask: the nine arguments end as launched (`frame`: no host operation and no kernel writes an
  argument), and the result array is `bufs7` at the result's buffer (`run_result`).
-/
import proofs.«133815_j49941879717923_2_alg».proof.Proof.KernelIdeal.ProjectionBody
import proofs.«133815_j49941879717923_2_alg».proof.Proof.KernelIdeal.AttentionBody
import proofs.«133815_j49941879717923_2_alg».proof.Proof.KernelIdeal.OutputBody
import proofs.«133815_j49941879717923_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary: a fold through the program -/

/-- Core `c`'s buffers at launch. -/
abbrev bufs0 : Dev nD → Valuation τ sig (Elt F) := fun c b => (s₀ m ρ).mem ((c : Dev nD), b)
/-- After the first host stretch (the arguments re-laid: the first kernel's entry). -/
abbrev bufs1 : Dev nD → Valuation τ sig (Elt F) := fun c => StableHlo.after hostOps0 (bufs0 m ρ c)
/-- The same read at the core's references (what the first kernel's proof data take). -/
abbrev ent1 : (c : Dev nD) → (b : Ref sig .tc) → Buf (Elt F) ((c : Thread nD τ).loc b) := fun c b => bufs1 m ρ c b
/-- At the first kernel's exit: its arrays at what the pipeline leaves, every other buffer as entered. -/
def bufs2 (c : Dev nD) : Valuation τ sig (Elt F) :=
  Pipeline.withArrays spec0 c (bufs1 m ρ c) fun w => (dat0 (ent1 m ρ) c).arrAt w cfg0.N
theorem bufs2_arr (c : Dev nD) (w : Fin cfg0.W) :
    bufs2 m ρ c (Proc.devRef .tc (Pipeline.arrRef spec0 w)) = (dat0 (ent1 m ρ) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m ρ c (Proc.devRef .tc b) = bufs1 m ρ c (Proc.devRef .tc b) := by
  unfold bufs2; exact Pipeline.withArrays_of_ne spec0 c _ _ b hb
abbrev ext2 : (c : Dev nD) → (b : Ref sig .tc) → Buf (Elt F) ((c : Thread nD τ).loc b) := fun c b => bufs2 m ρ c b
theorem left0 (c : Dev nD) (w : Fin cfg0.W) : (dat0 (ent1 m ρ) c).arrAt w cfg0.N = ext2 m ρ c (Pipeline.arrRef spec0 w) :=
  (bufs2_arr m ρ c w).symm
theorem others0 (c : Dev nD) : ∀ b, b ∉ Finset.univ.image (Pipeline.arrRef spec0) → ext2 m ρ c b = ent1 m ρ c b :=
  fun b hb => bufs2_of_ne m ρ c b fun w e => hb (Finset.mem_image.mpr ⟨w, Finset.mem_univ _, e⟩)

/-- After the second host stretch (the three projections read as 64 pairs: the attention kernel's entry). -/
abbrev bufs3 : Dev nD → Valuation τ sig (Elt F) := fun c => StableHlo.after hostOps1 (bufs2 m ρ c)
abbrev ent3 : (c : Dev nD) → (b : Ref sig .tc) → Buf (Elt F) ((c : Thread nD τ).loc b) := fun c b => bufs3 m ρ c b
/-- At the attention kernel's exit. -/
def bufs4 (c : Dev nD) : Valuation τ sig (Elt F) :=
  Pipeline.withArrays spec1 c (bufs3 m ρ c) fun w => (dat1 (ent3 m ρ) c).arrAt w cfg1.N
theorem bufs4_arr (c : Dev nD) (w : Fin cfg1.W) :
    bufs4 m ρ c (Proc.devRef .tc (Pipeline.arrRef spec1 w)) = (dat1 (ent3 m ρ) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m ρ c (Proc.devRef .tc b) = bufs3 m ρ c (Proc.devRef .tc b) := by
  unfold bufs4; exact Pipeline.withArrays_of_ne spec1 c _ _ b hb
abbrev ext4 : (c : Dev nD) → (b : Ref sig .tc) → Buf (Elt F) ((c : Thread nD τ).loc b) := fun c b => bufs4 m ρ c b
theorem left1 (c : Dev nD) (w : Fin cfg1.W) : (dat1 (ent3 m ρ) c).arrAt w cfg1.N = ext4 m ρ c (Pipeline.arrRef spec1 w) :=
  (bufs4_arr m ρ c w).symm
theorem others1 (c : Dev nD) : ∀ b, b ∉ Finset.univ.image (Pipeline.arrRef spec1) → ext4 m ρ c b = ent3 m ρ c b :=
  fun b hb => bufs4_of_ne m ρ c b fun w e => hb (Finset.mem_image.mpr ⟨w, Finset.mem_univ _, e⟩)

/-- After the third host stretch (the context read head-major, the last bias as a row: the last kernel's entry). -/
abbrev bufs5 : Dev nD → Valuation τ sig (Elt F) := fun c => StableHlo.after hostOps2 (bufs4 m ρ c)
abbrev ent5 : (c : Dev nD) → (b : Ref sig .tc) → Buf (Elt F) ((c : Thread nD τ).loc b) := fun c b => bufs5 m ρ c b
/-- At the last kernel's exit. -/
def bufs6 (c : Dev nD) : Valuation τ sig (Elt F) :=
  Pipeline.withArrays spec2 c (bufs5 m ρ c) fun w => (dat2 (ent5 m ρ) c).arrAt w cfg2.N
theorem bufs6_arr (c : Dev nD) (w : Fin cfg2.W) :
    bufs6 m ρ c (Proc.devRef .tc (Pipeline.arrRef spec2 w)) = (dat2 (ent5 m ρ) c).arrAt w cfg2.N := by
  unfold bufs6; exact Pipeline.withArrays_arr spec2 launch2.win.arr_inj c _ _ w
theorem bufs6_of_ne (c : Dev nD) (b : Ref sig .tc) (hb : ∀ w, Pipeline.arrRef spec2 w ≠ b) :
    bufs6 m ρ c (Proc.devRef .tc b) = bufs5 m ρ c (Proc.devRef .tc b) := by
  unfold bufs6; exact Pipeline.withArrays_of_ne spec2 c _ _ b hb
abbrev ext6 : (c : Dev nD) → (b : Ref sig .tc) → Buf (Elt F) ((c : Thread nD τ).loc b) := fun c b => bufs6 m ρ c b
theorem left2 (c : Dev nD) (w : Fin cfg2.W) : (dat2 (ent5 m ρ) c).arrAt w cfg2.N = ext6 m ρ c (Pipeline.arrRef spec2 w) :=
  (bufs6_arr m ρ c w).symm
theorem others2 (c : Dev nD) : ∀ b, b ∉ Finset.univ.image (Pipeline.arrRef spec2) → ext6 m ρ c b = ent5 m ρ c b :=
  fun b hb => bufs6_of_ne m ρ c b fun w e => hb (Finset.mem_image.mpr ⟨w, Finset.mem_univ _, e⟩)

/-- After the last host stretch (the result rows read as [4, 2048, 1024]): the return. -/
abbrev bufs7 : Dev nD → Valuation τ sig (Elt F) := fun c => StableHlo.after hostOps3 (bufs6 m ρ c)

/-- A buffer that no host operation writes and that is no kernel's array ends as launched: the fold at its reference
    walks back to the launch memory. -/
theorem bufs7_untouched (c : Dev nD) (b : Ref sig .tc) (h0 : b ∉ hostOps0_W) (h1 : b ∉ hostOps1_W) (h2 : b ∉ hostOps2_W)
    (h3 : b ∉ hostOps3_W) (a0 : ∀ w, Pipeline.arrRef spec0 w ≠ b) (a1 : ∀ w, Pipeline.arrRef spec1 w ≠ b)
    (a2 : ∀ w, Pipeline.arrRef spec2 w ≠ b) :
    bufs7 m ρ c (Proc.devRef .tc b) = m ((c : Thread nD τ).loc b) :=
  calc bufs7 m ρ c (Proc.devRef .tc b)
    _ = bufs6 m ρ c (Proc.devRef .tc b) := StableHlo.after_of_writes_sub hostOps3 _ hostOps3_writes h3
    _ = bufs5 m ρ c (Proc.devRef .tc b) := bufs6_of_ne m ρ c b a2
    _ = bufs4 m ρ c (Proc.devRef .tc b) := StableHlo.after_of_writes_sub hostOps2 _ hostOps2_writes h2
    _ = bufs3 m ρ c (Proc.devRef .tc b) := bufs4_of_ne m ρ c b a1
    _ = bufs2 m ρ c (Proc.devRef .tc b) := StableHlo.after_of_writes_sub hostOps1 _ hostOps1_writes h1
    _ = bufs1 m ρ c (Proc.devRef .tc b) := bufs2_of_ne m ρ c b a0
    _ = bufs0 m ρ c (Proc.devRef .tc b) := StableHlo.after_of_writes_sub hostOps0 _ hostOps0_writes h0
    _ = m ((c : Thread nD τ).loc b) := rfl

/-! ## The proof data family and the thread state -/

/-- The prefetched tables' admissible contents: no pipeline has a table. -/
abbrev tables : (p : Fin 3) → (pcfgs (F := F) p).Adm := fun p => (cfgs p).toPCfg_adm
/-- Every pipeline's proof data, each at its kernel's entry contents — a literal match on the pipeline's number. -/
def pdats : (p : Fin 3) → (c : Dev nD) → Dat τ (Elt F) Unit ℕ (UR sig nD τ) ℕ (Pipeline.pin (pcfgs (F := F)) tables p) c
  | ⟨0, _⟩ => fun c => dat0 (ent1 m ρ) c
  | ⟨1, _⟩ => fun c => dat1 (ent3 m ρ) c
  | ⟨2, _⟩ => fun c => dat2 (ent5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues,
    at nothing. -/
abbrev rest (c : Dev nD) : sProp 𝕄 := iprop((∃ r, prngReg c r) ∗ ∃ W, owes (c : Thread nD τ) (0 : CellTallies nD τ sig Unit) W)
/-- A host stretch as a segment: a line of operations over the unscoped references from the contents `W`, `rest` riding
    along. -/
abbrev hostStage (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev lastState (c : Dev nD) : sProp 𝕄 := iprop(StableHlo.held (c : Thread nD τ) (Pipeline.ucRefs τ sig) (bufs7 m ρ c) ∗ ∃ r, prngReg c r)

/-! ## The kernels as segments -/

-- the library's lemmas are stated over the pinned configuration `pin pcs a p`, which unifies with the printed one only
-- when unification may unfold plain definitions in a metavariable's type
set_option backward.isDefEq.respectTransparency.types false in
/-- THE PROJECTION KERNEL as a segment of the run: entered from every unscoped buffer at `bufs1`, left at `bufs2`. Its arrays are
    split out of the unscoped buffers on entry and put back at their exit contents; the generator register goes into
    the pipeline's invariant and comes out; nothing is owed; the kernel has no semaphore of its own. -/
def region0 : Pipeline.RegionSeg (pcfgs (F := F)) tables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent1 m ρ) c).loose
  hwaits := Pipeline.hwaits_of_owed_zero _ _ _ _ L lv 0 fun _ _ => rfl
  pre c := iprop(StableHlo.held (c : Thread nD τ) (Pipeline.ucRefs τ sig) (bufs1 m ρ c) ∗ rest c)
  post c := iprop(StableHlo.held (c : Thread nD τ) (Pipeline.ucRefs τ sig) (bufs2 m ρ c) ∗ rest c)
  X c := iprop(∃ r, prngReg c r)
  Y c := iprop(∃ r, prngReg c r)
  Z c := Pipeline.unscopedRest (Ix := Unit) (Name := ℕ) (U := UR sig nD τ) (Lvl := ℕ) spec0 c (ent1 m ρ c)
  hentry c := by
    rw [Pipeline.ownSems0_none]
    have hsplit := Pipeline.arrays_of_unscopedBufs (p := 0) (pcfgs (F := F)) tables (pdats m ρ) launch0.win launch0.arr_whole c
      ((pdats m ρ 0 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m ρ) ((pdats m ρ 0 c).share_full fun _ => rfl)
      (ent1 m ρ c) (ext2 m ρ c) ((pdats m ρ 0 c).arrAt · cfg0.N) (left0 m ρ c) (others0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`, which unifies with the printed one only
-- when unification may unfold plain definitions in a metavariable's type
set_option backward.isDefEq.respectTransparency.types false in
/-- THE ATTENTION KERNEL as a segment of the run: entered from every unscoped buffer at `bufs3`, left at `bufs4`. Its arrays are
    split out of the unscoped buffers on entry and put back at their exit contents; the generator register goes into
    the pipeline's invariant and comes out; nothing is owed; the kernel has no semaphore of its own. -/
def region1 : Pipeline.RegionSeg (pcfgs (F := F)) tables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent3 m ρ) c).loose
  hwaits := Pipeline.hwaits_of_owed_zero _ _ _ _ L lv 1 fun _ _ => rfl
  pre c := iprop(StableHlo.held (c : Thread nD τ) (Pipeline.ucRefs τ sig) (bufs3 m ρ c) ∗ rest c)
  post c := iprop(StableHlo.held (c : Thread nD τ) (Pipeline.ucRefs τ sig) (bufs4 m ρ c) ∗ rest c)
  X c := iprop(∃ r, prngReg c r)
  Y c := iprop(∃ r, prngReg c r)
  Z c := Pipeline.unscopedRest (Ix := Unit) (Name := ℕ) (U := UR sig nD τ) (Lvl := ℕ) spec1 c (ent3 m ρ c)
  hentry c := by
    rw [Pipeline.ownSems0_none]
    have hsplit := Pipeline.arrays_of_unscopedBufs (p := 1) (pcfgs (F := F)) tables (pdats m ρ) launch1.win launch1.arr_whole c
      ((pdats m ρ 1 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m ρ) ((pdats m ρ 1 c).share_full fun _ => rfl)
      (ent3 m ρ c) (ext4 m ρ c) ((pdats m ρ 1 c).arrAt · cfg1.N) (left1 m ρ c) (others1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration `pin pcs a p`, which unifies with the printed one only
-- when unification may unfold plain definitions in a metavariable's type
set_option backward.isDefEq.respectTransparency.types false in
/-- THE OUTPUT-PROJECTION KERNEL as a segment of the run: entered from every unscoped buffer at `bufs5`, left at `bufs6`. Its arrays are
    split out of the unscoped buffers on entry and put back at their exit contents; the generator register goes into
    the pipeline's invariant and comes out; nothing is owed; the kernel has no semaphore of its own. -/
def region2 : Pipeline.RegionSeg (pcfgs (F := F)) tables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent5 m ρ) c).loose
  hwaits := Pipeline.hwaits_of_owed_zero _ _ _ _ L lv 2 fun _ _ => rfl
  pre c := iprop(StableHlo.held (c : Thread nD τ) (Pipeline.ucRefs τ sig) (bufs5 m ρ c) ∗ rest c)
  post c := iprop(StableHlo.held (c : Thread nD τ) (Pipeline.ucRefs τ sig) (bufs6 m ρ c) ∗ rest c)
  X c := iprop(∃ r, prngReg c r)
  Y c := iprop(∃ r, prngReg c r)
  Z c := Pipeline.unscopedRest (Ix := Unit) (Name := ℕ) (U := UR sig nD τ) (Lvl := ℕ) spec2 c (ent5 m ρ c)
  hentry c := by
    rw [Pipeline.ownSems0_none]
    have hsplit := Pipeline.arrays_of_unscopedBufs (p := 2) (pcfgs (F := F)) tables (pdats m ρ) launch2.win launch2.arr_whole c
      ((pdats m ρ 2 c).share_full fun _ => rfl) (ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) tables (Ix := Unit) (Name := ℕ) (U := UR sig nD τ) (Lvl := ℕ)
      launch2.win launch2.arr_whole c (pdats m ρ) ((pdats m ρ 2 c).share_full fun _ => rfl)
      (ent5 m ρ c) (ext6 m ρ c) ((pdats m ρ 2 c).arrAt · cfg2.N) (left2 m ρ c) (others2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 7 segments in order: a host segment per stretch from its boundary's contents, a record per kernel. -/
abbrev stages : List (Pipeline.Seg (pcfgs (F := F)) tables (pdats m ρ) () defs₀ 𝒱₀ L lv) :=
  [ .host (hostStage hostOps0 hostOps0_sub hostOps0_fresh (bufs0 m ρ)),
    .region (region0 m ρ),
    .host (hostStage hostOps1 hostOps1_sub hostOps1_fresh (bufs2 m ρ)),
    .region (region1 m ρ),
    .host (hostStage hostOps2 hostOps2_sub hostOps2_fresh (bufs4 m ρ)),
    .region (region2 m ρ),
    .host (hostStage hostOps3 hostOps3_sub hostOps3_fresh (bufs6 m ρ)) ]
/-- The program IS the run of the segments. -/
theorem main_run (c : Dev nD) : main (F := F) c = Pipeline.Seg.run (stages m ρ) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of the program on the cores terminates,
    nothing faulting, and every final state has every unscoped buffer of every core at `bufs7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bufs7 m ρ c b) :=
  Pipeline.θ_run_regions_kit (pcfgs (F := F)) tables (pdats m ρ) () cellOf_inj emb₁ defs₀ 𝒱₀ L lv m ρ main (stages m ρ)
    (fun c Q => by rw [main_run m ρ c])
    (by simp only [stages, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m ρ c) ∗ rest c)) (Tₙ := lastState m ρ)
    (hch := ⟨fun _ => .rfl, fun _ => .rfl, fun _ => .rfl, fun _ => .rfl, fun _ => .rfl, fun _ => .rfl, fun _ => .rfl, fun c =>
      (show (iprop(StableHlo.held (c : Thread nD τ) (Pipeline.ucRefs τ sig) (bufs7 m ρ c) ∗ rest c) : sProp 𝕄)
          ⊢ iprop(lastState m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (bufs0 m ρ c)
        from Pipeline.unscopedBufs_held c (bufs0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs7 m ρ c b)
    (hfin := fun c s' => by
      iintro ⟨⟨Hh, -⟩, HSI⟩
      unfold StableHlo.held
      imodintro
      iapply (pointsTo_read_all (Pipeline.ucRefs τ sig) (fun b => (((c : Thread nD τ)).1, b)) (bufs7 m ρ c) s')
      isplitl [Hh] <;> iassumption)
    (hQ := fun s h => h)

/-! ## What the claims ask of the run -/

/-- An argument's buffer at the return is its launch contents. -/
theorem kept (c : Dev nD) (b : Ref sig .tc) (h0 : b ∉ hostOps0_W) (h1 : b ∉ hostOps1_W) (h2 : b ∉ hostOps2_W)
    (h3 : b ∉ hostOps3_W) (a0 : ∀ w, Pipeline.arrRef spec0 w ≠ b) (a1 : ∀ w, Pipeline.arrRef spec1 w ≠ b)
    (a2 : ∀ w, Pipeline.arrRef spec2 w ≠ b) (hu : ¬ (Proc.devRef .tc b : DevRef τ sig).isScoped)
    (r : PUnit × MemSt nD τ sig (Elt F))
    (h : ∀ c : Dev nD, ∀ b ∈ Pipeline.ucRefs τ sig, r.2.mem (((c : Thread nD τ)).1, b) = bufs7 m ρ c b) :
    r.2.mem ((c.tc : Thread nD τ).loc b) = m ((c.tc : Thread nD τ).loc b) :=
  (h c _ (mem_uc b hu)).trans (bufs7_untouched m ρ c b h0 h1 h2 h3 a0 a1 a2)

/-- The run with the result's buffer named and the nine arguments as launched: the post both value claims are read
    from. -/
theorem run_result : θ_run defs (onTc (τ := τ) (main (F := F))) ⟨m, fun _ => 0, ρ⟩ (fun r => ∀ c : Dev nD,
      r.2.mem ((c.tc : Thread nD τ).loc main_v20) = bufs7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v20 (by decide)),
    kept m ρ c main_arg0 (by decide) (by decide) (by decide) (by decide) (by decide) (by decide) (by decide) (by decide) r h,
    kept m ρ c main_arg1 (by decide) (by decide) (by decide) (by decide) (by decide) (by decide) (by decide) (by decide) r h,
    kept m ρ c main_arg2 (by decide) (by decide) (by decide) (by decide) (by decide) (by decide) (by decide) (by decide) r h,
    kept m ρ c main_arg3 (by decide) (by decide) (by decide) (by decide) (by decide) (by decide) (by decide) (by decide) r h,
    kept m ρ c main_arg4 (by decide) (by decide) (by decide) (by decide) (by decide) (by decide) (by decide) (by decide) r h,
    kept m ρ c main_arg5 (by decide) (by decide) (by decide) (by decide) (by decide) (by decide) (by decide) (by decide) r h,
    kept m ρ c main_arg6 (by decide) (by decide) (by decide) (by decide) (by decide) (by decide) (by decide) (by decide) r h,
    kept m ρ c main_arg7 (by decide) (by decide) (by decide) (by decide) (by decide) (by decide) (by decide) (by decide) r h,
    kept m ρ c main_arg8 (by decide) (by decide) (by decide) (by decide) (by decide) (by decide) (by decide) (by decide) r h⟩)
    (run_all m ρ)

/-- THE FRAME: every weakly fair execution terminates, nothing faulting, and the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Hand

end
-- ==== Proof.Spec.lean ====
/-
  The mathematics of the certificate, with no program in sight: multi-head attention with a softsign in place of the
  softmax, over extended-real arrays of the literal extents (4 batches, 2048 positions, width 1024 = 16 heads of 64
  lanes).

  * The three kernels as whole-array functions of the arrays each one finds: the fused projection's three thirds
    (`qArr`, `kArr`, `vArr`: x·w + bias at a column of the joined [1024, 3072] weights, head-major, the query third
    times the word 1/8), attention per (head, batch) pair (`attnArr`: Σ_s σ(Σ_d q·k)·v with σ z = z·(1/(1+|z|))),
    and the output projection (`outArr`: the context re-laid to rows of 1024 columns, times the weights, plus bias).
  * The layouts the host code puts between them (`rows`, `joinedWeights`, `joinedBias`, `mergeHeads`, `splitHeads`,
    `transposed`, `asRow`, `unrows`), and their composition `kernelOut`: what the kernel program computes.
  * `referenceOut`: what the reference computes — three linear layers, scores Σ_d q·k divided by √64, z/(|z|+1),
    Σ_s attn·v, a last linear layer.
  The two agree when the arguments are real numbers (Proof/ScoreLaw.lean); nothing here needs that.
-/
import Idealize.ShloMosaic.PureOps.Ideal
import Idealize.ShloMosaic.Lib.ValueIdx

noncomputable section

namespace Cert.Attn

open Idealize.ShloMosaic Idealize.ShloMosaic.ValueIdx

/-! ## Arrays and index arithmetic -/

abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal
abbrev A4 (a b c d : Nat) := (⟨4, ![a, b, c, d]⟩ : Shape).Idx → EReal

/-- Column `64 h + d` of a row of width 1024: lane `d` of head `h`. -/
def col (h : Fin 16) (d : Fin 64) : Fin 1024 := ⟨h.val * 64 + d.val, by omega⟩
/-- Column `1024 p + 64 h + d` of the joined width 3072: lane `d` of head `h` in third `p`. -/
def colAt (p : Fin 3) (h : Fin 16) (d : Fin 64) : Fin 3072 := ⟨p.val * 1024 + (h.val * 64 + d.val), by omega⟩
/-- The head and the lane of a column of width 1024. -/
def headOf (e : Fin 1024) : Fin 16 := ⟨e.val / 64, by omega⟩
def laneOf (e : Fin 1024) : Fin 64 := ⟨e.val % 64, by omega⟩
/-- Row `2048 b + s` of the 8192 token rows, and back. -/
def tok (b : Fin 4) (s : Fin 2048) : Fin 8192 := ⟨b.val * 2048 + s.val, by omega⟩
def batchOf (r : Fin 8192) : Fin 4 := ⟨r.val / 2048, by omega⟩
def posOf (r : Fin 8192) : Fin 2048 := ⟨r.val % 2048, by omega⟩
/-- The (head, batch) pair `4 h + b` of the 64 attention problems, and back. -/
def pairOf (h : Fin 16) (b : Fin 4) : Fin 64 := ⟨h.val * 4 + b.val, by omega⟩
def pairHead (p : Fin 64) : Fin 16 := ⟨p.val / 4, by omega⟩
def pairBatch (p : Fin 64) : Fin 4 := ⟨p.val % 4, by omega⟩

/-- The float words the kernel spells: 1/8 (the folded 1/√64) and 1. -/
def eighthWord : EReal := Ideal.ofBits .f32 0x3E000000#32
def oneWord : EReal := Ideal.ofBits .f32 0x3F800000#32
/-- The float word the reference spells under its square root: 64. -/
def sixtyFourWord : EReal := Ideal.ofBits .f32 0x42800000#32

/-! ## The three kernels, each as one function of the arrays it finds -/

/-- One entry of a third of the fused projection: token row `2048 b + s` of `x` against column `colAt p h d` of the joined
    weights, plus that column's bias. -/
def projAt (p : Fin 3) (x : A2 8192 1024) (w : A2 1024 3072) (bias : A2 1 3072)
    (h : Fin 16) (b : Fin 4) (s : Fin 2048) (d : Fin 64) : EReal :=
  (∑ e : Fin 1024, x (ix2 (tok b s) e) * w (ix2 e (colAt p h d))) + bias (ix2 0 (colAt p h d))

/-- The query array the first kernel leaves: the first third, scaled by the word 1/8, head-major. -/
def qArr (x : A2 8192 1024) (w : A2 1024 3072) (bias : A2 1 3072) : A4 16 4 2048 64 :=
  fun j => projAt 0 x w bias (j 0) (j 1) (j 2) (j 3) * eighthWord
/-- The key array: the second third. -/
def kArr (x : A2 8192 1024) (w : A2 1024 3072) (bias : A2 1 3072) : A4 16 4 2048 64 :=
  fun j => projAt 1 x w bias (j 0) (j 1) (j 2) (j 3)
/-- The value array: the last third. -/
def vArr (x : A2 8192 1024) (w : A2 1024 3072) (bias : A2 1 3072) : A4 16 4 2048 64 :=
  fun j => projAt 2 x w bias (j 0) (j 1) (j 2) (j 3)

/-- The kernel's softsign: z · (1 / (1 + |z|)), the quotient the extended reals' own. -/
def softsignMul (z : EReal) : EReal := z * Ideal.div oneWord (oneWord + max z (-z))

/-- One entry of attention for pair `p`: Σ_s softsign(Σ_d' q[p,t,d']·k[p,s,d']) · v[p,s,d]. -/
def attnAt (q k v : A3 64 2048 64) (p : Fin 64) (t : Fin 2048) (d : Fin 64) : EReal :=
  ∑ s : Fin 2048, softsignMul (∑ d' : Fin 64, q (ix3 p t d') * k (ix3 p s d')) * v (ix3 p s d)
/-- The context array the second kernel leaves. -/
def attnArr (q k v : A3 64 2048 64) : A3 64 2048 64 := fun j => attnAt q k v (j 0) (j 1) (j 2)

/-- One entry of the output projection: row `r` of the context, read head-major at (head, batch, position, lane) of
    column `e`, against column `f` of the weights, plus the bias. -/
def outAt (ctx : A4 16 4 2048 64) (w : A2 1024 1024) (bias : A2 1 1024) (r : Fin 8192) (f : Fin 1024) : EReal :=
  (∑ e : Fin 1024, ctx (ix4 (headOf e) (batchOf r) (posOf r) (laneOf e)) * w (ix2 e f)) + bias (ix2 0 f)
/-- The array the third kernel leaves. -/
def outArr (ctx : A4 16 4 2048 64) (w : A2 1024 1024) (bias : A2 1 1024) : A2 8192 1024 :=
  fun j => outAt ctx w bias (j 0) (j 1)

/-! ## The layouts between them -/

/-- [4, 2048, 1024] read as 8192 rows. -/
def rows (x : A3 4 2048 1024) : A2 8192 1024 := fun j => x (ix3 (batchOf (j 0)) (posOf (j 0)) (j 1))
/-- 8192 rows read as [4, 2048, 1024]. -/
def unrows (y : A2 8192 1024) : A3 4 2048 1024 := fun j => y (ix2 (tok (j 0) (j 1)) (j 2))
/-- A [1024, 1024] matrix transposed. -/
def transposed (W : A2 1024 1024) : A2 1024 1024 := fun j => W (ix2 (j 1) (j 0))
/-- The three transposed weight matrices side by side: column `c` of the joined matrix is column `c mod 1024` of matrix
    `c / 1024`. -/
def joinedWeights (Wq Wk Wv : A2 1024 1024) : A2 1024 3072 := fun j =>
  if (j 1).val < 1024 then Wq (ix2 ⟨(j 1).val % 1024, Nat.mod_lt _ (by decide)⟩ (j 0))
  else if (j 1).val < 2048 then Wk (ix2 ⟨(j 1).val % 1024, Nat.mod_lt _ (by decide)⟩ (j 0))
  else Wv (ix2 ⟨(j 1).val % 1024, Nat.mod_lt _ (by decide)⟩ (j 0))
/-- The three biases end to end, as one row. -/
def joinedBias (bq bk bv : A1 1024) : A2 1 3072 := fun j =>
  if (j 1).val < 1024 then bq (ix1 ⟨(j 1).val % 1024, Nat.mod_lt _ (by decide)⟩)
  else if (j 1).val < 2048 then bk (ix1 ⟨(j 1).val % 1024, Nat.mod_lt _ (by decide)⟩)
  else bv (ix1 ⟨(j 1).val % 1024, Nat.mod_lt _ (by decide)⟩)
/-- A vector as a one-row matrix. -/
def asRow (b : A1 1024) : A2 1 1024 := fun j => b (ix1 (j 1))
/-- [16, 4, 2048, 64] read as 64 (head, batch) pairs. -/
def mergeHeads (a : A4 16 4 2048 64) : A3 64 2048 64 := fun j => a (ix4 (pairHead (j 0)) (pairBatch (j 0)) (j 1) (j 2))
/-- 64 pairs read as [16, 4, 2048, 64]. -/
def splitHeads (a : A3 64 2048 64) : A4 16 4 2048 64 := fun j => a (ix3 (pairOf (j 0) (j 1)) (j 2) (j 3))

/-- What the kernel program computes, from its nine arguments. -/
def kernelOut (x : A3 4 2048 1024) (Wq : A2 1024 1024) (bq : A1 1024) (Wk : A2 1024 1024) (bk : A1 1024)
    (Wv : A2 1024 1024) (bv : A1 1024) (Wo : A2 1024 1024) (bo : A1 1024) : A3 4 2048 1024 :=
  unrows (outArr
    (splitHeads (attnArr
      (mergeHeads (qArr (rows x) (joinedWeights Wq Wk Wv) (joinedBias bq bk bv)))
      (mergeHeads (kArr (rows x) (joinedWeights Wq Wk Wv) (joinedBias bq bk bv)))
      (mergeHeads (vArr (rows x) (joinedWeights Wq Wk Wv) (joinedBias bq bk bv)))))
    (transposed Wo) (asRow bo))

/-! ## The reference -/

/-- A linear layer at token (b, s), feature f: Σ_e x[b,s,e]·W[f,e] + bias[f]. -/
def lin (x : A3 4 2048 1024) (W : A2 1024 1024) (bias : A1 1024) (b : Fin 4) (s : Fin 2048) (f : Fin 1024) : EReal :=
  (∑ e : Fin 1024, x (ix3 b s e) * W (ix2 f e)) + bias (ix1 f)

/-- The reference's softsign: z / (|z| + 1). -/
def softsignDiv (z : EReal) : EReal := Ideal.div z (max z (-z) + oneWord)

/-- The reference's score: Σ_d q·k over the head's lanes, divided by √64. -/
def scoreRef (x : A3 4 2048 1024) (Wq : A2 1024 1024) (bq : A1 1024) (Wk : A2 1024 1024) (bk : A1 1024)
    (b : Fin 4) (h : Fin 16) (t s : Fin 2048) : EReal :=
  Ideal.div (∑ d : Fin 64, lin x Wq bq b t (col h d) * lin x Wk bk b s (col h d)) (Ideal.sqrt sixtyFourWord)

/-- The reference's context at (batch, head, position, lane). -/
def ctxRef (x : A3 4 2048 1024) (Wq : A2 1024 1024) (bq : A1 1024) (Wk : A2 1024 1024) (bk : A1 1024)
    (Wv : A2 1024 1024) (bv : A1 1024) (b : Fin 4) (h : Fin 16) (t : Fin 2048) (d : Fin 64) : EReal :=
  ∑ s : Fin 2048, softsignDiv (scoreRef x Wq bq Wk bk b h t s) * lin x Wv bv b s (col h d)

/-- What the reference computes, from the nine arguments. -/
def referenceOut (x : A3 4 2048 1024) (Wq : A2 1024 1024) (bq : A1 1024) (Wk : A2 1024 1024) (bk : A1 1024)
    (Wv : A2 1024 1024) (bv : A1 1024) (Wo : A2 1024 1024) (bo : A1 1024) : A3 4 2048 1024 :=
  fun j => (∑ e : Fin 1024, ctxRef x Wq bq Wk bk Wv bv (j 0) (headOf e) (j 1) (laneOf e) * Wo (ix2 (j 2) e)) + bo (ix1 (j 2))

end Cert.Attn

end
-- ==== Proof.KernelIdeal.ProjectionValuePayload.lean ====
/-
  The fused projection's payloads read at an index: the shared product-plus-bias at (row, column) of the block,
  and each of the three thirds (the query third times the word 1/8) at (head, 0, row, lane) of its head-major block.
-/
import proofs.«133815_j49941879717923_2_alg».proof.Proof.Spec
import proofs.«133815_j49941879717923_2_alg».proof.Proof.KernelIdeal.ProjectionBody
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ProjectionValue

open Idealize.ShloMosaic Idealize.ShloMosaic.ValueIdx
open Cert.KernelIdeal Cert.KernelIdeal.Gen Cert.KernelIdeal.Hand Cert.Attn

local notation "D₀" => dot_S512x1024_S1024x3072_S512x3072_1_0_0_1_n_n

theorem lhs_row (j : S512x3072.Idx) (q : (DotDims.contr D₀).Idx) : (DotDims.lhsIdx D₀ j q 0).val = (j 0).val := by
  unfold DotDims.lhsIdx
  rw [dif_neg (show ¬(0 : Fin S512x1024.rank) ∈ DotDims.lhsBatch D₀ by decide), dif_pos (show (0 : Fin S512x1024.rank) ∈ DotDims.lhsNonContracting D₀ by decide)]
  rfl
theorem lhs_contr (j : S512x3072.Idx) (q : (DotDims.contr D₀).Idx) : (DotDims.lhsIdx D₀ j q 1).val = (q ⟨0, by decide⟩).val :=
  DotDims.lhsIdx_val_of_single D₀ rfl j q
theorem rhs_contr (j : S512x3072.Idx) (q : (DotDims.contr D₀).Idx) : (DotDims.rhsIdx D₀ j q 0).val = (q ⟨0, by decide⟩).val :=
  DotDims.rhsIdx_val_of_single D₀ rfl j q
theorem rhs_col (j : S512x3072.Idx) (q : (DotDims.contr D₀).Idx) : (DotDims.rhsIdx D₀ j q 1).val = (j 1).val := by
  unfold DotDims.rhsIdx
  rw [dif_neg (show ¬(1 : Fin S1024x3072.rank) ∈ DotDims.rhsBatch D₀ by decide), dif_pos (show (1 : Fin S1024x3072.rank) ∈ DotDims.rhsNonContracting D₀ by decide)]
  rfl

/-- The product's left operand index at output (m, n) and contraction position k is (m, k). -/
theorem lhs_idx (j : S512x3072.Idx) (k : Fin 1024) :
    DotDims.lhsIdx D₀ j ((contrEquiv1 D₀ 1024 rfl rfl).symm k) = ix2 (j 0) k := funext fun a => Fin.ext (by
  match a with
  | ⟨0, _⟩ => exact lhs_row _ _
  | ⟨1, _⟩ => exact (lhs_contr _ _).trans (contrEquiv1_symm_val D₀ 1024 rfl rfl k))

/-- … and the right operand index is (k, n). -/
theorem rhs_idx (j : S512x3072.Idx) (k : Fin 1024) :
    DotDims.rhsIdx D₀ j ((contrEquiv1 D₀ 1024 rfl rfl).symm k) = ix2 k (j 1) := funext fun a => Fin.ext (by
  match a with
  | ⟨0, _⟩ => exact (rhs_contr _ _).trans (contrEquiv1_symm_val D₀ 1024 rfl rfl k)
  | ⟨1, _⟩ => exact rhs_col _ _)

/-- The block's product with the joined weights plus the joined bias, at row `m` and column `n`. -/
theorem pay1_apply (x0 : Vec Ideal S512x1024 .f32) (x1 : Vec Ideal S1024x3072 .bf16) (x2 : Vec Ideal S1x3072 .f32)
    (m : Fin 512) (n : Fin 3072) :
    k0_pay1 x0 x1 x2 (ix2 m n) = (∑ e : Fin 1024, x0 (ix2 m e) * x1 (ix2 e n)) + x2 (ix2 0 n) := by
  unfold k0_pay1
  rw [addf_apply, shapeCast_self, shapeCast_self, shapeCast_self]
  congr 1
  · refine (Ideal.matmul_constant_zero_apply (φ₁ := .bf16) (φ₂ := .bf16) D₀ none _ _ _).trans ?_
    rw [← Equiv.sum_comp (contrEquiv1 D₀ 1024 rfl rfl).symm]
    refine Finset.sum_congr rfl fun k _ => ?_
    rw [lhs_idx, rhs_idx]
    rfl
  · exact broadcastTo_apply _ _ _ (ix2 0 n) (fun a => match a with
      | ⟨0, _⟩ => by show (0 : Nat) = if (1 : Nat) = 1 then 0 else _; rw [if_pos rfl]
      | ⟨1, _⟩ => by show n.val = if (3072 : Nat) = 1 then 0 else n.val; rw [if_neg (by decide)])

/-- A [512, 1024] block re-laid head-major — cast to [512, 16, 64], heads to the front, cast to [16, 1, 512, 64] — reads at
    (head, 0, row, lane) the block's entry at that row and column 64·head + lane. -/
theorem headMajor_apply {α : Type} (y : S512x1024.Idx → α) (h : Fin 16) (u : Fin 1) (m : Fin 512) (d : Fin 64) :
    shapeCast S16x1x512x64 (transpose S16x512x64 [1, 0, 2] (shapeCast S512x16x64 y shapeCasts_S512x1024_S512x16x64)
      transposes_S512x16x64_p1_0_2_S16x512x64) shapeCasts_S16x512x64_S16x1x512x64 (ix4 h u m d) = y (ix2 m (col h d)) := by
  refine (shapeCast_apply _ _ (ix4 h u m d) (ix3 h m d) ?_).trans ?_
  · rw [Shape.rowMajor_val_three, Shape.rowMajor_val_four]
    show (h.val * 512 + m.val) * 64 + d.val = ((h.val * 1 + u.val) * 512 + m.val) * 64 + d.val
    have := u.isLt; omega
  refine (transpose_apply _ _ _ (ix3 h m d) (ix3 m h d) ?_).trans ?_
  · intro b
    match b with
    | ⟨0, _⟩ => rfl
    | ⟨1, _⟩ => rfl
    | ⟨2, _⟩ => rfl
  refine shapeCast_apply _ _ (ix3 m h d) (ix2 m (col h d)) ?_
  rw [Shape.rowMajor_val_two, Shape.rowMajor_val_three]
  show m.val * 1024 + (h.val * 64 + d.val) = (m.val * 16 + h.val) * 64 + d.val
  omega

/-- The query payload at (head, 0, row, lane): the first third's entry, times the word 1/8. -/
theorem pay2_apply (x0 : Vec Ideal S512x1024 .f32) (x1 : Vec Ideal S1024x3072 .bf16) (x2 : Vec Ideal S1x3072 .f32)
    (h : Fin 16) (u : Fin 1) (m : Fin 512) (d : Fin 64) :
    k0_pay2 x0 x1 x2 (ix4 h u m d)
      = ((∑ e : Fin 1024, x0 (ix2 m e) * x1 (ix2 e (colAt 0 h d))) + x2 (ix2 0 (colAt 0 h d))) * eighthWord := by
  unfold k0_pay2
  refine (headMajor_apply _ h u m d).trans ?_
  rw [truncf_apply, mulf_apply, broadcast_apply]
  refine congrArg₂ (· * ·) ?_ rfl
  refine (extractStridedSlice_apply _ _ _ (ix2 m (col h d)) (ix2 m (colAt 0 h d)) ?_).trans (pay1_apply x0 x1 x2 m (colAt 0 h d))
  intro a
  match a with
  | ⟨0, _⟩ => show m.val = 0 + m.val; omega
  | ⟨1, _⟩ => show 0 * 1024 + (h.val * 64 + d.val) = 0 + (h.val * 64 + d.val); omega

/-- The key payload at (head, 0, row, lane): the second third's entry. -/
theorem pay3_apply (x0 : Vec Ideal S512x1024 .f32) (x1 : Vec Ideal S1024x3072 .bf16) (x2 : Vec Ideal S1x3072 .f32)
    (h : Fin 16) (u : Fin 1) (m : Fin 512) (d : Fin 64) :
    k0_pay3 x0 x1 x2 (ix4 h u m d)
      = (∑ e : Fin 1024, x0 (ix2 m e) * x1 (ix2 e (colAt 1 h d))) + x2 (ix2 0 (colAt 1 h d)) := by
  unfold k0_pay3
  refine (headMajor_apply _ h u m d).trans ?_
  rw [truncf_apply]
  refine (extractStridedSlice_apply _ _ _ (ix2 m (col h d)) (ix2 m (colAt 1 h d)) ?_).trans (pay1_apply x0 x1 x2 m (colAt 1 h d))
  intro a
  match a with
  | ⟨0, _⟩ => show m.val = 0 + m.val; omega
  | ⟨1, _⟩ => show 1 * 1024 + (h.val * 64 + d.val) = 1024 + (h.val * 64 + d.val); omega

/-- The value payload at (head, 0, row, lane): the last third's entry. -/
theorem pay4_apply (x0 : Vec Ideal S512x1024 .f32) (x1 : Vec Ideal S1024x3072 .bf16) (x2 : Vec Ideal S1x3072 .f32)
    (h : Fin 16) (u : Fin 1) (m : Fin 512) (d : Fin 64) :
    k0_pay4 x0 x1 x2 (ix4 h u m d)
      = (∑ e : Fin 1024, x0 (ix2 m e) * x1 (ix2 e (colAt 2 h d))) + x2 (ix2 0 (colAt 2 h d)) := by
  unfold k0_pay4
  refine (headMajor_apply _ h u m d).trans ?_
  rw [truncf_apply]
  refine (extractStridedSlice_apply _ _ _ (ix2 m (col h d)) (ix2 m (colAt 2 h d)) ?_).trans (pay1_apply x0 x1 x2 m (colAt 2 h d))
  intro a
  match a with
  | ⟨0, _⟩ => show m.val = 0 + m.val; omega
  | ⟨1, _⟩ => show 2 * 1024 + (h.val * 64 + d.val) = 2048 + (h.val * 64 + d.val); omega

end Cert.KernelIdeal.ProjectionValue

end
-- ==== Proof.KernelIdeal.ProjectionValue.lean ====
/-
  The fused projection's three output arrays after the run: each grid point writes back, at block (0, t / 4, t % 4, 0)
  of its [16, 4, 2048, 64] array, its third of the product of token rows 512 t … 512 t + 511 with the joined weights
  plus the joined bias, head-major; the sixteen blocks tile the array, so each array ends as the specification's
  function of the three arrays the kernel reads.
-/
import proofs.«133815_j49941879717923_2_alg».proof.Proof.KernelIdeal.ProjectionValuePayload

set_option maxRecDepth 16384

noncomputable section

namespace Cert.KernelIdeal.ProjectionValue

open Idealize.ShloMosaic Idealize.ShloMosaic.TcCoe Idealize.ShloMosaic.ValueIdx
open Idealize.ShloMosaic.Pipeline (Dat Cfg Window)
open Cert.KernelIdeal Cert.KernelIdeal.Gen Cert.KernelIdeal.Hand Cert.Attn

-- the core's buffer contents when the region is entered
variable (V : (c : Dev nD) → (b : Ref sig .tc) → Buf (Elt Ideal) ((c : Thread nD τ).loc b))

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The index maps, decided over the grid: the token rows' block index is the point, the weights' and the bias' never
    move, and each output's block index is (0, t / 4, t % 4, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

theorem idx_facts_out : ∀ t : Fin cfg0.N,
    (win0_3.index t (0 : Fin 4) = 0 ∧ win0_3.index t (1 : Fin 4) = t.val / 4 ∧ win0_3.index t (2 : Fin 4) = t.val % 4 ∧ win0_3.index t (3 : Fin 4) = 0)
    ∧ (win0_4.index t (0 : Fin 4) = 0 ∧ win0_4.index t (1 : Fin 4) = t.val / 4 ∧ win0_4.index t (2 : Fin 4) = t.val % 4 ∧ win0_4.index t (3 : Fin 4) = 0)
    ∧ (win0_5.index t (0 : Fin 4) = 0 ∧ win0_5.index t (1 : Fin 4) = t.val / 4 ∧ win0_5.index t (2 : Fin 4) = t.val % 4 ∧ win0_5.index t (3 : Fin 4) = 0) :=
  (by decide +kernel : ∀ t : Fin grid0.N, _)

theorem point_lt (t : Fin cfg0.N) : t.val < 16 := by
  have h := t.isLt
  have e : cfg0.N = 16 := N_0
  omega

/-- Token row `512 t + m`: row `m` of point `t`'s block. -/
def rowOf (t : Fin cfg0.N) (m : Fin 512) : Fin 8192 := ⟨t.val * 512 + m.val, by have := point_lt t; omega⟩

/-- Point `t`'s block of the token rows, at (m, e), is row `512 t + m` of the array. -/
theorem rows_block (c : Dev nD) (t : Fin cfg0.N) (m : Fin 512) (e : Fin 1024) :
    iblk0 V c 0 t (ix2 m e) = (V c main_v0 : S8192x1024.Idx → EReal) (ix2 (rowOf t m) e) := by
  show (V c main_v0 : S8192x1024.Idx → EReal) (((cfg0.win 0).blk t).view.emb (ix2 m e)) = _
  congr 1
  funext a; apply Fin.ext
  obtain ⟨e0, e1, -⟩ := idx_facts t
  match a with
  | ⟨0, _⟩ => show win0_0.index t (0 : Fin 2) * 512 + 1 * m.val = t.val * 512 + m.val; rw [e0]; omega
  | ⟨1, _⟩ => show win0_0.index t (1 : Fin 2) * 1024 + 1 * e.val = e.val; rw [e1]; omega

/-- Every point's block of the joined weights is the whole matrix. -/
theorem weights_block (c : Dev nD) (t : Fin cfg0.N) (e : Fin 1024) (n : Fin 3072) :
    iblk0 V c 1 t (ix2 e n) = (V c main_v9 : S1024x3072.Idx → EReal) (ix2 e n) := by
  show (V c main_v9 : S1024x3072.Idx → EReal) (((cfg0.win 1).blk t).view.emb (ix2 e n)) = _
  congr 1
  funext a; apply Fin.ext
  obtain ⟨-, -, e0, e1, -⟩ := idx_facts t
  match a with
  | ⟨0, _⟩ => show win0_1.index t (0 : Fin 2) * 1024 + 1 * e.val = e.val; rw [e0]; omega
  | ⟨1, _⟩ => show win0_1.index t (1 : Fin 2) * 3072 + 1 * n.val = n.val; rw [e1]; omega

/-- Every point's block of the joined bias is the whole row. -/
theorem bias_block (c : Dev nD) (t : Fin cfg0.N) (z : Fin 1) (n : Fin 3072) :
    iblk0 V c 2 t (ix2 z n) = (V c main_v11 : S1x3072.Idx → EReal) (ix2 0 n) := by
  show (V c main_v11 : S1x3072.Idx → EReal) (((cfg0.win 2).blk t).view.emb (ix2 z n)) = _
  congr 1
  funext a; apply Fin.ext
  obtain ⟨-, -, -, -, e0, e1⟩ := idx_facts t
  match a with
  | ⟨0, _⟩ => show win0_2.index t (0 : Fin 2) * 1 + 1 * z.val = 0; rw [e0]; have := z.isLt; omega
  | ⟨1, _⟩ => show win0_2.index t (1 : Fin 2) * 3072 + 1 * n.val = n.val; rw [e1]; omega

/-- The batch `t / 4` and the position `512 (t % 4) + m` point `t`'s output blocks sit at. -/
def batchAt (t : Fin cfg0.N) : Fin 4 := ⟨t.val / 4, by have := point_lt t; omega⟩
def posAt (t : Fin cfg0.N) (m : Fin 512) : Fin 2048 := ⟨t.val % 4 * 512 + m.val, by omega⟩

/-- Row `m` of point `t`'s block is the token of that batch and position. -/
theorem tok_at (t : Fin cfg0.N) (m : Fin 512) : tok (batchAt t) (posAt t m) = rowOf t m := by
  apply Fin.ext
  show t.val / 4 * 2048 + (t.val % 4 * 512 + m.val) = t.val * 512 + m.val
  omega

/-- The point whose blocks hold batch `b`, position `s`: `4 b + s / 512`. -/
def pointOf (b : Fin 4) (s : Fin 2048) : Fin cfg0.N := ⟨4 * b.val + s.val / 512, by rw [show cfg0.N = 16 from N_0]; omega⟩

/-! ## The query array -/

/-- The array index under (h, 0, m, d) of point `t`'s query block. -/
theorem query_emb (t : Fin cfg0.N) (h : Fin 16) (u : Fin 1) (m : Fin 512) (d : Fin 64) :
    ((cfg0.win 3).blk t).view.emb (ix4 h u m d) = (ix4 h (batchAt t) (posAt t m) d : S16x4x2048x64.Idx) := by
  funext a; apply Fin.ext
  obtain ⟨⟨e0, e1, e2, e3⟩, -⟩ := idx_facts_out t
  match a with
  | ⟨0, _⟩ => show win0_3.index t (0 : Fin 4) * 16 + 1 * h.val = h.val; rw [e0]; omega
  | ⟨1, _⟩ => show win0_3.index t (1 : Fin 4) * 1 + 1 * u.val = t.val / 4; rw [e1]; have := u.isLt; omega
  | ⟨2, _⟩ => show win0_3.index t (2 : Fin 4) * 512 + 1 * m.val = t.val % 4 * 512 + m.val; rw [e2]; omega
  | ⟨3, _⟩ => show win0_3.index t (3 : Fin 4) * 64 + 1 * d.val = d.val; rw [e3]; omega

/-- What point `t` writes back to the query array is its block of the specification's query array. -/
theorem query_flushed (c : Dev nD) (t : Fin cfg0.N) :
    (dat0 V c).flushed 3 t = ((cfg0.win 3).blk t).view.read (Elt Ideal) (qArr (V c main_v0) (V c main_v9) (V c main_v11)) := by
  show (cfg0.win 3).cut (grid0.coords t) ((dat0 V c).after 3 t) = _
  rw [after0_3]
  unfold out0_3
  rw [View.canon_unit_zero hz4]
  simp only [View.ld_unit_zero (S := S512x1024) hz2, View.ld_unit_zero (S := S1024x3072) hz2, View.ld_unit_zero (S := S1x3072) hz2]
  funext j
  obtain ⟨h, u, m, d, rfl⟩ : ∃ (h : Fin 16) (u : Fin 1) (m : Fin 512) (d : Fin 64), j = ix4 h u m d := ⟨j 0, j 1, j 2, j 3, eq_ix4 j⟩
  show k0_pay2 (iblk0 V c 0 t) (iblk0 V c 1 t) (iblk0 V c 2 t) (ix4 h u m d) = qArr (V c main_v0) (V c main_v9) (V c main_v11) (((cfg0.win 3).blk t).view.emb (ix4 h u m d))
  refine (pay2_apply (iblk0 V c 0 t) (iblk0 V c 1 t) (iblk0 V c 2 t) h u m d).trans ?_
  rw [query_emb]
  show _ = projAt 0 _ _ _ h (batchAt t) (posAt t m) d * eighthWord
  unfold projAt
  simp only [rows_block, weights_block, bias_block]
  rw [tok_at]

/-- An index of the query array is in point `t`'s block iff each coordinate is in the block's range on its axis. -/
theorem mem_query_blk (t : Fin cfg0.N) (i : S16x4x2048x64.Idx) :
    i ∈ ((cfg0.win 3).blk t).view.set ↔ ∀ a : Fin 4, win0_3.index t a * S16x1x512x64.size a ≤ (i a).val ∧ (i a).val < win0_3.index t a * S16x1x512x64.size a + S16x1x512x64.size a := by
  show i ∈ ((View.whole main_v12_0).slice (win0_3.rect t)).set ↔ _
  rw [View.set_slice_whole, Rect.mem_set_unit]
  exact Iff.rfl

/-- The sixteen query blocks tile the array: (h, b, s, d) is in the block of point `4 b + s / 512`. -/
theorem query_cover (i : S16x4x2048x64.Idx) : ∃ t : Fin cfg0.N, (cfg0.win 3).flush t = true ∧ i ∈ ((cfg0.win 3).blk t).view.set := by
  have h0 : (i 0).val < 16 := (i 0).isLt
  have h1 : (i 1).val < 4 := (i 1).isLt
  have h2 : (i 2).val < 2048 := (i 2).isLt
  have h3 : (i 3).val < 64 := (i 3).isLt
  refine ⟨pointOf (i 1) (i 2), flush0_3 _, ?_⟩
  rw [mem_query_blk]
  obtain ⟨⟨e0, e1, e2, e3⟩, -⟩ := idx_facts_out (pointOf (i 1) (i 2))
  have ht : (pointOf (i 1) (i 2)).val = 4 * (i 1).val + (i 2).val / 512 := rfl
  intro a
  match a with
  | ⟨0, _⟩ => show win0_3.index _ (0 : Fin 4) * 16 ≤ (i 0).val ∧ (i 0).val < win0_3.index _ (0 : Fin 4) * 16 + 16; rw [e0]; omega
  | ⟨1, _⟩ => show win0_3.index _ (1 : Fin 4) * 1 ≤ (i 1).val ∧ (i 1).val < win0_3.index _ (1 : Fin 4) * 1 + 1; rw [e1, ht]; omega
  | ⟨2, _⟩ => show win0_3.index _ (2 : Fin 4) * 512 ≤ (i 2).val ∧ (i 2).val < win0_3.index _ (2 : Fin 4) * 512 + 512; rw [e2, ht]; omega
  | ⟨3, _⟩ => show win0_3.index _ (3 : Fin 4) * 64 ≤ (i 3).val ∧ (i 3).val < win0_3.index _ (3 : Fin 4) * 64 + 64; rw [e3]; omega

/-- THE QUERY ARRAY after the run: the specification's, of the three arrays the kernel reads as the region finds them. -/
theorem q_final (c : Dev nD) : (dat0 V c).arrAt 3 cfg0.N = qArr (V c main_v0) (V c main_v9) (V c main_v11) :=
  (dat0 V c).arrAt_eq_of_cover 3 _ (fun t _ => query_flushed V c t) query_cover

/-! ## The key array -/

/-- The array index under (h, 0, m, d) of point `t`'s key block. -/
theorem key_emb (t : Fin cfg0.N) (h : Fin 16) (u : Fin 1) (m : Fin 512) (d : Fin 64) :
    ((cfg0.win 4).blk t).view.emb (ix4 h u m d) = (ix4 h (batchAt t) (posAt t m) d : S16x4x2048x64.Idx) := by
  funext a; apply Fin.ext
  obtain ⟨-, ⟨e0, e1, e2, e3⟩, -⟩ := idx_facts_out t
  match a with
  | ⟨0, _⟩ => show win0_4.index t (0 : Fin 4) * 16 + 1 * h.val = h.val; rw [e0]; omega
  | ⟨1, _⟩ => show win0_4.index t (1 : Fin 4) * 1 + 1 * u.val = t.val / 4; rw [e1]; have := u.isLt; omega
  | ⟨2, _⟩ => show win0_4.index t (2 : Fin 4) * 512 + 1 * m.val = t.val % 4 * 512 + m.val; rw [e2]; omega
  | ⟨3, _⟩ => show win0_4.index t (3 : Fin 4) * 64 + 1 * d.val = d.val; rw [e3]; omega

/-- What point `t` writes back to the key array is its block of the specification's key array. -/
theorem key_flushed (c : Dev nD) (t : Fin cfg0.N) :
    (dat0 V c).flushed 4 t = ((cfg0.win 4).blk t).view.read (Elt Ideal) (kArr (V c main_v0) (V c main_v9) (V c main_v11)) := by
  show (cfg0.win 4).cut (grid0.coords t) ((dat0 V c).after 4 t) = _
  rw [after0_4]
  unfold out0_4
  rw [View.canon_unit_zero hz4]
  simp only [View.ld_unit_zero (S := S512x1024) hz2, View.ld_unit_zero (S := S1024x3072) hz2, View.ld_unit_zero (S := S1x3072) hz2]
  funext j
  obtain ⟨h, u, m, d, rfl⟩ : ∃ (h : Fin 16) (u : Fin 1) (m : Fin 512) (d : Fin 64), j = ix4 h u m d := ⟨j 0, j 1, j 2, j 3, eq_ix4 j⟩
  show k0_pay3 (iblk0 V c 0 t) (iblk0 V c 1 t) (iblk0 V c 2 t) (ix4 h u m d) = kArr (V c main_v0) (V c main_v9) (V c main_v11) (((cfg0.win 4).blk t).view.emb (ix4 h u m d))
  refine (pay3_apply (iblk0 V c 0 t) (iblk0 V c 1 t) (iblk0 V c 2 t) h u m d).trans ?_
  rw [key_emb]
  show _ = projAt 1 _ _ _ h (batchAt t) (posAt t m) d
  unfold projAt
  simp only [rows_block, weights_block, bias_block]
  rw [tok_at]

/-- An index of the key array is in point `t`'s block iff each coordinate is in the block's range on its axis. -/
theorem mem_key_blk (t : Fin cfg0.N) (i : S16x4x2048x64.Idx) :
    i ∈ ((cfg0.win 4).blk t).view.set ↔ ∀ a : Fin 4, win0_4.index t a * S16x1x512x64.size a ≤ (i a).val ∧ (i a).val < win0_4.index t a * S16x1x512x64.size a + S16x1x512x64.size a := by
  show i ∈ ((View.whole main_v12_1).slice (win0_4.rect t)).set ↔ _
  rw [View.set_slice_whole, Rect.mem_set_unit]
  exact Iff.rfl

/-- The sixteen key blocks tile the array: (h, b, s, d) is in the block of point `4 b + s / 512`. -/
theorem key_cover (i : S16x4x2048x64.Idx) : ∃ t : Fin cfg0.N, (cfg0.win 4).flush t = true ∧ i ∈ ((cfg0.win 4).blk t).view.set := by
  have h0 : (i 0).val < 16 := (i 0).isLt
  have h1 : (i 1).val < 4 := (i 1).isLt
  have h2 : (i 2).val < 2048 := (i 2).isLt
  have h3 : (i 3).val < 64 := (i 3).isLt
  refine ⟨pointOf (i 1) (i 2), flush0_4 _, ?_⟩
  rw [mem_key_blk]
  obtain ⟨-, ⟨e0, e1, e2, e3⟩, -⟩ := idx_facts_out (pointOf (i 1) (i 2))
  have ht : (pointOf (i 1) (i 2)).val = 4 * (i 1).val + (i 2).val / 512 := rfl
  intro a
  match a with
  | ⟨0, _⟩ => show win0_4.index _ (0 : Fin 4) * 16 ≤ (i 0).val ∧ (i 0).val < win0_4.index _ (0 : Fin 4) * 16 + 16; rw [e0]; omega
  | ⟨1, _⟩ => show win0_4.index _ (1 : Fin 4) * 1 ≤ (i 1).val ∧ (i 1).val < win0_4.index _ (1 : Fin 4) * 1 + 1; rw [e1, ht]; omega
  | ⟨2, _⟩ => show win0_4.index _ (2 : Fin 4) * 512 ≤ (i 2).val ∧ (i 2).val < win0_4.index _ (2 : Fin 4) * 512 + 512; rw [e2, ht]; omega
  | ⟨3, _⟩ => show win0_4.index _ (3 : Fin 4) * 64 ≤ (i 3).val ∧ (i 3).val < win0_4.index _ (3 : Fin 4) * 64 + 64; rw [e3]; omega

/-- THE KEY ARRAY after the run: the specification's, of the three arrays the kernel reads as the region finds them. -/
theorem k_final (c : Dev nD) : (dat0 V c).arrAt 4 cfg0.N = kArr (V c main_v0) (V c main_v9) (V c main_v11) :=
  (dat0 V c).arrAt_eq_of_cover 4 _ (fun t _ => key_flushed V c t) key_cover

/-! ## The value array -/

/-- The array index under (h, 0, m, d) of point `t`'s value block. -/
theorem value_emb (t : Fin cfg0.N) (h : Fin 16) (u : Fin 1) (m : Fin 512) (d : Fin 64) :
    ((cfg0.win 5).blk t).view.emb (ix4 h u m d) = (ix4 h (batchAt t) (posAt t m) d : S16x4x2048x64.Idx) := by
  funext a; apply Fin.ext
  obtain ⟨-, -, e0, e1, e2, e3⟩ := idx_facts_out t
  match a with
  | ⟨0, _⟩ => show win0_5.index t (0 : Fin 4) * 16 + 1 * h.val = h.val; rw [e0]; omega
  | ⟨1, _⟩ => show win0_5.index t (1 : Fin 4) * 1 + 1 * u.val = t.val / 4; rw [e1]; have := u.isLt; omega
  | ⟨2, _⟩ => show win0_5.index t (2 : Fin 4) * 512 + 1 * m.val = t.val % 4 * 512 + m.val; rw [e2]; omega
  | ⟨3, _⟩ => show win0_5.index t (3 : Fin 4) * 64 + 1 * d.val = d.val; rw [e3]; omega

/-- What point `t` writes back to the value array is its block of the specification's value array. -/
theorem value_flushed (c : Dev nD) (t : Fin cfg0.N) :
    (dat0 V c).flushed 5 t = ((cfg0.win 5).blk t).view.read (Elt Ideal) (vArr (V c main_v0) (V c main_v9) (V c main_v11)) := by
  show (cfg0.win 5).cut (grid0.coords t) ((dat0 V c).after 5 t) = _
  rw [after0_5]
  unfold out0_5
  rw [View.canon_unit_zero hz4]
  simp only [View.ld_unit_zero (S := S512x1024) hz2, View.ld_unit_zero (S := S1024x3072) hz2, View.ld_unit_zero (S := S1x3072) hz2]
  funext j
  obtain ⟨h, u, m, d, rfl⟩ : ∃ (h : Fin 16) (u : Fin 1) (m : Fin 512) (d : Fin 64), j = ix4 h u m d := ⟨j 0, j 1, j 2, j 3, eq_ix4 j⟩
  show k0_pay4 (iblk0 V c 0 t) (iblk0 V c 1 t) (iblk0 V c 2 t) (ix4 h u m d) = vArr (V c main_v0) (V c main_v9) (V c main_v11) (((cfg0.win 5).blk t).view.emb (ix4 h u m d))
  refine (pay4_apply (iblk0 V c 0 t) (iblk0 V c 1 t) (iblk0 V c 2 t) h u m d).trans ?_
  rw [value_emb]
  show _ = projAt 2 _ _ _ h (batchAt t) (posAt t m) d
  unfold projAt
  simp only [rows_block, weights_block, bias_block]
  rw [tok_at]

/-- An index of the value array is in point `t`'s block iff each coordinate is in the block's range on its axis. -/
theorem mem_value_blk (t : Fin cfg0.N) (i : S16x4x2048x64.Idx) :
    i ∈ ((cfg0.win 5).blk t).view.set ↔ ∀ a : Fin 4, win0_5.index t a * S16x1x512x64.size a ≤ (i a).val ∧ (i a).val < win0_5.index t a * S16x1x512x64.size a + S16x1x512x64.size a := by
  show i ∈ ((View.whole main_v12_2).slice (win0_5.rect t)).set ↔ _
  rw [View.set_slice_whole, Rect.mem_set_unit]
  exact Iff.rfl

/-- The sixteen value blocks tile the array: (h, b, s, d) is in the block of point `4 b + s / 512`. -/
theorem value_cover (i : S16x4x2048x64.Idx) : ∃ t : Fin cfg0.N, (cfg0.win 5).flush t = true ∧ i ∈ ((cfg0.win 5).blk t).view.set := by
  have h0 : (i 0).val < 16 := (i 0).isLt
  have h1 : (i 1).val < 4 := (i 1).isLt
  have h2 : (i 2).val < 2048 := (i 2).isLt
  have h3 : (i 3).val < 64 := (i 3).isLt
  refine ⟨pointOf (i 1) (i 2), flush0_5 _, ?_⟩
  rw [mem_value_blk]
  obtain ⟨-, -, e0, e1, e2, e3⟩ := idx_facts_out (pointOf (i 1) (i 2))
  have ht : (pointOf (i 1) (i 2)).val = 4 * (i 1).val + (i 2).val / 512 := rfl
  intro a
  match a with
  | ⟨0, _⟩ => show win0_5.index _ (0 : Fin 4) * 16 ≤ (i 0).val ∧ (i 0).val < win0_5.index _ (0 : Fin 4) * 16 + 16; rw [e0]; omega
  | ⟨1, _⟩ => show win0_5.index _ (1 : Fin 4) * 1 ≤ (i 1).val ∧ (i 1).val < win0_5.index _ (1 : Fin 4) * 1 + 1; rw [e1, ht]; omega
  | ⟨2, _⟩ => show win0_5.index _ (2 : Fin 4) * 512 ≤ (i 2).val ∧ (i 2).val < win0_5.index _ (2 : Fin 4) * 512 + 512; rw [e2, ht]; omega
  | ⟨3, _⟩ => show win0_5.index _ (3 : Fin 4) * 64 ≤ (i 3).val ∧ (i 3).val < win0_5.index _ (3 : Fin 4) * 64 + 64; rw [e3]; omega

/-- THE VALUE ARRAY after the run: the specification's, of the three arrays the kernel reads as the region finds them. -/
theorem v_final (c : Dev nD) : (dat0 V c).arrAt 5 cfg0.N = vArr (V c main_v0) (V c main_v9) (V c main_v11) :=
  (dat0 V c).arrAt_eq_of_cover 5 _ (fun t _ => value_flushed V c t) value_cover

end Cert.KernelIdeal.ProjectionValue

end
-- ==== Proof.KernelIdeal.AttentionValuePayload.lean ====
/-
  The attention kernel's arithmetic at one entry, over the extended reals: for blocks q [1, 1024, 64], k [1, 2048, 64],
  v [1, 2048, 64], entry (u, t, d) of the stored block is  Σ_s σ(Σ_d' q[0,t,d']·k[0,s,d']) · v[0,s,d]  with
  σ z = z · (1 / (1 + |z|)): two contractions into zero accumulators, the first over the lanes of both operands (q kᵀ),
  the second over the key positions, with the softsign applied entry by entry between them; the format changes are the
  identity on extended reals and the casts [1, n, 64] ↔ [n, 64] drop or add the unit axis.
-/
import proofs.«133815_j49941879717923_2_alg».proof.Proof.Spec
import proofs.«133815_j49941879717923_2_alg».proof.Proof.KernelIdeal.AttentionBody
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.AttentionValue

open Idealize.ShloMosaic Idealize.ShloMosaic.TcCoe Idealize.ShloMosaic.ValueIdx
open Cert.KernelIdeal Cert.KernelIdeal.Gen Cert.KernelIdeal.Hand Cert.Attn

/-! ## The two contractions at an entry -/

/-- The operands' coordinates under the first contraction: a query row keeps its row, a key row is the result's column,
    and both are read at the contracted lane. -/
theorem scores_lhs_0 (i : S1024x2048.Idx) (q : dot_S1024x64_S2048x64_S1024x2048_1_1_0_0_n_n.contr.Idx) : (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem scores_lhs_1 (i : S1024x2048.Idx) (q : dot_S1024x64_S2048x64_S1024x2048_1_1_0_0_n_n.contr.Idx) : (dot_S1024x64_S2048x64_S1024x2048_1_1_0_0_n_n.lhsIdx i q 1).val = (q ⟨0, by decide⟩).val :=
  dot_S1024x64_S2048x64_S1024x2048_1_1_0_0_n_n.lhsIdx_val_of_single rfl i q
theorem scores_rhs_0 (i : S1024x2048.Idx) (q : dot_S1024x64_S2048x64_S1024x2048_1_1_0_0_n_n.contr.Idx) : (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem scores_rhs_1 (i : S1024x2048.Idx) (q : dot_S1024x64_S2048x64_S1024x2048_1_1_0_0_n_n.contr.Idx) : (dot_S1024x64_S2048x64_S1024x2048_1_1_0_0_n_n.rhsIdx i q 1).val = (q ⟨0, by decide⟩).val :=
  dot_S1024x64_S2048x64_S1024x2048_1_1_0_0_n_n.rhsIdx_val_of_single rfl i q

/-- The scores q kᵀ: entry (t, s) contracts the lanes of query row t against the lanes of key row s. -/
theorem scores_apply (q : FVec Ideal S1024x64 .bf16) (k : FVec Ideal S2048x64 .bf16) (t : Fin 1024) (s : Fin 2048) :
    matmul dot_S1024x64_S2048x64_S1024x2048_1_1_0_0_n_n none q k (constant (F := Ideal) S1024x2048 .f32 0x00000000#32) (ix2 t s)
      = ∑ d' : Fin 64, q (ix2 t d') * k (ix2 s d') := by
  show FloatOps.matmul dot_S1024x64_S2048x64_S1024x2048_1_1_0_0_n_n none q k (constant (F := Ideal) S1024x2048 .f32 0x00000000#32) (ix2 t s) = _
  rw [Ideal.matmul_constant_zero_apply, ← Equiv.sum_comp (contrEquiv1 dot_S1024x64_S2048x64_S1024x2048_1_1_0_0_n_n 64 rfl rfl).symm]
  refine Finset.sum_congr rfl fun d' _ => ?_
  have hk := contrEquiv1_symm_val dot_S1024x64_S2048x64_S1024x2048_1_1_0_0_n_n 64 rfl rfl d'
  have el : dot_S1024x64_S2048x64_S1024x2048_1_1_0_0_n_n.lhsIdx (ix2 t s) ((contrEquiv1 dot_S1024x64_S2048x64_S1024x2048_1_1_0_0_n_n 64 rfl rfl).symm d') = ix2 t d' := funext fun a => Fin.ext (by
    match a with
    | ⟨0, _⟩ => exact scores_lhs_0 _ _
    | ⟨1, _⟩ => exact (scores_lhs_1 _ _).trans hk)
  have er : dot_S1024x64_S2048x64_S1024x2048_1_1_0_0_n_n.rhsIdx (ix2 t s) ((contrEquiv1 dot_S1024x64_S2048x64_S1024x2048_1_1_0_0_n_n 64 rfl rfl).symm d') = ix2 s d' := funext fun a => Fin.ext (by
    match a with
    | ⟨0, _⟩ => exact scores_rhs_0 _ _
    | ⟨1, _⟩ => exact (scores_rhs_1 _ _).trans hk)
  rw [el, er]

/-- The operands' coordinates under the second contraction: a weight row keeps its row, a value column is the result's
    column, and both are read at the contracted key position. -/
theorem weighted_lhs_0 (i : S1024x64.Idx) (q : dot_S1024x2048_S2048x64_S1024x64_1_0_0_1_n_n.contr.Idx) : (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem weighted_lhs_1 (i : S1024x64.Idx) (q : dot_S1024x2048_S2048x64_S1024x64_1_0_0_1_n_n.contr.Idx) : (dot_S1024x2048_S2048x64_S1024x64_1_0_0_1_n_n.lhsIdx i q 1).val = (q ⟨0, by decide⟩).val :=
  dot_S1024x2048_S2048x64_S1024x64_1_0_0_1_n_n.lhsIdx_val_of_single rfl i q
theorem weighted_rhs_0 (i : S1024x64.Idx) (q : dot_S1024x2048_S2048x64_S1024x64_1_0_0_1_n_n.contr.Idx) : (dot_S1024x2048_S2048x64_S1024x64_1_0_0_1_n_n.rhsIdx i q 0).val = (q ⟨0, by decide⟩).val :=
  dot_S1024x2048_S2048x64_S1024x64_1_0_0_1_n_n.rhsIdx_val_of_single rfl i q
theorem weighted_rhs_1 (i : S1024x64.Idx) (q : dot_S1024x2048_S2048x64_S1024x64_1_0_0_1_n_n.contr.Idx) : (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The weighted values: entry (t, d) contracts row t of the weights against column d of the values, over the key positions. -/
theorem weighted_apply (a : FVec Ideal S1024x2048 .bf16) (v : FVec Ideal S2048x64 .bf16) (t : Fin 1024) (d : Fin 64) :
    matmul dot_S1024x2048_S2048x64_S1024x64_1_0_0_1_n_n none a v (constant (F := Ideal) S1024x64 .f32 0x00000000#32) (ix2 t d)
      = ∑ s : Fin 2048, a (ix2 t s) * v (ix2 s d) := by
  show FloatOps.matmul dot_S1024x2048_S2048x64_S1024x64_1_0_0_1_n_n none a v (constant (F := Ideal) S1024x64 .f32 0x00000000#32) (ix2 t d) = _
  rw [Ideal.matmul_constant_zero_apply, ← Equiv.sum_comp (contrEquiv1 dot_S1024x2048_S2048x64_S1024x64_1_0_0_1_n_n 2048 rfl rfl).symm]
  refine Finset.sum_congr rfl fun s _ => ?_
  have hk := contrEquiv1_symm_val dot_S1024x2048_S2048x64_S1024x64_1_0_0_1_n_n 2048 rfl rfl s
  have el : dot_S1024x2048_S2048x64_S1024x64_1_0_0_1_n_n.lhsIdx (ix2 t d) ((contrEquiv1 dot_S1024x2048_S2048x64_S1024x64_1_0_0_1_n_n 2048 rfl rfl).symm s) = ix2 t s := funext fun a => Fin.ext (by
    match a with
    | ⟨0, _⟩ => exact weighted_lhs_0 _ _
    | ⟨1, _⟩ => exact (weighted_lhs_1 _ _).trans hk)
  have er : dot_S1024x2048_S2048x64_S1024x64_1_0_0_1_n_n.rhsIdx (ix2 t d) ((contrEquiv1 dot_S1024x2048_S2048x64_S1024x64_1_0_0_1_n_n 2048 rfl rfl).symm s) = ix2 s d := funext fun a => Fin.ext (by
    match a with
    | ⟨0, _⟩ => exact (weighted_rhs_0 _ _).trans hk
    | ⟨1, _⟩ => exact weighted_rhs_1 _ _)
  rw [el, er]

/-! ## The stored block at an entry -/

/-- Entry (u, t, d) of what the body stores, from its three loaded blocks. -/
theorem payload_apply (x0 : Vec Ideal S1x1024x64 .bf16) (x1 : Vec Ideal S1x2048x64 .bf16) (x2 : Vec Ideal S1x2048x64 .bf16)
    (u : Fin 1) (t : Fin 1024) (d : Fin 64) :
    k1_pay1 x0 x1 x2 (ix3 u t d)
      = ∑ s : Fin 2048, softsignMul (∑ d' : Fin 64, x0 (ix3 (0 : Fin 1) t d') * x1 (ix3 (0 : Fin 1) s d')) * x2 (ix3 (0 : Fin 1) s d) := by
  unfold k1_pay1
  refine (shapeCast_ab_1ab_apply _ _ u t d).trans ?_
  refine (weighted_apply _ _ t d).trans ?_
  refine Finset.sum_congr rfl fun s _ => ?_
  refine congrArg₂ (· * ·) ?_ (shapeCast_1ab_ab_apply x2 _ s d)
  show (matmul (F := Ideal) dot_S1024x64_S2048x64_S1024x2048_1_1_0_0_n_n none _ _ _ (ix2 t s) : EReal) * Ideal.div (Ideal.ofBits .f32 0x3F800000#32) (Ideal.ofBits .f32 0x3F800000#32 + max (matmul (F := Ideal) dot_S1024x64_S2048x64_S1024x2048_1_1_0_0_n_n none _ _ _ (ix2 t s) : EReal) (-(matmul (F := Ideal) dot_S1024x64_S2048x64_S1024x2048_1_1_0_0_n_n none _ _ _ (ix2 t s) : EReal))) = _
  rw [scores_apply]
  unfold softsignMul oneWord
  have e : ∀ d' : Fin 64, shapeCast S1024x64 x0 shapeCasts_S1x1024x64_S1024x64 (ix2 t d') * shapeCast S2048x64 x1 shapeCasts_S1x2048x64_S2048x64 (ix2 s d')
      = x0 (ix3 (0 : Fin 1) t d') * x1 (ix3 (0 : Fin 1) s d') := fun d' =>
    congrArg₂ (· * ·) (shapeCast_1ab_ab_apply x0 _ t d') (shapeCast_1ab_ab_apply x1 _ s d')
  rw [Finset.sum_congr rfl fun d' _ => e d']

end Cert.KernelIdeal.AttentionValue

end
-- ==== Proof.KernelIdeal.AttentionValueBlocks.lean ====
/-
  Where the attention kernel's blocks sit in its four [64, 2048, 64] arrays. The grid's 128 points run over the 64
  (head, batch) pairs and, inside a pair, over the two halves of its 2048 query rows: point n is pair n / 2, half n % 2.
  At it the query block is rows 1024 (n % 2) … of pair n / 2, the key and the value blocks are the pair's whole
  matrices, and the written block sits where the query block does.
-/
import proofs.«133815_j49941879717923_2_alg».proof.Proof.Spec
import proofs.«133815_j49941879717923_2_alg».proof.Proof.KernelIdeal.AttentionBody
import Idealize.ShloMosaic.Lib.ValueIdx
import Idealize.ShloMosaic.Lib.Pipeline.Value

noncomputable section

namespace Cert.KernelIdeal.AttentionValue

open Idealize.ShloMosaic Idealize.ShloMosaic.TcCoe Idealize.ShloMosaic.ValueIdx
open Cert.KernelIdeal Cert.KernelIdeal.Gen Cert.KernelIdeal.Hand Cert.Attn

variable (V : (c : Dev nD) → (b : Ref sig .tc) → Buf (Elt Ideal) ((c : Thread nD τ).loc b))

/-- The printed index maps over the grid: pair n / 2 on the first axis; half n % 2 on the rows of the query and of
    the output blocks, the whole matrix for keys and values; the lanes whole. -/
theorem block_index : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = t.val % 2 ∧ win1_3.index t (2 : Fin 3) = 0 :=
  (by decide +kernel : ∀ t : Fin grid1.N, _)

/-- The query block at point n: row r, lane d is row 1024 (n % 2) + r, lane d of pair n / 2. -/
theorem query_block_apply (c : Dev nD) (t : Fin cfg1.N) (r : Fin 1024) (d : Fin 64) (p : Fin 64) (row : Fin 2048)
    (hp : p.val = t.val / 2) (hrow : row.val = 1024 * (t.val % 2) + r.val) :
    (iblk1 V c 0 t : Vec Ideal S1x1024x64 .bf16) (ix3 (0 : Fin 1) r d) = (V c main_v13 : S64x2048x64.Idx → EReal) (ix3 p row d) := by
  obtain ⟨e0, e1, e2, -⟩ := block_index t
  unfold iblk1
  rw [View.read_apply]
  show V c main_v13 _ = V c main_v13 _
  congr 1
  funext a
  apply Fin.ext
  match a with
  | ⟨0, _⟩ => show win1_0.index t (0 : Fin 3) * 1 + 1 * (0 : Fin 1).val = p.val; rw [e0, hp]; simp
  | ⟨1, _⟩ => show win1_0.index t (1 : Fin 3) * 1024 + 1 * r.val = row.val; rw [e1, hrow]; omega
  | ⟨2, _⟩ => show win1_0.index t (2 : Fin 3) * 64 + 1 * d.val = d.val; rw [e2]; omega

/-- The key block at point n: row s, lane d is row s, lane d of pair n / 2. -/
theorem key_block_apply (c : Dev nD) (t : Fin cfg1.N) (s : Fin 2048) (d : Fin 64) (p : Fin 64) (hp : p.val = t.val / 2) :
    (iblk1 V c 1 t : Vec Ideal S1x2048x64 .bf16) (ix3 (0 : Fin 1) s d) = (V c main_v14 : S64x2048x64.Idx → EReal) (ix3 p s d) := by
  obtain ⟨-, -, -, e0, e1, e2, -⟩ := block_index t
  unfold iblk1
  rw [View.read_apply]
  show V c main_v14 _ = V c main_v14 _
  congr 1
  funext a
  apply Fin.ext
  match a with
  | ⟨0, _⟩ => show win1_1.index t (0 : Fin 3) * 1 + 1 * (0 : Fin 1).val = p.val; rw [e0, hp]; simp
  | ⟨1, _⟩ => show win1_1.index t (1 : Fin 3) * 2048 + 1 * s.val = s.val; rw [e1]; omega
  | ⟨2, _⟩ => show win1_1.index t (2 : Fin 3) * 64 + 1 * d.val = d.val; rw [e2]; omega

/-- The value block at point n: row s, lane d is row s, lane d of pair n / 2. -/
theorem value_block_apply (c : Dev nD) (t : Fin cfg1.N) (s : Fin 2048) (d : Fin 64) (p : Fin 64) (hp : p.val = t.val / 2) :
    (iblk1 V c 2 t : Vec Ideal S1x2048x64 .bf16) (ix3 (0 : Fin 1) s d) = (V c main_v15 : S64x2048x64.Idx → EReal) (ix3 p s d) := by
  obtain ⟨-, -, -, -, -, -, e0, e1, e2, -⟩ := block_index t
  unfold iblk1
  rw [View.read_apply]
  show V c main_v15 _ = V c main_v15 _
  congr 1
  funext a
  apply Fin.ext
  match a with
  | ⟨0, _⟩ => show win1_2.index t (0 : Fin 3) * 1 + 1 * (0 : Fin 1).val = p.val; rw [e0, hp]; simp
  | ⟨1, _⟩ => show win1_2.index t (1 : Fin 3) * 2048 + 1 * s.val = s.val; rw [e1]; omega
  | ⟨2, _⟩ => show win1_2.index t (2 : Fin 3) * 64 + 1 * d.val = d.val; rw [e2]; omega

/-- Where the written block's entry (u, r, d) sits in the context array at point n: pair n / 2, row 1024 (n % 2) + r, lane d. -/
theorem out_block_emb (t : Fin cfg1.N) (u : Fin 1) (r : Fin 1024) (d : Fin 64) (p : Fin 64) (row : Fin 2048)
    (hp : p.val = t.val / 2) (hrow : row.val = 1024 * (t.val % 2) + r.val) :
    (((cfg1.win 3).blk t).view.emb (ix3 u r d) : S64x2048x64.Idx) = ix3 p row d := by
  obtain ⟨-, -, -, -, -, -, -, -, -, e0, e1, e2⟩ := block_index t
  funext a
  apply Fin.ext
  match a with
  | ⟨0, _⟩ => show win1_3.index t (0 : Fin 3) * 1 + 1 * u.val = p.val; rw [e0, hp]; omega
  | ⟨1, _⟩ => show win1_3.index t (1 : Fin 3) * 1024 + 1 * r.val = row.val; rw [e1, hrow]; omega
  | ⟨2, _⟩ => show win1_3.index t (2 : Fin 3) * 64 + 1 * d.val = d.val; rw [e2]; omega

end Cert.KernelIdeal.AttentionValue

end
-- ==== Proof.KernelIdeal.AttentionValue.lean ====
/-
  The context array the attention kernel leaves: every entry (p, t, d) of the [64, 2048, 64] array is
  Σ_s σ(Σ_d' q[p,t,d']·k[p,s,d']) · v[p,s,d] of the three arrays the kernel finds. Each grid point writes back the
  block of that function where its output block sits (the stored block's arithmetic, read at the blocks' positions),
  and the 128 blocks cover the array: entry (p, t, d) is in the block of point 2 p + t / 1024.
-/
import proofs.«133815_j49941879717923_2_alg».proof.Proof.KernelIdeal.AttentionValuePayload
import proofs.«133815_j49941879717923_2_alg».proof.Proof.KernelIdeal.AttentionValueBlocks

noncomputable section

namespace Cert.KernelIdeal.AttentionValue

open Idealize.ShloMosaic Idealize.ShloMosaic.TcCoe Idealize.ShloMosaic.ValueIdx
open Cert.KernelIdeal Cert.KernelIdeal.Gen Cert.KernelIdeal.Hand Cert.Attn

open Idealize.ShloMosaic.Pipeline (Dat)

variable (V : (c : Dev nD) → (b : Ref sig .tc) → Buf (Elt Ideal) ((c : Thread nD τ).loc b))

theorem zero_offsets : (![0, 0, 0] : Fin 3 → Nat) = fun _ => 0 := funext fun a => by fin_cases a <;> rfl

/-- What point n writes back is block n of the attention of the three arrays. -/
theorem written_block_eq (c : Dev nD) (t : Fin cfg1.N) :
    (dat1 V c).flushed 3 t
      = ((cfg1.win 3).blk t).view.read (Elt Ideal)
          (attnArr (V c main_v13 : S64x2048x64.Idx → EReal) (V c main_v14 : S64x2048x64.Idx → EReal) (V c main_v15 : S64x2048x64.Idx → EReal)) := by
  show (cfg1.win 3).cut (grid1.coords t) ((dat1 V c).after 3 t) = _
  rw [after1_3]
  unfold out1_3
  rw [View.canon_unit_zero zero_offsets]
  simp only [View.ld_unit_zero (S := S1x1024x64) zero_offsets, View.ld_unit_zero (S := S1x2048x64) zero_offsets]
  funext y
  obtain ⟨u, r, d, rfl⟩ : ∃ (u : Fin 1) (r : Fin 1024) (d : Fin 64), y = ix3 u r d := ⟨y 0, y 1, y 2, eq_ix3 y⟩
  have ht : t.val < 128 := lt_of_lt_of_eq t.isLt (N_1 : cfg1.N = 128)
  have hp : ((⟨t.val / 2, by omega⟩ : Fin 64)).val = t.val / 2 := rfl
  have hrow : ((⟨1024 * (t.val % 2) + r.val, by omega⟩ : Fin 2048)).val = 1024 * (t.val % 2) + r.val := rfl
  show k1_pay1 (iblk1 V c 0 t) (iblk1 V c 1 t) (iblk1 V c 2 t) (ix3 u r d)
    = attnArr (V c main_v13 : S64x2048x64.Idx → EReal) (V c main_v14 : S64x2048x64.Idx → EReal) (V c main_v15 : S64x2048x64.Idx → EReal)
        (((cfg1.win 3).blk t).view.emb (ix3 u r d))
  refine (payload_apply _ _ _ u r d).trans ?_
  rw [out_block_emb t u r d _ _ hp hrow]
  show _ = attnAt _ _ _ (⟨t.val / 2, _⟩ : Fin 64) (⟨1024 * (t.val % 2) + r.val, _⟩ : Fin 2048) d
  unfold attnAt
  refine Finset.sum_congr rfl fun s _ => ?_
  refine congrArg₂ (· * ·) (congrArg softsignMul (Finset.sum_congr rfl fun d' _ => ?_)) (value_block_apply V c t s d _ hp)
  exact congrArg₂ (· * ·) (query_block_apply V c t r d' _ _ hp hrow) (key_block_apply V c t s d' _ hp)

/-- An entry of the context array is in point n's block iff each coordinate is in the block's range on its axis. -/
theorem mem_written_block (t : Fin cfg1.N) (i : S64x2048x64.Idx) :
    i ∈ ((cfg1.win 3).blk t).view.set ↔ ∀ a : Fin 3, win1_3.index t a * S1x1024x64.size a ≤ (i a).val ∧ (i a).val < win1_3.index t a * S1x1024x64.size a + S1x1024x64.size a := by
  show i ∈ ((View.whole main_v16).slice (win1_3.rect t)).set ↔ _
  rw [View.set_slice_whole, Rect.mem_set_unit]
  exact Iff.rfl

/-- Every entry is in some point's block: entry (p, t, d) in that of point 2 p + t / 1024. -/
theorem written_blocks_cover (i : S64x2048x64.Idx) :
    ∃ t : Fin cfg1.N, (cfg1.win 3).flush t = true ∧ i ∈ ((cfg1.win 3).blk t).view.set := by
  have h0 : (i 0).val < 64 := (i 0).isLt
  have h1 : (i 1).val < 2048 := (i 1).isLt
  have h2 : (i 2).val < 64 := (i 2).isLt
  have hN : cfg1.N = 128 := N_1
  let t : Fin cfg1.N := ⟨2 * (i 0).val + (i 1).val / 1024, by rw [hN]; omega⟩
  have htv : t.val = 2 * (i 0).val + (i 1).val / 1024 := rfl
  obtain ⟨-, -, -, -, -, -, -, -, -, e0, e1, e2⟩ := block_index t
  refine ⟨t, flush1_3 t, ?_⟩
  rw [mem_written_block]
  intro a
  match a with
  | ⟨0, _⟩ => show win1_3.index t (0 : Fin 3) * 1 ≤ (i 0).val ∧ (i 0).val < win1_3.index t (0 : Fin 3) * 1 + 1; rw [e0, htv]; omega
  | ⟨1, _⟩ => show win1_3.index t (1 : Fin 3) * 1024 ≤ (i 1).val ∧ (i 1).val < win1_3.index t (1 : Fin 3) * 1024 + 1024; rw [e1, htv]; omega
  | ⟨2, _⟩ => show win1_3.index t (2 : Fin 3) * 64 ≤ (i 2).val ∧ (i 2).val < win1_3.index t (2 : Fin 3) * 64 + 64; rw [e2]; omega

/-- The context array after the kernel's run is the attention of the three arrays it found. -/
theorem attn_final (c : Dev nD) :
    (dat1 V c).arrAt 3 cfg1.N
      = attnArr (V c main_v13 : S64x2048x64.Idx → EReal) (V c main_v14 : S64x2048x64.Idx → EReal) (V c main_v15 : S64x2048x64.Idx → EReal) :=
  (dat1 V c).arrAt_eq_of_cover 3 _ (fun t _ => written_block_eq V c t) written_blocks_cover

end Cert.KernelIdeal.AttentionValue

end
-- ==== Proof.KernelIdeal.OutputValuePayload.lean ====
/-
  The output projection's arithmetic read at one entry: row m of the block of 512 token rows, column f of the 1024
  output features. The head-major context block [16, 1, 512, 64] is re-laid to rows of 1024 columns (column e is lane
  e mod 64 of head e / 64), multiplied into the weight matrix over the 1024 columns, and the bias row is added.
-/
import proofs.«133815_j49941879717923_2_alg».proof.Proof.Spec
import proofs.«133815_j49941879717923_2_alg».proof.Proof.KernelIdeal.OutputBody
import Idealize.ShloMosaic.Lib.Pipeline.Value
import Idealize.ShloMosaic.Lib.ValueIdx
import Idealize.ShloMosaic.PureOps.Ideal.Laws

noncomputable section

namespace Cert.KernelIdeal.OutputValue

open Idealize.ShloMosaic Idealize.ShloMosaic.ValueIdx
open Cert.KernelIdeal Cert.KernelIdeal.Gen Cert.KernelIdeal.Hand Cert.Attn

local notation "dotO" => dot_S512x1024_S1024x1024_S512x1024_1_0_0_1_n_n

/-- Column e of row m of the re-laid context block is lane e mod 64 of head e / 64 at token row m. -/
theorem relaid_apply (x0 : Vec Ideal S16x1x512x64 .bf16) (m : Fin 512) (e : Fin 1024) :
    shapeCast S512x1024 (transpose S512x16x64 [1, 0, 2] (shapeCast S16x512x64 x0 shapeCasts_S16x1x512x64_S16x512x64)
        transposes_S16x512x64_p1_0_2_S512x16x64) shapeCasts_S512x16x64_S512x1024 (ix2 m e)
      = x0 (ix4 (headOf e) 0 m (laneOf e)) := by
  refine (shapeCast_apply _ shapeCasts_S512x16x64_S512x1024 (ix2 m e) (ix3 m (headOf e) (laneOf e)) ?_).trans ?_
  · rw [Shape.rowMajor_val_three, Shape.rowMajor_val_two]
    show (m.val * 16 + e.val / 64) * 64 + e.val % 64 = m.val * 1024 + e.val
    omega
  refine (transpose_apply _ _ transposes_S16x512x64_p1_0_2_S512x16x64 (ix3 m (headOf e) (laneOf e)) (ix3 (headOf e) m (laneOf e)) ?_).trans ?_
  · intro b
    match b with
    | ⟨0, _⟩ => rfl
    | ⟨1, _⟩ => rfl
    | ⟨2, _⟩ => rfl
  refine shapeCast_apply _ shapeCasts_S16x1x512x64_S16x512x64 (ix3 (headOf e) m (laneOf e)) (ix4 (headOf e) 0 m (laneOf e)) ?_
  rw [Shape.rowMajor_val_four, Shape.rowMajor_val_three]
  show (((headOf e).val * 1 + 0) * 512 + m.val) * 64 + (laneOf e).val = ((headOf e).val * 512 + m.val) * 64 + (laneOf e).val
  omega

/-- The product's operand indices at output entry i and contraction index q: (i 0, q) on the left, (q, i 1) on the right. -/
theorem lhs_row (i : S512x1024.Idx) (q : (dotO).contr.Idx) : ((dotO).lhsIdx i q 0).val = (i 0).val := by
  unfold DotDims.lhsIdx
  rw [dif_neg (show ¬(0 : Fin S512x1024.rank) ∈ (dotO).lhsBatch by decide), dif_pos (show (0 : Fin S512x1024.rank) ∈ (dotO).lhsNonContracting by decide)]
  rfl
theorem lhs_col (i : S512x1024.Idx) (q : (dotO).contr.Idx) : ((dotO).lhsIdx i q 1).val = (q ⟨0, by decide⟩).val :=
  (dotO).lhsIdx_val_of_single rfl i q
theorem rhs_row (i : S512x1024.Idx) (q : (dotO).contr.Idx) : ((dotO).rhsIdx i q 0).val = (q ⟨0, by decide⟩).val :=
  (dotO).rhsIdx_val_of_single rfl i q
theorem rhs_col (i : S512x1024.Idx) (q : (dotO).contr.Idx) : ((dotO).rhsIdx i q 1).val = (i 1).val := by
  unfold DotDims.rhsIdx
  rw [dif_neg (show ¬(1 : Fin S1024x1024.rank) ∈ (dotO).rhsBatch by decide), dif_pos (show (1 : Fin S1024x1024.rank) ∈ (dotO).rhsNonContracting by decide)]
  rfl

/-- The matrix product into the zero accumulator at (m, f): the sum over the 1024 columns. -/
theorem product_apply (a : FVec Ideal S512x1024 .bf16) (b : FVec Ideal S1024x1024 .bf16) (m : Fin 512) (f : Fin 1024) :
    matmul dotO none a b (constant S512x1024 .f32 0x00000000#32) (ix2 m f)
      = ∑ e : Fin 1024, a (ix2 m e) * b (ix2 e f) := by
  refine (Ideal.matmul_constant_zero_apply dotO none a b (ix2 m f)).trans ?_
  rw [← Equiv.sum_comp (contrEquiv1 dotO 1024 rfl rfl).symm]
  refine Finset.sum_congr rfl fun e _ => ?_
  have hk := contrEquiv1_symm_val dotO 1024 rfl rfl e
  have el : (dotO).lhsIdx (ix2 m f) ((contrEquiv1 dotO 1024 rfl rfl).symm e) = ix2 m e := funext fun a => Fin.ext (by
    match a with
    | ⟨0, _⟩ => exact lhs_row _ _
    | ⟨1, _⟩ => exact (lhs_col _ _).trans hk)
  have er : (dotO).rhsIdx (ix2 m f) ((contrEquiv1 dotO 1024 rfl rfl).symm e) = ix2 e f := funext fun a => Fin.ext (by
    match a with
    | ⟨0, _⟩ => exact (rhs_row _ _).trans hk
    | ⟨1, _⟩ => exact rhs_col _ _)
  rw [el, er]

/-- The bias row broadcast down the 512 rows, at (m, f): the bias at column f. -/
theorem bias_apply (x2 : Vec Ideal S1x1024 .f32) (m : Fin 512) (f : Fin 1024) :
    broadcastTo S512x1024 x2 broadcasts_S1x1024_S512x1024 (ix2 m f) = x2 (ix2 0 f) := by
  refine broadcastTo_apply x2 broadcasts_S1x1024_S512x1024 (ix2 m f) (ix2 0 f) fun a => ?_
  match a with
  | ⟨0, _⟩ => rfl
  | ⟨1, _⟩ => rfl

/-- THE PAYLOAD AT AN ENTRY: Σ_e context[head e, 0, m, lane e] · w[e, f] + bias[0, f]. -/
theorem pay_apply (x0 : Vec Ideal S16x1x512x64 .bf16) (x1 : Vec Ideal S1024x1024 .bf16) (x2 : Vec Ideal S1x1024 .f32)
    (m : Fin 512) (f : Fin 1024) :
    k2_pay1 x0 x1 x2 (ix2 m f)
      = (∑ e : Fin 1024, x0 (ix4 (headOf e) 0 m (laneOf e)) * x1 (ix2 e f)) + x2 (ix2 0 f) := by
  unfold k2_pay1
  dsimp only
  rw [shapeCast_self, shapeCast_self, addf_apply, product_apply, bias_apply]
  refine congrArg (· + x2 (ix2 0 f)) (Finset.sum_congr rfl fun e _ => ?_)
  rw [relaid_apply]

end Cert.KernelIdeal.OutputValue

end
-- ==== Proof.KernelIdeal.OutputValue.lean ====
/-
  The output projection's array after its sixteen grid points. Point t reads the context block of all 16 heads, batch
  t / 4, positions 512 (t mod 4) … 512 (t mod 4) + 511, the whole weight matrix and the whole bias row, and writes token
  rows 512 t … 512 t + 511. Row r = 2048 b + s is therefore written by point r / 512 = 4 b + s / 512, from the context at
  batch b and position s: the array ends holding the output projection of the arrays the region finds.
-/
import proofs.«133815_j49941879717923_2_alg».proof.Proof.KernelIdeal.OutputValuePayload

set_option maxRecDepth 16384

noncomputable section

namespace Cert.KernelIdeal.OutputValue

open Idealize.ShloMosaic Idealize.ShloMosaic.TcCoe Idealize.ShloMosaic.ValueIdx
open Idealize.ShloMosaic.Pipeline (Dat)
open Cert.KernelIdeal Cert.KernelIdeal.Gen Cert.KernelIdeal.Hand Cert.Attn

variable (V : (c : Dev nD) → (b : Ref sig .tc) → Buf (Elt Ideal) ((c : Thread nD τ).loc b))

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The sixteen points' block indices: the context's at (0, t / 4, t mod 4, 0), the weights' and the bias' at the origin,
    the output's at (t, 0). -/
theorem block_indices : ∀ t : Fin cfg2.N,
    win2_0.index t (0 : Fin 4) = 0 ∧ win2_0.index t (1 : Fin 4) = t.val / 4 ∧ win2_0.index t (2 : Fin 4) = t.val % 4
    ∧ win2_0.index t (3 : Fin 4) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 16 := lt_of_lt_of_eq t.isLt N_2

/-! ## The blocks a point reads -/

/-- Entry (h, 0, m, d) of the context block at point t is entry (h, t / 4, 512 (t mod 4) + m, d) of the context. -/
theorem context_block_apply (c : Dev nD) (t : Fin cfg2.N) (x : S16x1x512x64.Idx) (k : S16x4x2048x64.Idx)
    (hk0 : (k 0).val = (x 0).val) (hk1 : (k 1).val = t.val / 4) (hk2 : (k 2).val = 512 * (t.val % 4) + (x 2).val)
    (hk3 : (k 3).val = (x 3).val) :
    (iblk2 V c 0 t : Vec Ideal S16x1x512x64 .bf16) x = (V c main_v17 : S16x4x2048x64.Idx → EReal) k := by
  obtain ⟨e0, e1, e2, e3, -⟩ := block_indices t
  unfold iblk2
  rw [View.read_apply]
  show V c main_v17 _ = V c main_v17 _
  congr 1
  funext a
  apply Fin.ext
  have hx1 : (x 1).val < 1 := (x 1).isLt
  match a with
  | ⟨0, _⟩ => show win2_0.index t (0 : Fin 4) * 16 + 1 * (x 0).val = (k 0).val; rw [e0, hk0]; omega
  | ⟨1, _⟩ => show win2_0.index t (1 : Fin 4) * 1 + 1 * (x 1).val = (k 1).val; rw [e1, hk1]; omega
  | ⟨2, _⟩ => show win2_0.index t (2 : Fin 4) * 512 + 1 * (x 2).val = (k 2).val; rw [e2, hk2]; omega
  | ⟨3, _⟩ => show win2_0.index t (3 : Fin 4) * 64 + 1 * (x 3).val = (k 3).val; rw [e3, hk3]; omega

/-- The weights' block at every point is the whole matrix. -/
theorem weights_block (c : Dev nD) (t : Fin cfg2.N) :
    (iblk2 V c 1 t : Vec Ideal S1024x1024 .bf16) = (V c main_v8 : S1024x1024.Idx → EReal) := by
  obtain ⟨-, -, -, -, e0, e1, -⟩ := block_indices t
  funext x
  unfold iblk2
  rw [View.read_apply]
  show V c main_v8 _ = V c main_v8 _
  congr 1
  funext a
  apply Fin.ext
  match a with
  | ⟨0, _⟩ => show win2_1.index t (0 : Fin 2) * 1024 + 1 * (x 0).val = (x 0).val; rw [e0]; omega
  | ⟨1, _⟩ => show win2_1.index t (1 : Fin 2) * 1024 + 1 * (x 1).val = (x 1).val; rw [e1]; omega

/-- The bias' block at every point is the whole row. -/
theorem bias_block (c : Dev nD) (t : Fin cfg2.N) :
    (iblk2 V c 2 t : Vec Ideal S1x1024 .f32) = (V c main_v18 : S1x1024.Idx → EReal) := by
  obtain ⟨-, -, -, -, -, -, e0, e1, -⟩ := block_indices t
  funext x
  unfold iblk2
  rw [View.read_apply]
  show V c main_v18 _ = V c main_v18 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 1024 + 1 * (x 1).val = (x 1).val; rw [e1]; omega

/-! ## The block a point writes -/

/-- Entry (m, f) of the output's block at point t, read off an array G, is G at (512 t + m, f). -/
theorem output_block_apply (t : Fin cfg2.N) (G : S8192x1024.Idx → EReal) (x : S512x1024.Idx) (k : S8192x1024.Idx)
    (hk0 : (k 0).val = 512 * t.val + (x 0).val) (hk1 : (k 1).val = (x 1).val) :
    (((cfg2.win 3).blk t).view.read (Elt Ideal) G : Vec Ideal S512x1024 .f32) x = G k := by
  obtain ⟨-, -, -, -, -, -, -, -, e0, e1⟩ := block_indices t
  rw [View.read_apply]
  show G _ = G _
  congr 1
  funext a
  apply Fin.ext
  match a with
  | ⟨0, _⟩ => show win2_3.index t (0 : Fin 2) * 512 + 1 * (x 0).val = (k 0).val; rw [e0, hk0]; omega
  | ⟨1, _⟩ => show win2_3.index t (1 : Fin 2) * 1024 + 1 * (x 1).val = (k 1).val; rw [e1, hk1]; omega

/-- What the body leaves in the output buffer is its payload of the three loaded blocks. -/
theorem stored_eq (x0 : Vec Ideal S16x1x512x64 .bf16) (x1 : Vec Ideal S1024x1024 .bf16) (x2 : Vec Ideal S1x1024 .f32) :
    out2_3 x0 x1 x2 = k2_pay1 x0 x1 x2 := by
  unfold out2_3
  rw [View.canon_unit_zero zeros2]
  simp only [View.ld_unit_zero (S := S16x1x512x64) zeros4, View.ld_unit_zero (S := S1024x1024) zeros2,
    View.ld_unit_zero (S := S1x1024) zeros2]

/-- One entry of what point t leaves: entry (m, f) of its buffer is the output projection at row 512 t + m, column f. -/
theorem stored_apply (c : Dev nD) (t : Fin cfg2.N) (x : S512x1024.Idx) (k : S8192x1024.Idx)
    (hk0 : (k 0).val = 512 * t.val + (x 0).val) (hk1 : (k 1).val = (x 1).val) :
    out2_3 (iblk2 V c 0 t) (iblk2 V c 1 t) (iblk2 V c 2 t) x
      = outArr (V c main_v17) (V c main_v8) (V c main_v18) k := by
  have ht := point_lt t
  obtain ⟨m, f, rfl⟩ : ∃ (m : Fin 512) (f : Fin 1024), x = ix2 m f := ⟨x 0, x 1, eq_ix2 x⟩
  obtain ⟨r, f', rfl⟩ : ∃ (r : Fin 8192) (f' : Fin 1024), k = ix2 r f' := ⟨k 0, k 1, eq_ix2 k⟩
  obtain rfl : f' = f := Fin.ext hk1
  have hr : r.val = 512 * t.val + m.val := hk0
  have hm : m.val < 512 := m.isLt
  rw [stored_eq]
  refine (pay_apply _ _ _ m f').trans ?_
  rw [weights_block, bias_block]
  show _ = outAt (V c main_v17) (V c main_v8) (V c main_v18) r f'
  unfold outAt
  refine congrArg (· + (V c main_v18 : S1x1024.Idx → EReal) (ix2 0 f')) (Finset.sum_congr rfl fun e _ => ?_)
  refine congrArg (· * (V c main_v8 : S1024x1024.Idx → EReal) (ix2 e f')) ?_
  refine context_block_apply V c t _ _ rfl ?_ ?_ rfl
  · show r.val / 2048 = t.val / 4
    omega
  · show r.val % 2048 = 512 * (t.val % 4) + m.val
    omega

/-! ## The array -/

/-- WHAT POINT t WRITES BACK is block t of the output projection of the arrays the region finds. -/
theorem flushed_eq (c : Dev nD) (t : Fin cfg2.N) :
    (dat2 V c).flushed 3 t
      = ((cfg2.win 3).blk t).view.read (Elt Ideal) (outArr (V c main_v17) (V c main_v8) (V c main_v18)) := by
  show (cfg2.win 3).cut (grid2.coords t) ((dat2 V c).after 3 t) = _
  rw [after2_3]
  funext j
  have ht := point_lt t
  have hj0 : (j 0).val < 512 := (j 0).isLt
  have hj1 : (j 1).val < 1024 := (j 1).isLt
  have hk : 512 * t.val + (j 0).val < 8192 := by omega
  exact (stored_apply V c t _ (ix2 ⟨512 * t.val + (j 0).val, hk⟩ ⟨(j 1).val, hj1⟩) rfl rfl).trans
    (output_block_apply t _ _ (ix2 ⟨512 * t.val + (j 0).val, hk⟩ ⟨(j 1).val, hj1⟩) rfl rfl).symm

/-- An index of the array is in point t's block iff its row is among rows 512 t … 512 t + 511. -/
theorem mem_block (t : Fin cfg2.N) (i : S8192x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v19).slice (win2_3.rect t)).set ↔ _
  rw [View.set_slice_whole, Rect.mem_set_unit]
  exact Iff.rfl

/-- THE ARRAY after the sixteen points: the output projection of the context, the weights and the bias the region finds. -/
theorem out_final (c : Dev nD) :
    (dat2 V c).arrAt 3 cfg2.N = Cert.Attn.outArr (V c main_v17) (V c main_v8) (V c main_v18) :=
  (dat2 V c).arrAt_eq_of_cover 3 _ (fun t _ => flushed_eq V c t) fun i => by
    have hi0 : (i 0).val < 8192 := (i 0).isLt
    have hi1 : (i 1).val < 1024 := (i 1).isLt
    have hN : (i 0).val / 512 < cfg2.N := lt_of_lt_of_eq (show (i 0).val / 512 < 16 by omega) N_2.symm
    refine ⟨⟨(i 0).val / 512, hN⟩, flush2_3 _, ?_⟩
    obtain ⟨-, -, -, -, -, -, -, -, e0, e1⟩ := block_indices ⟨(i 0).val / 512, hN⟩
    rw [mem_block]
    intro a
    match a with
    | ⟨0, _⟩ =>
      show win2_3.index ⟨(i 0).val / 512, hN⟩ (0 : Fin 2) * 512 ≤ (i 0).val
        ∧ (i 0).val < win2_3.index ⟨(i 0).val / 512, hN⟩ (0 : Fin 2) * 512 + 512
      rw [e0]
      show (i 0).val / 512 * 512 ≤ (i 0).val ∧ (i 0).val < (i 0).val / 512 * 512 + 512
      omega
    | ⟨1, _⟩ =>
      show win2_3.index ⟨(i 0).val / 512, hN⟩ (1 : Fin 2) * 1024 ≤ (i 1).val
        ∧ (i 1).val < win2_3.index ⟨(i 0).val / 512, hN⟩ (1 : Fin 2) * 1024 + 1024
      rw [e1]
      omega

end Cert.KernelIdeal.OutputValue

end
-- ==== Proof.LibThreePieces.lean ====
/-
  Three equal pieces joined, read at an index. For any element type and any extents:
  three [R, n] matrices joined along the columns into [R, N] read, at (r, j), the first piece at (r, c) when j = c,
  the second when j = n + c and the third when j = n + n + c (`cols3_first`, `cols3_second`, `cols3_third`);
  three [n] vectors joined end to end into [N] read likewise at j (`vec3_first`, `vec3_second`, `vec3_third`).
  The extents are related only through the concatenation's own side condition, which the caller holds.
-/
import Idealize.ShloMosaic.Lib.Pipeline.Value
import Idealize.ShloMosaic.Lib.ValueIdx

noncomputable section

namespace Cert.ThreePieces

open Idealize.ShloMosaic Idealize.ShloMosaic.ValueIdx

variable {α : Type}

section Columns
variable {R n N : Nat} (A B C : (⟨2, ![R, n]⟩ : Shape).Idx → α)
  (h : Shape.Concatenates [(⟨2, ![R, n]⟩ : Shape), ⟨2, ![R, n]⟩, ⟨2, ![R, n]⟩] ⟨2, ![R, N]⟩ 1)

private theorem off_axis (r : Fin R) (c : Fin n) (j : Fin N) :
    ∀ b : Fin (⟨2, ![R, n]⟩ : Shape).rank, b.cast (rfl : (⟨2, ![R, n]⟩ : Shape).rank = (⟨2, ![R, N]⟩ : Shape).rank) ≠ (1 : Fin 2) →
      ((ix2 r c : (⟨2, ![R, n]⟩ : Shape).Idx) b).val = ((ix2 r j : (⟨2, ![R, N]⟩ : Shape).Idx) (b.cast rfl)).val := fun b hb => by
  match b with
  | ⟨0, _⟩ => rfl
  | ⟨1, _⟩ => exact absurd (Fin.ext rfl) hb

/-- Columns 0 … n − 1 of the join are the first piece. -/
theorem cols3_first (r : Fin R) (c : Fin n) (j : Fin N) (hj : j.val = c.val) :
    concatenate (⟨2, ![R, N]⟩ : Shape) 1 [⟨⟨2, ![R, n]⟩, A⟩, ⟨⟨2, ![R, n]⟩, B⟩, ⟨⟨2, ![R, n]⟩, C⟩] h (ix2 r j) = A (ix2 r c) :=
  concatenate_apply_piece 1 [⟨⟨2, ![R, n]⟩, A⟩, ⟨⟨2, ![R, n]⟩, B⟩, ⟨⟨2, ![R, n]⟩, C⟩] h (ix2 r j) 0 (by show 0 < 3; omega) ⟨2, ![R, n]⟩ A rfl rfl 0 rfl (ix2 r c) (off_axis r c j)
    (by show 0 + c.val = j.val; omega)

/-- Columns n … 2n − 1 are the second piece. -/
theorem cols3_second (r : Fin R) (c : Fin n) (j : Fin N) (hj : j.val = n + c.val) :
    concatenate (⟨2, ![R, N]⟩ : Shape) 1 [⟨⟨2, ![R, n]⟩, A⟩, ⟨⟨2, ![R, n]⟩, B⟩, ⟨⟨2, ![R, n]⟩, C⟩] h (ix2 r j) = B (ix2 r c) :=
  concatenate_apply_piece 1 [⟨⟨2, ![R, n]⟩, A⟩, ⟨⟨2, ![R, n]⟩, B⟩, ⟨⟨2, ![R, n]⟩, C⟩] h (ix2 r j) 1 (by show 1 < 3; omega) ⟨2, ![R, n]⟩ B rfl rfl (n + 0) rfl (ix2 r c) (off_axis r c j)
    (by show n + 0 + c.val = j.val; omega)

/-- Columns 2n … 3n − 1 are the third piece. -/
theorem cols3_third (r : Fin R) (c : Fin n) (j : Fin N) (hj : j.val = n + n + c.val) :
    concatenate (⟨2, ![R, N]⟩ : Shape) 1 [⟨⟨2, ![R, n]⟩, A⟩, ⟨⟨2, ![R, n]⟩, B⟩, ⟨⟨2, ![R, n]⟩, C⟩] h (ix2 r j) = C (ix2 r c) :=
  concatenate_apply_piece 1 [⟨⟨2, ![R, n]⟩, A⟩, ⟨⟨2, ![R, n]⟩, B⟩, ⟨⟨2, ![R, n]⟩, C⟩] h (ix2 r j) 2 (by show 2 < 3; omega) ⟨2, ![R, n]⟩ C rfl rfl (n + (n + 0)) rfl (ix2 r c) (off_axis r c j)
    (by show n + (n + 0) + c.val = j.val; omega)

end Columns

section Vectors
variable {n N : Nat} (a b c : (⟨1, ![n]⟩ : Shape).Idx → α)
  (h : Shape.Concatenates [(⟨1, ![n]⟩ : Shape), ⟨1, ![n]⟩, ⟨1, ![n]⟩] ⟨1, ![N]⟩ 0)

private theorem no_other_axis (e : Fin n) (j : Fin N) :
    ∀ d : Fin (⟨1, ![n]⟩ : Shape).rank, d.cast (rfl : (⟨1, ![n]⟩ : Shape).rank = (⟨1, ![N]⟩ : Shape).rank) ≠ (0 : Fin 1) →
      ((ix1 e : (⟨1, ![n]⟩ : Shape).Idx) d).val = ((ix1 j : (⟨1, ![N]⟩ : Shape).Idx) (d.cast rfl)).val := fun d hd => by
  match d with
  | ⟨0, _⟩ => exact absurd (Fin.ext rfl) hd

/-- Entries 0 … n − 1 of the join are the first piece. -/
theorem vec3_first (e : Fin n) (j : Fin N) (hj : j.val = e.val) :
    concatenate (⟨1, ![N]⟩ : Shape) 0 [⟨⟨1, ![n]⟩, a⟩, ⟨⟨1, ![n]⟩, b⟩, ⟨⟨1, ![n]⟩, c⟩] h (ix1 j) = a (ix1 e) :=
  concatenate_apply_piece 0 [⟨⟨1, ![n]⟩, a⟩, ⟨⟨1, ![n]⟩, b⟩, ⟨⟨1, ![n]⟩, c⟩] h (ix1 j) 0 (by show 0 < 3; omega) ⟨1, ![n]⟩ a rfl rfl 0 rfl (ix1 e) (no_other_axis e j)
    (by show 0 + e.val = j.val; omega)

/-- Entries n … 2n − 1 are the second piece. -/
theorem vec3_second (e : Fin n) (j : Fin N) (hj : j.val = n + e.val) :
    concatenate (⟨1, ![N]⟩ : Shape) 0 [⟨⟨1, ![n]⟩, a⟩, ⟨⟨1, ![n]⟩, b⟩, ⟨⟨1, ![n]⟩, c⟩] h (ix1 j) = b (ix1 e) :=
  concatenate_apply_piece 0 [⟨⟨1, ![n]⟩, a⟩, ⟨⟨1, ![n]⟩, b⟩, ⟨⟨1, ![n]⟩, c⟩] h (ix1 j) 1 (by show 1 < 3; omega) ⟨1, ![n]⟩ b rfl rfl (n + 0) rfl (ix1 e) (no_other_axis e j)
    (by show n + 0 + e.val = j.val; omega)

/-- Entries 2n … 3n − 1 are the third piece. -/
theorem vec3_third (e : Fin n) (j : Fin N) (hj : j.val = n + n + e.val) :
    concatenate (⟨1, ![N]⟩ : Shape) 0 [⟨⟨1, ![n]⟩, a⟩, ⟨⟨1, ![n]⟩, b⟩, ⟨⟨1, ![n]⟩, c⟩] h (ix1 j) = c (ix1 e) :=
  concatenate_apply_piece 0 [⟨⟨1, ![n]⟩, a⟩, ⟨⟨1, ![n]⟩, b⟩, ⟨⟨1, ![n]⟩, c⟩] h (ix1 j) 2 (by show 2 < 3; omega) ⟨1, ![n]⟩ c rfl rfl (n + (n + 0)) rfl (ix1 e) (no_other_axis e j)
    (by show n + (n + 0) + e.val = j.val; omega)

end Vectors

end Cert.ThreePieces

end
-- ==== Proof.Relayouts.lean ====
/-
  The host code's re-layouts, each read as the function the specification names (Proof/Spec.lean), for arrays of
  any element type over the literal extents: a reshape keeps the row-major position (8192 rows ↔ [4, 2048]; the 64
  (head, batch) pairs ↔ [16, 4]; a vector as one row), a matrix transpose swaps the two coordinates, and three equal
  pieces joined along an axis are read piece by piece (columns 0–1023, 1024–2047, 2048–3071).
-/
import proofs.«133815_j49941879717923_2_alg».proof.Proof.Spec
import proofs.«133815_j49941879717923_2_alg».proof.Proof.LibThreePieces
import Idealize.ShloMosaic.Lib.Pipeline.Value
import Idealize.ShloMosaic.Lib.ValueIdx

noncomputable section

namespace Cert.Attn

open Idealize.ShloMosaic Idealize.ShloMosaic.ValueIdx

/-- [4, 2048, 1024] reshaped to [8192, 1024]: row r is (r / 2048, r mod 2048). -/
theorem reshape_rows (x : A3 4 2048 1024) (h : (⟨3, ![4, 2048, 1024]⟩ : Shape).ShapeCasts ⟨2, ![8192, 1024]⟩) :
    shapeCast ⟨2, ![8192, 1024]⟩ x h = rows x := by
  funext j
  obtain ⟨r, e, rfl⟩ : ∃ (r : Fin 8192) (e : Fin 1024), j = ix2 r e := ⟨j 0, j 1, eq_ix2 j⟩
  show shapeCast ⟨2, ![8192, 1024]⟩ x h (ix2 r e) = x (ix3 (batchOf r) (posOf r) e)
  refine shapeCast_apply x h _ _ ?_
  rw [Shape.rowMajor_val_three, Shape.rowMajor_val_two]
  show ((r.val / 2048) * 2048 + r.val % 2048) * 1024 + e.val = r.val * 1024 + e.val
  have := Nat.div_add_mod r.val 2048
  omega

/-- [8192, 1024] reshaped to [4, 2048, 1024]: (b, s) is row 2048 b + s. -/
theorem reshape_unrows (y : A2 8192 1024) (h : (⟨2, ![8192, 1024]⟩ : Shape).ShapeCasts ⟨3, ![4, 2048, 1024]⟩) :
    shapeCast ⟨3, ![4, 2048, 1024]⟩ y h = unrows y := by
  funext j
  obtain ⟨b, s, f, rfl⟩ : ∃ (b : Fin 4) (s : Fin 2048) (f : Fin 1024), j = ix3 b s f := ⟨j 0, j 1, j 2, eq_ix3 j⟩
  show shapeCast ⟨3, ![4, 2048, 1024]⟩ y h (ix3 b s f) = y (ix2 (tok b s) f)
  refine shapeCast_apply y h _ _ ?_
  rw [Shape.rowMajor_val_three, Shape.rowMajor_val_two]
  rfl

/-- [16, 4, 2048, 64] reshaped to [64, 2048, 64]: pair p is (p / 4, p mod 4). -/
theorem reshape_merge (a : A4 16 4 2048 64) (h : (⟨4, ![16, 4, 2048, 64]⟩ : Shape).ShapeCasts ⟨3, ![64, 2048, 64]⟩) :
    shapeCast ⟨3, ![64, 2048, 64]⟩ a h = mergeHeads a := by
  funext j
  obtain ⟨p, t, d, rfl⟩ : ∃ (p : Fin 64) (t : Fin 2048) (d : Fin 64), j = ix3 p t d := ⟨j 0, j 1, j 2, eq_ix3 j⟩
  show shapeCast ⟨3, ![64, 2048, 64]⟩ a h (ix3 p t d) = a (ix4 (pairHead p) (pairBatch p) t d)
  refine shapeCast_apply a h _ _ ?_
  rw [Shape.rowMajor_val_four, Shape.rowMajor_val_three]
  show (((p.val / 4) * 4 + p.val % 4) * 2048 + t.val) * 64 + d.val = (p.val * 2048 + t.val) * 64 + d.val
  have := Nat.div_add_mod p.val 4
  have e : (p.val / 4) * 4 + p.val % 4 = p.val := by omega
  rw [e]

/-- [64, 2048, 64] reshaped to [16, 4, 2048, 64]: (h, b) is pair 4 h + b. -/
theorem reshape_split (a : A3 64 2048 64) (h : (⟨3, ![64, 2048, 64]⟩ : Shape).ShapeCasts ⟨4, ![16, 4, 2048, 64]⟩) :
    shapeCast ⟨4, ![16, 4, 2048, 64]⟩ a h = splitHeads a := by
  funext j
  obtain ⟨hd, b, s, d, rfl⟩ : ∃ (hd : Fin 16) (b : Fin 4) (s : Fin 2048) (d : Fin 64), j = ix4 hd b s d :=
    ⟨j 0, j 1, j 2, j 3, eq_ix4 j⟩
  show shapeCast ⟨4, ![16, 4, 2048, 64]⟩ a h (ix4 hd b s d) = a (ix3 (pairOf hd b) s d)
  refine shapeCast_apply a h _ _ ?_
  rw [Shape.rowMajor_val_four, Shape.rowMajor_val_three]
  rfl

/-- A vector reshaped to a one-row matrix. -/
theorem reshape_asRow (b : A1 1024) (h : (⟨1, ![1024]⟩ : Shape).ShapeCasts ⟨2, ![1, 1024]⟩) :
    shapeCast ⟨2, ![1, 1024]⟩ b h = asRow b := by
  funext j
  obtain ⟨u, f, rfl⟩ : ∃ (u : Fin 1) (f : Fin 1024), j = ix2 u f := ⟨j 0, j 1, eq_ix2 j⟩
  show shapeCast ⟨2, ![1, 1024]⟩ b h (ix2 u f) = b (ix1 f)
  refine shapeCast_apply b h _ _ ?_
  rw [Shape.rowMajor_val_two, Shape.rowMajor_val_one]
  show f.val = u.val * 1024 + f.val
  have hu : u.val = 0 := by omega
  rw [hu, Nat.zero_mul, Nat.zero_add]

/-- A [1024, 1024] matrix transposed. -/
theorem transpose_transposed (W : A2 1024 1024) (h : (⟨2, ![1024, 1024]⟩ : Shape).Transposes [1, 0] ⟨2, ![1024, 1024]⟩) :
    transpose ⟨2, ![1024, 1024]⟩ [1, 0] W h = transposed W := by
  funext j
  obtain ⟨e, f, rfl⟩ : ∃ (e : Fin 1024) (f : Fin 1024), j = ix2 e f := ⟨j 0, j 1, eq_ix2 j⟩
  show transpose ⟨2, ![1024, 1024]⟩ [1, 0] W h (ix2 e f) = W (ix2 f e)
  exact transpose_apply _ W h _ _ fun c => match c with | ⟨0, _⟩ => rfl | ⟨1, _⟩ => rfl

/-- The three transposed weight matrices joined along the columns. -/
theorem join_weights (Wq Wk Wv : A2 1024 1024)
    (h : Shape.Concatenates [(⟨2, ![1024, 1024]⟩ : Shape), ⟨2, ![1024, 1024]⟩, ⟨2, ![1024, 1024]⟩] ⟨2, ![1024, 3072]⟩ 1) :
    concatenate (⟨2, ![1024, 3072]⟩ : Shape) 1 [⟨⟨2, ![1024, 1024]⟩, transposed Wq⟩, ⟨⟨2, ![1024, 1024]⟩, transposed Wk⟩,
      ⟨⟨2, ![1024, 1024]⟩, transposed Wv⟩] h = joinedWeights Wq Wk Wv := by
  funext j
  obtain ⟨e, k, rfl⟩ : ∃ (e : Fin 1024) (k : Fin 3072), j = ix2 e k := ⟨j 0, j 1, eq_ix2 j⟩
  have hk := k.isLt
  by_cases h1 : k.val < 1024
  · refine (Cert.ThreePieces.cols3_first (transposed Wq) (transposed Wk) (transposed Wv) h e ⟨k.val % 1024, Nat.mod_lt _ (by decide)⟩ k
      (by show k.val = k.val % 1024; omega)).trans ?_
    show Wq (ix2 ⟨k.val % 1024, _⟩ e) = if k.val < 1024 then _ else _
    rw [if_pos h1]
  · by_cases h2 : k.val < 2048
    · refine (Cert.ThreePieces.cols3_second (transposed Wq) (transposed Wk) (transposed Wv) h e ⟨k.val % 1024, Nat.mod_lt _ (by decide)⟩ k
        (by show k.val = 1024 + k.val % 1024; omega)).trans ?_
      show Wk (ix2 ⟨k.val % 1024, _⟩ e) = if k.val < 1024 then _ else if k.val < 2048 then _ else _
      rw [if_neg h1, if_pos h2]
    · refine (Cert.ThreePieces.cols3_third (transposed Wq) (transposed Wk) (transposed Wv) h e ⟨k.val % 1024, Nat.mod_lt _ (by decide)⟩ k
        (by show k.val = 1024 + 1024 + k.val % 1024; omega)).trans ?_
      show Wv (ix2 ⟨k.val % 1024, _⟩ e) = if k.val < 1024 then _ else if k.val < 2048 then _ else _
      rw [if_neg h1, if_neg h2]

/-- The three biases joined end to end, then read as one row. -/
theorem join_bias (bq bk bv : A1 1024)
    (h : Shape.Concatenates [(⟨1, ![1024]⟩ : Shape), ⟨1, ![1024]⟩, ⟨1, ![1024]⟩] ⟨1, ![3072]⟩ 0)
    (h' : (⟨1, ![3072]⟩ : Shape).ShapeCasts ⟨2, ![1, 3072]⟩) :
    shapeCast ⟨2, ![1, 3072]⟩ (concatenate (⟨1, ![3072]⟩ : Shape) 0 [⟨⟨1, ![1024]⟩, bq⟩, ⟨⟨1, ![1024]⟩, bk⟩, ⟨⟨1, ![1024]⟩, bv⟩] h) h'
      = joinedBias bq bk bv := by
  funext j
  obtain ⟨u, k, rfl⟩ : ∃ (u : Fin 1) (k : Fin 3072), j = ix2 u k := ⟨j 0, j 1, eq_ix2 j⟩
  have hk := k.isLt
  refine (shapeCast_apply _ h' (ix2 u k) (ix1 k) (by
    rw [Shape.rowMajor_val_two, Shape.rowMajor_val_one]
    show k.val = u.val * 3072 + k.val
    have hu : u.val = 0 := by omega
    rw [hu, Nat.zero_mul, Nat.zero_add])).trans ?_
  by_cases h1 : k.val < 1024
  · refine (Cert.ThreePieces.vec3_first bq bk bv h ⟨k.val % 1024, Nat.mod_lt _ (by decide)⟩ k
      (by show k.val = k.val % 1024; omega)).trans ?_
    show bq (ix1 ⟨k.val % 1024, _⟩) = if k.val < 1024 then _ else _
    rw [if_pos h1]
  · by_cases h2 : k.val < 2048
    · refine (Cert.ThreePieces.vec3_second bq bk bv h ⟨k.val % 1024, Nat.mod_lt _ (by decide)⟩ k
        (by show k.val = 1024 + k.val % 1024; omega)).trans ?_
      show bk (ix1 ⟨k.val % 1024, _⟩) = if k.val < 1024 then _ else if k.val < 2048 then _ else _
      rw [if_neg h1, if_pos h2]
    · refine (Cert.ThreePieces.vec3_third bq bk bv h ⟨k.val % 1024, Nat.mod_lt _ (by decide)⟩ k
        (by show k.val = 1024 + 1024 + k.val % 1024; omega)).trans ?_
      show bv (ix1 ⟨k.val % 1024, _⟩) = if k.val < 1024 then _ else if k.val < 2048 then _ else _
      rw [if_neg h1, if_neg h2]

end Cert.Attn

end
-- ==== Proof.KernelIdeal.Layouts.lean ====
/-
  What the kernel program's result array holds, at the ideal instance: `Attn.kernelOut` of the nine argument arrays.
  The run (Proof/KernelIdeal/Stages.lean) names the result buffer at the last boundary's contents `bufs7`; this module
  walks the fold back. Each host stretch is read operation by operation (a reshape, a transpose, a change of float
  format — the identity here —, a join of three pieces) and each result named as the specification's layout of the
  arguments (Proof/Relayouts.lean); each kernel's output array is the specification's whole-array function of the
  arrays the kernel found (Proof/KernelIdeal/ProjectionValue, AttentionValue, OutputValue); a buffer a stage does not
  write is carried across it unchanged.
-/
import proofs.«133815_j49941879717923_2_alg».proof.Proof.KernelIdeal.Stages
import proofs.«133815_j49941879717923_2_alg».proof.Proof.KernelIdeal.ProjectionValue
import proofs.«133815_j49941879717923_2_alg».proof.Proof.KernelIdeal.AttentionValue
import proofs.«133815_j49941879717923_2_alg».proof.Proof.KernelIdeal.OutputValue
import proofs.«133815_j49941879717923_2_alg».proof.Proof.Relayouts
import Idealize.ShloMosaic.Lib.StableHlo.Run

set_option maxRecDepth 16384

noncomputable section

namespace Cert.KernelIdeal.Layouts

open Idealize.ShloMosaic Idealize.ShloMosaic.TcCoe Idealize.ShloMosaic.ValueIdx Idealize.ShloMosaic.StableHlo
open Cert.KernelIdeal Cert.KernelIdeal.Gen Cert.KernelIdeal.Hand Cert.Attn

/-! ## A three-operand host operation's result, with each operand at its own reference -/

/-- The result of an operation over a literal family of three references, each operand's contents read at its own
    reference (so that the operands' own results can be rewritten in turn). -/
theorem nary3_result {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- One buffer's contents after a literal line of host operations: each operation's result at its own result buffer is
    its function's value, at any other reference what was there. -/
macro "host_results" : tactic =>
  `(tactic| (simp only [after_cons, after_nil]
             repeat (first
               | rw [unary_result] | rw [reshape_result] | rw [nary3_result]
               | (rw [unary_result_ne]; rotate_left; decide)
               | (rw [reshape_result_ne]; rotate_left; decide)
               | (rw [nary_result_ne]; rotate_left; decide))))

/-! ## The first host stretch: the arguments re-laid -/

section FirstStretch
variable (W : Valuation τ sig (Elt Ideal))

/-- The token rows: the input reshaped to 8192 rows. -/
theorem first_rows : (StableHlo.after (hostOps0 (F := Ideal)) W (Proc.devRef .tc main_v0) : S8192x1024.Idx → EReal)
    = rows (W (Proc.devRef .tc main_arg0)) := by
  dsimp only [hostOps0]
  host_results
  exact reshape_rows _ _

/-- The last layer's weights, transposed (the change of float format is the identity on the extended reals). -/
theorem first_outWeights : (StableHlo.after (hostOps0 (F := Ideal)) W (Proc.devRef .tc main_v8) : S1024x1024.Idx → EReal)
    = transposed (W (Proc.devRef .tc main_arg7)) := by
  dsimp only [hostOps0]
  host_results
  exact transpose_transposed _ _

/-- The joined weights: the three transposed matrices side by side. -/
theorem first_joinedWeights : (StableHlo.after (hostOps0 (F := Ideal)) W (Proc.devRef .tc main_v9) : S1024x3072.Idx → EReal)
    = joinedWeights (W (Proc.devRef .tc main_arg1)) (W (Proc.devRef .tc main_arg3)) (W (Proc.devRef .tc main_arg5)) := by
  dsimp only [hostOps0]
  host_results
  refine Eq.trans ?_ (join_weights _ _ _ concatenates_S1024x1024_S1024x1024_S1024x1024_S1024x3072_d1)
  rw [← transpose_transposed (W (Proc.devRef .tc main_arg1)) transposes_S1024x1024_S1024x1024_1_0,
    ← transpose_transposed (W (Proc.devRef .tc main_arg3)) transposes_S1024x1024_S1024x1024_1_0,
    ← transpose_transposed (W (Proc.devRef .tc main_arg5)) transposes_S1024x1024_S1024x1024_1_0]
  rfl

/-- The joined bias row. -/
theorem first_joinedBias : (StableHlo.after (hostOps0 (F := Ideal)) W (Proc.devRef .tc main_v11) : S1x3072.Idx → EReal)
    = joinedBias (W (Proc.devRef .tc main_arg2)) (W (Proc.devRef .tc main_arg4)) (W (Proc.devRef .tc main_arg6)) := by
  dsimp only [hostOps0]
  host_results
  exact join_bias _ _ _ concatenates_S1024_S1024_S1024_S3072_d0 shapeCasts_S3072_S1x3072

end FirstStretch

/-! ## The later host stretches -/

section LaterStretches
variable (W : Valuation τ sig (Elt Ideal))

/-- The queries read as 64 (head, batch) pairs. -/
theorem second_queries : (StableHlo.after (hostOps1 (F := Ideal)) W (Proc.devRef .tc main_v13) : S64x2048x64.Idx → EReal)
    = mergeHeads (W (Proc.devRef .tc main_v12_0)) := by
  dsimp only [hostOps1]
  host_results
  exact reshape_merge _ _
/-- The keys read as 64 pairs. -/
theorem second_keys : (StableHlo.after (hostOps1 (F := Ideal)) W (Proc.devRef .tc main_v14) : S64x2048x64.Idx → EReal)
    = mergeHeads (W (Proc.devRef .tc main_v12_1)) := by
  dsimp only [hostOps1]
  host_results
  exact reshape_merge _ _
/-- The values read as 64 pairs. -/
theorem second_values : (StableHlo.after (hostOps1 (F := Ideal)) W (Proc.devRef .tc main_v15) : S64x2048x64.Idx → EReal)
    = mergeHeads (W (Proc.devRef .tc main_v12_2)) := by
  dsimp only [hostOps1]
  host_results
  exact reshape_merge _ _
/-- The second stretch writes neither the last layer's weights nor its bias. -/
theorem second_outWeights : StableHlo.after (hostOps1 (F := Ideal)) W (Proc.devRef .tc main_v8) = W (Proc.devRef .tc main_v8) := by
  dsimp only [hostOps1]
  host_results
theorem second_outBias : StableHlo.after (hostOps1 (F := Ideal)) W (Proc.devRef .tc main_arg8) = W (Proc.devRef .tc main_arg8) := by
  dsimp only [hostOps1]
  host_results

/-- The context read head-major. -/
theorem third_context : (StableHlo.after (hostOps2 (F := Ideal)) W (Proc.devRef .tc main_v17) : S16x4x2048x64.Idx → EReal)
    = splitHeads (W (Proc.devRef .tc main_v16)) := by
  dsimp only [hostOps2]
  host_results
  exact reshape_split _ _
/-- The last bias as one row. -/
theorem third_bias : (StableHlo.after (hostOps2 (F := Ideal)) W (Proc.devRef .tc main_v18) : S1x1024.Idx → EReal)
    = asRow (W (Proc.devRef .tc main_arg8)) := by
  dsimp only [hostOps2]
  host_results
  exact reshape_asRow _ _
/-- The third stretch does not write the last layer's weights. -/
theorem third_outWeights : StableHlo.after (hostOps2 (F := Ideal)) W (Proc.devRef .tc main_v8) = W (Proc.devRef .tc main_v8) := by
  dsimp only [hostOps2]
  host_results

/-- The result rows read as [4, 2048, 1024]. -/
theorem last_unrows : (StableHlo.after (hostOps3 (F := Ideal)) W (Proc.devRef .tc main_v20) : S4x2048x1024.Idx → EReal)
    = unrows (W (Proc.devRef .tc main_v19)) := by
  dsimp only [hostOps3]
  host_results
  exact reshape_unrows _ _

end LaterStretches

/-! ## The fold walked back -/

section Walk
variable (m : (ℓ : Loc nD τ sig) → Buf (Elt Ideal) ℓ) (ρ : Dev nD → PrngReg) (c : Dev nD)

/-- What the projection kernel finds: the token rows, the joined weights, the joined bias. -/
theorem proj_rows : (ent1 m ρ c main_v0 : S8192x1024.Idx → EReal) = rows (m ((c : Thread nD τ).loc main_arg0)) :=
  first_rows (bufs0 m ρ c)
theorem proj_weights : (ent1 m ρ c main_v9 : S1024x3072.Idx → EReal)
    = joinedWeights (m ((c : Thread nD τ).loc main_arg1)) (m ((c : Thread nD τ).loc main_arg3)) (m ((c : Thread nD τ).loc main_arg5)) :=
  first_joinedWeights (bufs0 m ρ c)
theorem proj_bias : (ent1 m ρ c main_v11 : S1x3072.Idx → EReal)
    = joinedBias (m ((c : Thread nD τ).loc main_arg2)) (m ((c : Thread nD τ).loc main_arg4)) (m ((c : Thread nD τ).loc main_arg6)) :=
  first_joinedBias (bufs0 m ρ c)

/-- What the projection kernel leaves: the three head-major arrays of the arguments. -/
theorem queries_left : (bufs2 m ρ c (Proc.devRef .tc main_v12_0) : S16x4x2048x64.Idx → EReal)
    = qArr (rows (m ((c : Thread nD τ).loc main_arg0)))
        (joinedWeights (m ((c : Thread nD τ).loc main_arg1)) (m ((c : Thread nD τ).loc main_arg3)) (m ((c : Thread nD τ).loc main_arg5)))
        (joinedBias (m ((c : Thread nD τ).loc main_arg2)) (m ((c : Thread nD τ).loc main_arg4)) (m ((c : Thread nD τ).loc main_arg6))) := by
  refine (bufs2_arr m ρ c 3).trans ((Cert.KernelIdeal.ProjectionValue.q_final (ent1 m ρ) c).trans ?_)
  rw [proj_rows m ρ c, proj_weights m ρ c, proj_bias m ρ c]
theorem keys_left : (bufs2 m ρ c (Proc.devRef .tc main_v12_1) : S16x4x2048x64.Idx → EReal)
    = kArr (rows (m ((c : Thread nD τ).loc main_arg0)))
        (joinedWeights (m ((c : Thread nD τ).loc main_arg1)) (m ((c : Thread nD τ).loc main_arg3)) (m ((c : Thread nD τ).loc main_arg5)))
        (joinedBias (m ((c : Thread nD τ).loc main_arg2)) (m ((c : Thread nD τ).loc main_arg4)) (m ((c : Thread nD τ).loc main_arg6))) := by
  refine (bufs2_arr m ρ c 4).trans ((Cert.KernelIdeal.ProjectionValue.k_final (ent1 m ρ) c).trans ?_)
  rw [proj_rows m ρ c, proj_weights m ρ c, proj_bias m ρ c]
theorem values_left : (bufs2 m ρ c (Proc.devRef .tc main_v12_2) : S16x4x2048x64.Idx → EReal)
    = vArr (rows (m ((c : Thread nD τ).loc main_arg0)))
        (joinedWeights (m ((c : Thread nD τ).loc main_arg1)) (m ((c : Thread nD τ).loc main_arg3)) (m ((c : Thread nD τ).loc main_arg5)))
        (joinedBias (m ((c : Thread nD τ).loc main_arg2)) (m ((c : Thread nD τ).loc main_arg4)) (m ((c : Thread nD τ).loc main_arg6))) := by
  refine (bufs2_arr m ρ c 5).trans ((Cert.KernelIdeal.ProjectionValue.v_final (ent1 m ρ) c).trans ?_)
  rw [proj_rows m ρ c, proj_weights m ρ c, proj_bias m ρ c]

/-- The last layer's weights and bias, carried from the first stretch (or the launch) to the last kernel's entry: no
    stage in between writes them. -/
theorem outWeights_carried : (ent5 m ρ c main_v8 : S1024x1024.Idx → EReal) = transposed (m ((c : Thread nD τ).loc main_arg7)) :=
  calc (ent5 m ρ c main_v8 : S1024x1024.Idx → EReal)
    _ = bufs4 m ρ c (Proc.devRef .tc main_v8) := third_outWeights (bufs4 m ρ c)
    _ = bufs3 m ρ c (Proc.devRef .tc main_v8) := bufs4_of_ne m ρ c main_v8 (by decide)
    _ = bufs2 m ρ c (Proc.devRef .tc main_v8) := second_outWeights (bufs2 m ρ c)
    _ = bufs1 m ρ c (Proc.devRef .tc main_v8) := bufs2_of_ne m ρ c main_v8 (by decide)
    _ = transposed (m ((c : Thread nD τ).loc main_arg7)) := first_outWeights (bufs0 m ρ c)
theorem outBias_carried : bufs4 m ρ c (Proc.devRef .tc main_arg8) = m ((c : Thread nD τ).loc main_arg8) :=
  calc bufs4 m ρ c (Proc.devRef .tc main_arg8)
    _ = bufs3 m ρ c (Proc.devRef .tc main_arg8) := bufs4_of_ne m ρ c main_arg8 (by decide)
    _ = bufs2 m ρ c (Proc.devRef .tc main_arg8) := second_outBias (bufs2 m ρ c)
    _ = bufs1 m ρ c (Proc.devRef .tc main_arg8) := bufs2_of_ne m ρ c main_arg8 (by decide)
    _ = bufs0 m ρ c (Proc.devRef .tc main_arg8) := StableHlo.after_of_writes_sub hostOps0 _ hostOps0_writes (by decide)
    _ = m ((c : Thread nD τ).loc main_arg8) := rfl

/-- THE RESULT: the result buffer at the return holds `kernelOut` of the nine arguments. -/
theorem result_value : (bufs7 m ρ c (Proc.devRef .tc main_v20) : S4x2048x1024.Idx → EReal)
    = kernelOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  -- the context array the attention kernel leaves
  have hctx : (bufs4 m ρ c (Proc.devRef .tc main_v16) : S64x2048x64.Idx → EReal)
      = attnArr (mergeHeads (bufs2 m ρ c (Proc.devRef .tc main_v12_0))) (mergeHeads (bufs2 m ρ c (Proc.devRef .tc main_v12_1)))
          (mergeHeads (bufs2 m ρ c (Proc.devRef .tc main_v12_2))) := by
    refine (bufs4_arr m ρ c 3).trans ((Cert.KernelIdeal.AttentionValue.attn_final (ent3 m ρ) c).trans ?_)
    rw [show (ent3 m ρ c main_v13 : S64x2048x64.Idx → EReal) = _ from second_queries (bufs2 m ρ c),
      show (ent3 m ρ c main_v14 : S64x2048x64.Idx → EReal) = _ from second_keys (bufs2 m ρ c),
      show (ent3 m ρ c main_v15 : S64x2048x64.Idx → EReal) = _ from second_values (bufs2 m ρ c)]
  -- the rows the last kernel leaves
  have hout : (bufs6 m ρ c (Proc.devRef .tc main_v19) : S8192x1024.Idx → EReal)
      = outArr (splitHeads (bufs4 m ρ c (Proc.devRef .tc main_v16))) (transposed (m ((c : Thread nD τ).loc main_arg7)))
          (asRow (m ((c : Thread nD τ).loc main_arg8))) := by
    refine (bufs6_arr m ρ c 3).trans ((Cert.KernelIdeal.OutputValue.out_final (ent5 m ρ) c).trans ?_)
    rw [show (ent5 m ρ c main_v17 : S16x4x2048x64.Idx → EReal) = _ from third_context (bufs4 m ρ c),
      outWeights_carried m ρ c,
      show (ent5 m ρ c main_v18 : S1x1024.Idx → EReal) = _ from third_bias (bufs4 m ρ c),
      outBias_carried m ρ c]
  refine (last_unrows (bufs6 m ρ c)).trans ?_
  rw [hout, hctx, queries_left m ρ c, keys_left m ρ c, values_left m ρ c]
  rfl

end Walk

end Cert.KernelIdeal.Layouts

end
-- ==== Proof.ReferenceValue.lean ====
/-
  The reference program's result term is the specification's `referenceOut`.

  The reference is three linear layers (x·Wᵀ + bias), each re-laid from [4, 2048, 1024] to [4, 16, 2048, 64] (feature
  64 h + d becomes lane d of head h), the scores Σ_d q·k divided by the square root of the word 64, the quotient
  z / (|z| + 1) of each score, the sum over key positions against the values, the inverse re-layout to [4, 2048, 1024]
  and a last linear layer. Each stage is read at an index of literal coordinates; the only arithmetic is that the
  row-major position ((b·2048 + t)·16 + h)·64 + d of the four-axis layout is position (b·2048 + t)·1024 + (64 h + d) of the
  three-axis one.
-/
import proofs.«133815_j49941879717923_2_alg».proof.Proof.Gen.ReferenceIdeal.Run
import proofs.«133815_j49941879717923_2_alg».proof.Proof.Gen.ReferenceIdeal.Read
import proofs.«133815_j49941879717923_2_alg».proof.Proof.Spec

noncomputable section

namespace Cert.ReferenceIdeal.RefValue

open Cert.ReferenceIdeal Cert.ReferenceIdeal.Gen Cert.ReferenceIdeal.Read Idealize.ShloMosaic
  Idealize.ShloMosaic.ValueIdx Cert.Attn

/-! ## Index equations: the composed index maps at literal coordinates -/

/-- The left operand of a linear layer is read along the row (b, s). -/
theorem lidx_lin (b : Fin 4) (s : Fin 2048) (f k : Fin 1024) : lidx_main_v0 (ix3 b s f) k = ix3 b s k :=
  funext fun a => Fin.ext (by match a with | ⟨0, _⟩ => rfl | ⟨1, _⟩ => rfl | ⟨2, _⟩ => rfl)

/-- The weights of a linear layer are read along their row f. -/
theorem ridx_lin (b : Fin 4) (s : Fin 2048) (f k : Fin 1024) : ridx_main_v0 (ix3 b s f) k = ix2 f k :=
  funext fun a => Fin.ext (by match a with | ⟨0, _⟩ => rfl | ⟨1, _⟩ => rfl)

/-- The bias is read at the feature. -/
theorem idx_bias (b : Fin 4) (s : Fin 2048) (f : Fin 1024) : idx_main_v1 (idx_main_v2 (ix3 b s f)) = ix1 f :=
  funext fun a => Fin.ext (by match a with | ⟨0, _⟩ => rfl)

/-- Lane d of head h at (batch, head, position, lane) is feature 64 h + d at (batch, position). -/
theorem idx_heads (b : Fin 4) (h : Fin 16) (t : Fin 2048) (d : Fin 64) :
    idx_main_v4 (idx_main_v5 (ix4 b h t d)) = ix3 b t (col h d) :=
  funext fun a => Fin.ext (by
    have hb := b.isLt; have hh := h.isLt; have ht := t.isLt; have hd := d.isLt
    match a with
    | ⟨0, _⟩ => show (((b.val * 2048 + t.val) * 16 + h.val) * 64 + d.val) / 2097152 = b.val; omega
    | ⟨1, _⟩ => show (((b.val * 2048 + t.val) * 16 + h.val) * 64 + d.val) / 1024 % 2048 = t.val; omega
    | ⟨2, _⟩ => show (((b.val * 2048 + t.val) * 16 + h.val) * 64 + d.val) % 1024 = h.val * 64 + d.val; omega)

/-- The scores contract the lane axis: queries at position t, keys at position s. -/
theorem lidx_score (b : Fin 4) (h : Fin 16) (t s : Fin 2048) (k : Fin 64) : lidx_main_v18 (ix4 b h t s) k = ix4 b h t k :=
  funext fun a => Fin.ext (by match a with | ⟨0, _⟩ => rfl | ⟨1, _⟩ => rfl | ⟨2, _⟩ => rfl | ⟨3, _⟩ => rfl)
theorem ridx_score (b : Fin 4) (h : Fin 16) (t s : Fin 2048) (k : Fin 64) : ridx_main_v18 (ix4 b h t s) k = ix4 b h s k :=
  funext fun a => Fin.ext (by match a with | ⟨0, _⟩ => rfl | ⟨1, _⟩ => rfl | ⟨2, _⟩ => rfl | ⟨3, _⟩ => rfl)

/-- The context contracts the key position. -/
theorem lidx_ctx (b : Fin 4) (h : Fin 16) (t : Fin 2048) (d : Fin 64) (k : Fin 2048) : lidx_main_v23 (ix4 b h t d) k = ix4 b h t k :=
  funext fun a => Fin.ext (by match a with | ⟨0, _⟩ => rfl | ⟨1, _⟩ => rfl | ⟨2, _⟩ => rfl | ⟨3, _⟩ => rfl)
theorem ridx_ctx (b : Fin 4) (h : Fin 16) (t : Fin 2048) (d : Fin 64) (k : Fin 2048) : ridx_main_v23 (ix4 b h t d) k = ix4 b h k d :=
  funext fun a => Fin.ext (by match a with | ⟨0, _⟩ => rfl | ⟨1, _⟩ => rfl | ⟨2, _⟩ => rfl | ⟨3, _⟩ => rfl)

/-- Column e at (batch, position) is lane e mod 64 of head e / 64 at (batch, head, position, lane). -/
theorem idx_merge (b : Fin 4) (t : Fin 2048) (e : Fin 1024) :
    idx_main_v24 (idx_main_v25 (ix3 b t e)) = ix4 b (headOf e) t (laneOf e) :=
  funext fun a => Fin.ext (by
    have hb := b.isLt; have ht := t.isLt; have he := e.isLt
    match a with
    | ⟨0, _⟩ => show ((b.val * 2048 + t.val) * 1024 + e.val) / 2097152 = b.val; omega
    | ⟨1, _⟩ => show ((b.val * 2048 + t.val) * 1024 + e.val) / 64 % 16 = e.val / 64; omega
    | ⟨2, _⟩ => show ((b.val * 2048 + t.val) * 1024 + e.val) / 1024 % 2048 = t.val; omega
    | ⟨3, _⟩ => show ((b.val * 2048 + t.val) * 1024 + e.val) % 64 = e.val % 64; omega)

/-- The last linear layer: the context along the row (b, t), the weights along their row f, the bias at f. -/
theorem lidx_out (b : Fin 4) (t : Fin 2048) (f k : Fin 1024) : lidx_main_v26 (ix3 b t f) k = ix3 b t k :=
  funext fun a => Fin.ext (by match a with | ⟨0, _⟩ => rfl | ⟨1, _⟩ => rfl | ⟨2, _⟩ => rfl)
theorem ridx_out (b : Fin 4) (t : Fin 2048) (f k : Fin 1024) : ridx_main_v26 (ix3 b t f) k = ix2 f k :=
  funext fun a => Fin.ext (by match a with | ⟨0, _⟩ => rfl | ⟨1, _⟩ => rfl)
theorem idx_bias_out (b : Fin 4) (t : Fin 2048) (f : Fin 1024) : idx_main_v27 (idx_main_v28 (ix3 b t f)) = ix1 f :=
  funext fun a => Fin.ext (by match a with | ⟨0, _⟩ => rfl)

/-! ## The stages, each at literal coordinates -/

/-- A linear layer at token (b, s), feature f. -/
theorem lin_apply (x : (⟨S4x2048x1024, .f32⟩ : BufTy).Contents (Elt Ideal)) (W : (⟨S1024x1024, .f32⟩ : BufTy).Contents (Elt Ideal)) (bias : (⟨S1024, .f32⟩ : BufTy).Contents (Elt Ideal)) (b : Fin 4) (s : Fin 2048) (f : Fin 1024) :
    val_main_v3 (F := Ideal) x W bias (ix3 b s f) = lin x W bias b s f := by
  rw [val_main_v3_apply, val_main_v0_apply, val_main_v2_apply, val_main_v1_apply, idx_bias]
  simp only [lidx_lin, ridx_lin, Ideal.addf_def]
  rfl

/-- The re-laid linear layer: lane d of head h at position t is the layer's feature 64 h + d. -/
theorem heads_apply (x : (⟨S4x2048x1024, .f32⟩ : BufTy).Contents (Elt Ideal)) (W : (⟨S1024x1024, .f32⟩ : BufTy).Contents (Elt Ideal)) (bias : (⟨S1024, .f32⟩ : BufTy).Contents (Elt Ideal)) (b : Fin 4) (h : Fin 16) (t : Fin 2048) (d : Fin 64) :
    val_main_v5 (F := Ideal) x W bias (ix4 b h t d) = lin x W bias b t (col h d) := by
  rw [val_main_v5_apply, val_main_v4_apply, idx_heads]
  exact lin_apply x W bias b t (col h d)

/-- The key and value layers are the same function of their own weights. -/
theorem heads_apply_k (x : (⟨S4x2048x1024, .f32⟩ : BufTy).Contents (Elt Ideal)) (W : (⟨S1024x1024, .f32⟩ : BufTy).Contents (Elt Ideal)) (bias : (⟨S1024, .f32⟩ : BufTy).Contents (Elt Ideal)) (b : Fin 4) (h : Fin 16) (t : Fin 2048) (d : Fin 64) :
    val_main_v11 (F := Ideal) x W bias (ix4 b h t d) = lin x W bias b t (col h d) := heads_apply x W bias b h t d
theorem heads_apply_v (x : (⟨S4x2048x1024, .f32⟩ : BufTy).Contents (Elt Ideal)) (W : (⟨S1024x1024, .f32⟩ : BufTy).Contents (Elt Ideal)) (bias : (⟨S1024, .f32⟩ : BufTy).Contents (Elt Ideal)) (b : Fin 4) (h : Fin 16) (t : Fin 2048) (d : Fin 64) :
    val_main_v17 (F := Ideal) x W bias (ix4 b h t d) = lin x W bias b t (col h d) := heads_apply x W bias b h t d

/-- The score: Σ_d q·k over the head's lanes, divided by the square root of the word 64. -/
theorem score_apply (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal))
    (b : Fin 4) (h : Fin 16) (t s : Fin 2048) :
    val_main_v21 (F := Ideal) x Wq bq Wk bk (ix4 b h t s) = scoreRef x Wq bq Wk bk b h t s := by
  rw [val_main_v21_apply, val_main_v18_apply, val_main_v20_apply, val_main_v19_apply, val_main_cst_apply]
  simp only [lidx_score, ridx_score, heads_apply, heads_apply_k, Ideal.hostDivf_def, Ideal.hostUnary_sqrt_def,
    Ideal.ofBits_def]
  rfl

/-- The outlined quotient z / (|z| + 1) of the score. -/
theorem softsign_apply (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal))
    (b : Fin 4) (h : Fin 16) (t s : Fin 2048) :
    val_main_v22 (F := Ideal) x Wq bq Wk bk (ix4 b h t s) = softsignDiv (scoreRef x Wq bq Wk bk b h t s) := by
  rw [val_main_v22_apply, val_main_call0_v2_apply, val_main_call0_v0_apply, val_main_call0_v1_apply,
    val_main_call0_cst_apply, score_apply]
  rfl

/-- The context at (batch, head, position, lane). -/
theorem ctx_apply (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal)) (Wv : (⟨S1024x1024, .f32⟩ : BufTy).Contents (Elt Ideal)) (bv : (⟨S1024, .f32⟩ : BufTy).Contents (Elt Ideal))
    (b : Fin 4) (h : Fin 16) (t : Fin 2048) (d : Fin 64) :
    val_main_v23 (F := Ideal) x Wq bq Wk bk Wv bv (ix4 b h t d) = ctxRef x Wq bq Wk bk Wv bv b h t d := by
  rw [val_main_v23_apply]
  simp only [lidx_ctx, ridx_ctx, softsign_apply, heads_apply_v]
  rfl

/-- The context re-laid to rows of 1024 columns. -/
theorem merged_apply (x : (⟨S4x2048x1024, .f32⟩ : BufTy).Contents (Elt Ideal)) (Wq : (⟨S1024x1024, .f32⟩ : BufTy).Contents (Elt Ideal)) (bq : (⟨S1024, .f32⟩ : BufTy).Contents (Elt Ideal)) (Wk : (⟨S1024x1024, .f32⟩ : BufTy).Contents (Elt Ideal)) (bk : (⟨S1024, .f32⟩ : BufTy).Contents (Elt Ideal)) (Wv : (⟨S1024x1024, .f32⟩ : BufTy).Contents (Elt Ideal)) (bv : (⟨S1024, .f32⟩ : BufTy).Contents (Elt Ideal))
    (b : Fin 4) (t : Fin 2048) (e : Fin 1024) :
    val_main_v25 (F := Ideal) x Wq bq Wk bk Wv bv (ix3 b t e)
      = ctxRef x Wq bq Wk bk Wv bv b (headOf e) t (laneOf e) := by
  rw [val_main_v25_apply, val_main_v24_apply, idx_merge]
  exact ctx_apply x Wq bq Wk bk Wv bv b (headOf e) t (laneOf e)

/-- The whole reference at (batch, position, feature). -/
theorem out_apply (a0 : (⟨S4x2048x1024, .f32⟩ : BufTy).Contents (Elt Ideal)) (a1 : (⟨S1024x1024, .f32⟩ : BufTy).Contents (Elt Ideal)) (a2 : (⟨S1024, .f32⟩ : BufTy).Contents (Elt Ideal)) (a3 : (⟨S1024x1024, .f32⟩ : BufTy).Contents (Elt Ideal)) (a4 : (⟨S1024, .f32⟩ : BufTy).Contents (Elt Ideal)) (a5 : (⟨S1024x1024, .f32⟩ : BufTy).Contents (Elt Ideal)) (a6 : (⟨S1024, .f32⟩ : BufTy).Contents (Elt Ideal)) (a7 : (⟨S1024x1024, .f32⟩ : BufTy).Contents (Elt Ideal)) (a8 : (⟨S1024, .f32⟩ : BufTy).Contents (Elt Ideal))
    (b : Fin 4) (t : Fin 2048) (f : Fin 1024) :
    val_main_v29 (F := Ideal) a0 a1 a2 a3 a4 a5 a6 a7 a8 (ix3 b t f)
      = referenceOut a0 a1 a2 a3 a4 a5 a6 a7 a8 (ix3 b t f) := by
  rw [val_main_v29_apply, val_main_v26_apply, val_main_v28_apply, val_main_v27_apply, idx_bias_out]
  simp only [lidx_out, ridx_out, merged_apply, Ideal.addf_def]
  rfl

/-! ## The result -/

/-- The term the reference's run leaves in its result buffer, at the extended reals, is `referenceOut` of the nine
    argument arrays (x, Wq, bq, Wk, bk, Wv, bv, Wo, bo in this order). -/
theorem result_eq (a0 : FVec Ideal S4x2048x1024 .f32) (a1 : FVec Ideal S1024x1024 .f32) (a2 : FVec Ideal S1024 .f32) (a3 : FVec Ideal S1024x1024 .f32) (a4 : FVec Ideal S1024 .f32) (a5 : FVec Ideal S1024x1024 .f32) (a6 : FVec Ideal S1024 .f32) (a7 : FVec Ideal S1024x1024 .f32) (a8 : FVec Ideal S1024 .f32) :
    addf (Host.dotGeneral dot_S4x2048x1024_S1024x1024_S4x2048x1024_2_1_01_0_n_n none (shapeCast _ (transpose S4x2048x16x64 [0, 2, 1, 3] (Host.dotGeneral dot_S4x16x2048x2048_S4x16x2048x64_S4x16x2048x64_3_2_2_3_01_01 none (Host.divf (Host.divf (Host.dotGeneral dot_S4x16x2048x64_S4x16x2048x64_S4x16x2048x2048_3_3_2_2_01_01 none (transpose S4x16x2048x64 [0, 2, 1, 3] (shapeCast _ (addf (Host.dotGeneral dot_S4x2048x1024_S1024x1024_S4x2048x1024_2_1_01_0_n_n none a0 a1) (broadcastInDim S4x2048x1024 ![0, 1, 2] bcast_S1x1x1024_S4x2048x1024_0_1_2 (broadcastInDim S1x1x1024 ![2] bcast_S1024_S1x1x1024_2 a2))) shapeCasts_S4x2048x1024_S4x2048x16x64) transposes_S4x2048x16x64_S4x16x2048x64_0_2_1_3) (transpose S4x16x2048x64 [0, 2, 1, 3] (shapeCast _ (addf (Host.dotGeneral dot_S4x2048x1024_S1024x1024_S4x2048x1024_2_1_01_0_n_n none a0 a3) (broadcastInDim S4x2048x1024 ![0, 1, 2] bcast_S1x1x1024_S4x2048x1024_0_1_2 (broadcastInDim S1x1x1024 ![2] bcast_S1024_S1x1x1024_2 a4))) shapeCasts_S4x2048x1024_S4x2048x16x64) transposes_S4x2048x16x64_S4x16x2048x64_0_2_1_3)) (broadcastInDim S4x16x2048x2048 ![] bcast_S_S4x16x2048x2048 (Host.sqrt (constant S_ .f32 0x42800000#32)))) (addf (Host.absf (Host.divf (Host.dotGeneral dot_S4x16x2048x64_S4x16x2048x64_S4x16x2048x2048_3_3_2_2_01_01 none (transpose S4x16x2048x64 [0, 2, 1, 3] (shapeCast _ (addf (Host.dotGeneral dot_S4x2048x1024_S1024x1024_S4x2048x1024_2_1_01_0_n_n none a0 a1) (broadcastInDim S4x2048x1024 ![0, 1, 2] bcast_S1x1x1024_S4x2048x1024_0_1_2 (broadcastInDim S1x1x1024 ![2] bcast_S1024_S1x1x1024_2 a2))) shapeCasts_S4x2048x1024_S4x2048x16x64) transposes_S4x2048x16x64_S4x16x2048x64_0_2_1_3) (transpose S4x16x2048x64 [0, 2, 1, 3] (shapeCast _ (addf (Host.dotGeneral dot_S4x2048x1024_S1024x1024_S4x2048x1024_2_1_01_0_n_n none a0 a3) (broadcastInDim S4x2048x1024 ![0, 1, 2] bcast_S1x1x1024_S4x2048x1024_0_1_2 (broadcastInDim S1x1x1024 ![2] bcast_S1024_S1x1x1024_2 a4))) shapeCasts_S4x2048x1024_S4x2048x16x64) transposes_S4x2048x16x64_S4x16x2048x64_0_2_1_3)) (broadcastInDim S4x16x2048x2048 ![] bcast_S_S4x16x2048x2048 (Host.sqrt (constant S_ .f32 0x42800000#32))))) (broadcastInDim S4x16x2048x2048 ![] bcast_S_S4x16x2048x2048 (constant S_ .f32 0x3F800000#32)))) (transpose S4x16x2048x64 [0, 2, 1, 3] (shapeCast _ (addf (Host.dotGeneral dot_S4x2048x1024_S1024x1024_S4x2048x1024_2_1_01_0_n_n none a0 a5) (broadcastInDim S4x2048x1024 ![0, 1, 2] bcast_S1x1x1024_S4x2048x1024_0_1_2 (broadcastInDim S1x1x1024 ![2] bcast_S1024_S1x1x1024_2 a6))) shapeCasts_S4x2048x1024_S4x2048x16x64) transposes_S4x2048x16x64_S4x16x2048x64_0_2_1_3)) transposes_S4x16x2048x64_S4x2048x16x64_0_2_1_3) shapeCasts_S4x2048x16x64_S4x2048x1024) a7) (broadcastInDim S4x2048x1024 ![0, 1, 2] bcast_S1x1x1024_S4x2048x1024_0_1_2 (broadcastInDim S1x1x1024 ![2] bcast_S1024_S1x1x1024_2 a8))
      = Cert.Attn.referenceOut a0 a1 a2 a3 a4 a5 a6 a7 a8 := by
  refine (val_main_v29_eq (F := Ideal) a0 a1 a2 a3 a4 a5 a6 a7 a8).trans ?_
  funext j
  obtain ⟨b, t, f, rfl⟩ : ∃ (b : Fin 4) (t : Fin 2048) (f : Fin 1024), j = ix3 b t f := ⟨j 0, j 1, j 2, eq_ix3 j⟩
  exact out_apply a0 a1 a2 a3 a4 a5 a6 a7 a8 b t f

end Cert.ReferenceIdeal.RefValue

end
-- ==== Proof.ScoreLaw.lean ====
/-
  The kernel's arrangement of multi-head softsign attention equals the reference's when the query and key layers'
  inputs are real numbers.

  * Index arithmetic: the head/lane, batch/position and head/batch splittings invert their joinings.
  * Each third of the fused projection over the joined weights is the corresponding linear layer (re-indexing only).
  * The score law: for real q, k, Σ_d (q_d · 1/8) · k_d = (Σ_d q_d · k_d) / √64.
  * The softsign law: for real z, z · (1 / (1 + |z|)) = z / (|z| + 1).
  Everything else is the same sum of the same terms on both sides.
-/
import proofs.«133815_j49941879717923_2_alg».proof.Proof.Spec

noncomputable section

namespace Cert.Attn

open Idealize.ShloMosaic Idealize.ShloMosaic.ValueIdx

/-! ## Index arithmetic -/

theorem headOf_col (h : Fin 16) (d : Fin 64) : headOf (col h d) = h := by
  have := h.isLt; have := d.isLt
  apply Fin.ext; simp only [headOf, col]; omega

theorem laneOf_col (h : Fin 16) (d : Fin 64) : laneOf (col h d) = d := by
  have := h.isLt; have := d.isLt
  apply Fin.ext; simp only [laneOf, col]; omega

theorem col_headOf_laneOf (e : Fin 1024) : col (headOf e) (laneOf e) = e := by
  have := e.isLt
  apply Fin.ext; simp only [headOf, laneOf, col]; omega

theorem batchOf_tok (b : Fin 4) (s : Fin 2048) : batchOf (tok b s) = b := by
  have := b.isLt; have := s.isLt
  apply Fin.ext; simp only [batchOf, tok]; omega

theorem posOf_tok (b : Fin 4) (s : Fin 2048) : posOf (tok b s) = s := by
  have := b.isLt; have := s.isLt
  apply Fin.ext; simp only [posOf, tok]; omega

theorem pairHead_pairOf (h : Fin 16) (b : Fin 4) : pairHead (pairOf h b) = h := by
  have := h.isLt; have := b.isLt
  apply Fin.ext; simp only [pairHead, pairOf]; omega

theorem pairBatch_pairOf (h : Fin 16) (b : Fin 4) : pairBatch (pairOf h b) = b := by
  have := h.isLt; have := b.isLt
  apply Fin.ext; simp only [pairBatch, pairOf]; omega

theorem colAt_zero_val (h : Fin 16) (d : Fin 64) : (colAt 0 h d).val = h.val * 64 + d.val := by
  show 0 * 1024 + (h.val * 64 + d.val) = _
  omega

theorem colAt_one_val (h : Fin 16) (d : Fin 64) : (colAt 1 h d).val = 1024 + (h.val * 64 + d.val) := by
  show 1 * 1024 + (h.val * 64 + d.val) = _
  omega

theorem colAt_two_val (h : Fin 16) (d : Fin 64) : (colAt 2 h d).val = 2048 + (h.val * 64 + d.val) := by
  show 2 * 1024 + (h.val * 64 + d.val) = _
  omega

/-! ## The float words -/

theorem eighthWord_eq : eighthWord = ((1 / 8 : ℝ) : EReal) := by
  simp [eighthWord, Ideal.ofBits, Ideal.ieee, -EReal.coe_mul]; norm_num

theorem oneWord_eq : oneWord = ((1 : ℝ) : EReal) := by
  simp [oneWord, Ideal.ofBits, Ideal.ieee, -EReal.coe_mul]; norm_num

theorem sixtyFourWord_eq : sixtyFourWord = ((64 : ℝ) : EReal) := by
  simp [sixtyFourWord, Ideal.ofBits, Ideal.ieee, -EReal.coe_mul]; norm_num

theorem sqrt_sixtyFourWord : Ideal.sqrt sixtyFourWord = ((8 : ℝ) : EReal) := by
  rw [sixtyFourWord_eq, Ideal.sqrt_coe, if_neg (by norm_num)]
  congr 1
  rw [show (64 : ℝ) = 8 ^ 2 by norm_num, Real.sqrt_sq (by norm_num)]

/-! ## Real sums -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The score law: folding 1/8 into the query lanes is dividing the lane sum by √64. -/
theorem score_law (a b : Fin 64 → ℝ) :
    (∑ d : Fin 64, ((a d : EReal) * eighthWord) * (b d : EReal))
      = Ideal.div (∑ d : Fin 64, (a d : EReal) * (b d : EReal)) (Ideal.sqrt sixtyFourWord) := by
  rw [sqrt_sixtyFourWord, Ideal.div_coe (by norm_num : (8 : ℝ) ≠ 0), eighthWord_eq]
  simp only [← EReal.coe_mul, ← coe_sum]
  congr 1
  rw [Finset.sum_mul]
  refine Finset.sum_congr rfl fun d _ => ?_
  ring

theorem coe_max (r t : ℝ) : max (r : EReal) (t : EReal) = ((max r t : ℝ) : EReal) :=
  (EReal.coe_strictMono.monotone.map_max).symm

/-- The softsign law: z · (1 / (1 + |z|)) = z / (|z| + 1) at a real z. -/
theorem softsign_law (r : ℝ) : softsignMul (r : EReal) = softsignDiv (r : EReal) := by
  have hm : max (r : EReal) (-(r : EReal)) = ((|r| : ℝ) : EReal) := by
    rw [← EReal.coe_neg, coe_max, abs_eq_max_neg]
  have hpos : (1 + |r| : ℝ) ≠ 0 := by positivity
  rw [softsignMul, softsignDiv, oneWord_eq, hm, ← EReal.coe_add, ← EReal.coe_add, add_comm |r| 1,
    Ideal.div_coe hpos, Ideal.div_coe hpos, EReal.coe_one, one_mul]

/-! ## Real linear layers -/

/-- A linear layer of real arrays is real. -/
theorem lin_real (x : A3 4 2048 1024) (W : A2 1024 1024) (bias : A1 1024)
    (hx : ∀ i, ∃ r : ℝ, x i = (r : EReal)) (hW : ∀ i, ∃ r : ℝ, W i = (r : EReal))
    (hb : ∀ i, ∃ r : ℝ, bias i = (r : EReal)) (b : Fin 4) (s : Fin 2048) (f : Fin 1024) :
    ∃ r : ℝ, lin x W bias b s f = (r : EReal) := by
  choose xr hxr using hx
  choose Wr hWr using hW
  choose br hbr using hb
  refine ⟨(∑ e : Fin 1024, xr (ix3 b s e) * Wr (ix2 f e)) + br (ix1 f), ?_⟩
  rw [lin, EReal.coe_add, coe_sum, hbr]
  congr 1
  refine Finset.sum_congr rfl fun e _ => ?_
  rw [hxr, hWr, EReal.coe_mul]

/-! ## The fused projection's thirds are the three linear layers -/

section Proj

variable (x : A3 4 2048 1024) (Wq : A2 1024 1024) (bq : A1 1024) (Wk : A2 1024 1024) (bk : A1 1024)
  (Wv : A2 1024 1024) (bv : A1 1024)

theorem joinedWeights_apply (e : Fin 1024) (c : Fin 3072) :
    joinedWeights Wq Wk Wv (ix2 e c)
      = if c.val < 1024 then Wq (ix2 ⟨c.val % 1024, Nat.mod_lt _ (by decide)⟩ e)
        else if c.val < 2048 then Wk (ix2 ⟨c.val % 1024, Nat.mod_lt _ (by decide)⟩ e)
        else Wv (ix2 ⟨c.val % 1024, Nat.mod_lt _ (by decide)⟩ e) := rfl

theorem joinedBias_apply (z : Fin 1) (c : Fin 3072) :
    joinedBias bq bk bv (ix2 z c)
      = if c.val < 1024 then bq (ix1 ⟨c.val % 1024, Nat.mod_lt _ (by decide)⟩)
        else if c.val < 2048 then bk (ix1 ⟨c.val % 1024, Nat.mod_lt _ (by decide)⟩)
        else bv (ix1 ⟨c.val % 1024, Nat.mod_lt _ (by decide)⟩) := rfl

theorem joinedWeights_zero (e : Fin 1024) (h : Fin 16) (d : Fin 64) :
    joinedWeights Wq Wk Wv (ix2 e (colAt 0 h d)) = Wq (ix2 (col h d) e) := by
  have := h.isLt; have := d.isLt
  have hv := colAt_zero_val h d
  rw [joinedWeights_apply, if_pos (by omega)]
  refine congrArg (fun c : Fin 1024 => Wq (ix2 c e)) (Fin.ext ?_)
  show (colAt 0 h d).val % 1024 = h.val * 64 + d.val
  omega

theorem joinedWeights_one (e : Fin 1024) (h : Fin 16) (d : Fin 64) :
    joinedWeights Wq Wk Wv (ix2 e (colAt 1 h d)) = Wk (ix2 (col h d) e) := by
  have := h.isLt; have := d.isLt
  have hv := colAt_one_val h d
  rw [joinedWeights_apply, if_neg (by omega), if_pos (by omega)]
  refine congrArg (fun c : Fin 1024 => Wk (ix2 c e)) (Fin.ext ?_)
  show (colAt 1 h d).val % 1024 = h.val * 64 + d.val
  omega

theorem joinedWeights_two (e : Fin 1024) (h : Fin 16) (d : Fin 64) :
    joinedWeights Wq Wk Wv (ix2 e (colAt 2 h d)) = Wv (ix2 (col h d) e) := by
  have := h.isLt; have := d.isLt
  have hv := colAt_two_val h d
  rw [joinedWeights_apply, if_neg (by omega), if_neg (by omega)]
  refine congrArg (fun c : Fin 1024 => Wv (ix2 c e)) (Fin.ext ?_)
  show (colAt 2 h d).val % 1024 = h.val * 64 + d.val
  omega

theorem joinedBias_zero (z : Fin 1) (h : Fin 16) (d : Fin 64) :
    joinedBias bq bk bv (ix2 z (colAt 0 h d)) = bq (ix1 (col h d)) := by
  have := h.isLt; have := d.isLt
  have hv := colAt_zero_val h d
  rw [joinedBias_apply, if_pos (by omega)]
  refine congrArg (fun c : Fin 1024 => bq (ix1 c)) (Fin.ext ?_)
  show (colAt 0 h d).val % 1024 = h.val * 64 + d.val
  omega

theorem joinedBias_one (z : Fin 1) (h : Fin 16) (d : Fin 64) :
    joinedBias bq bk bv (ix2 z (colAt 1 h d)) = bk (ix1 (col h d)) := by
  have := h.isLt; have := d.isLt
  have hv := colAt_one_val h d
  rw [joinedBias_apply, if_neg (by omega), if_pos (by omega)]
  refine congrArg (fun c : Fin 1024 => bk (ix1 c)) (Fin.ext ?_)
  show (colAt 1 h d).val % 1024 = h.val * 64 + d.val
  omega

theorem joinedBias_two (z : Fin 1) (h : Fin 16) (d : Fin 64) :
    joinedBias bq bk bv (ix2 z (colAt 2 h d)) = bv (ix1 (col h d)) := by
  have := h.isLt; have := d.isLt
  have hv := colAt_two_val h d
  rw [joinedBias_apply, if_neg (by omega), if_neg (by omega)]
  refine congrArg (fun c : Fin 1024 => bv (ix1 c)) (Fin.ext ?_)
  show (colAt 2 h d).val % 1024 = h.val * 64 + d.val
  omega

theorem rows_tok (b : Fin 4) (s : Fin 2048) (e : Fin 1024) : rows x (ix2 (tok b s) e) = x (ix3 b s e) := by
  show x (ix3 (batchOf (tok b s)) (posOf (tok b s)) e) = _
  rw [batchOf_tok, posOf_tok]

theorem projAt_zero (h : Fin 16) (b : Fin 4) (s : Fin 2048) (d : Fin 64) :
    projAt 0 (rows x) (joinedWeights Wq Wk Wv) (joinedBias bq bk bv) h b s d = lin x Wq bq b s (col h d) := by
  unfold projAt lin
  rw [joinedBias_zero]
  congr 1
  refine Finset.sum_congr rfl fun e _ => ?_
  rw [rows_tok, joinedWeights_zero]

theorem projAt_one (h : Fin 16) (b : Fin 4) (s : Fin 2048) (d : Fin 64) :
    projAt 1 (rows x) (joinedWeights Wq Wk Wv) (joinedBias bq bk bv) h b s d = lin x Wk bk b s (col h d) := by
  unfold projAt lin
  rw [joinedBias_one]
  congr 1
  refine Finset.sum_congr rfl fun e _ => ?_
  rw [rows_tok, joinedWeights_one]

theorem projAt_two (h : Fin 16) (b : Fin 4) (s : Fin 2048) (d : Fin 64) :
    projAt 2 (rows x) (joinedWeights Wq Wk Wv) (joinedBias bq bk bv) h b s d = lin x Wv bv b s (col h d) := by
  unfold projAt lin
  rw [joinedBias_two]
  congr 1
  refine Finset.sum_congr rfl fun e _ => ?_
  rw [rows_tok, joinedWeights_two]

/-! ## The three arrays between the kernels, read at a (head, batch) pair -/

theorem mergeQ_apply (X : A2 8192 1024) (W : A2 1024 3072) (B : A2 1 3072) (h : Fin 16) (b : Fin 4) (t : Fin 2048)
    (d : Fin 64) : mergeHeads (qArr X W B) (ix3 (pairOf h b) t d) = projAt 0 X W B h b t d * eighthWord := by
  show projAt 0 X W B (pairHead (pairOf h b)) (pairBatch (pairOf h b)) t d * eighthWord = _
  rw [pairHead_pairOf, pairBatch_pairOf]

theorem mergeK_apply (X : A2 8192 1024) (W : A2 1024 3072) (B : A2 1 3072) (h : Fin 16) (b : Fin 4) (t : Fin 2048)
    (d : Fin 64) : mergeHeads (kArr X W B) (ix3 (pairOf h b) t d) = projAt 1 X W B h b t d := by
  show projAt 1 X W B (pairHead (pairOf h b)) (pairBatch (pairOf h b)) t d = _
  rw [pairHead_pairOf, pairBatch_pairOf]

theorem mergeV_apply (X : A2 8192 1024) (W : A2 1024 3072) (B : A2 1 3072) (h : Fin 16) (b : Fin 4) (t : Fin 2048)
    (d : Fin 64) : mergeHeads (vArr X W B) (ix3 (pairOf h b) t d) = projAt 2 X W B h b t d := by
  show projAt 2 X W B (pairHead (pairOf h b)) (pairBatch (pairOf h b)) t d = _
  rw [pairHead_pairOf, pairBatch_pairOf]

/-- The reference's score of real layers is real. -/
theorem scoreRef_real (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (h : Fin 16) (t s : Fin 2048) :
    (∃ r : ℝ, scoreRef x Wq bq Wk bk b h t s = (r : EReal)) ∧
      (∑ d : Fin 64, (lin x Wq bq b t (col h d) * eighthWord) * lin x Wk bk b s (col h d))
        = scoreRef x Wq bq Wk bk b h t s := by
  choose qa hqa using fun d : Fin 64 => lin_real x Wq bq hx hWq hbq b t (col h d)
  choose ka hka using fun d : Fin 64 => lin_real x Wk bk hx hWk hbk b s (col h d)
  have hlaw := score_law qa ka
  unfold scoreRef
  simp only [hqa, hka]
  refine ⟨⟨(∑ d : Fin 64, qa d * ka d) * (1 / 8 : ℝ), ?_⟩, hlaw⟩
  rw [sqrt_sixtyFourWord, Ideal.div_coe (by norm_num : (8 : ℝ) ≠ 0)]
  simp only [← EReal.coe_mul, ← coe_sum]

/-- The kernels' context, read at (head, batch, position, lane), is the reference's. -/
theorem ctx_eq (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (h : Fin 16) (b : Fin 4) (t : Fin 2048) (d : Fin 64) :
    splitHeads (attnArr
        (mergeHeads (qArr (rows x) (joinedWeights Wq Wk Wv) (joinedBias bq bk bv)))
        (mergeHeads (kArr (rows x) (joinedWeights Wq Wk Wv) (joinedBias bq bk bv)))
        (mergeHeads (vArr (rows x) (joinedWeights Wq Wk Wv) (joinedBias bq bk bv)))) (ix4 h b t d)
      = ctxRef x Wq bq Wk bk Wv bv b h t d := by
  show attnAt _ _ _ (pairOf h b) t d = _
  unfold attnAt ctxRef
  refine Finset.sum_congr rfl fun s _ => ?_
  obtain ⟨⟨r, hr⟩, hs⟩ := scoreRef_real x Wq bq Wk bk hx hWq hbq hWk hbk b h t s
  rw [mergeV_apply, projAt_two]
  congr 1
  simp only [mergeQ_apply, mergeK_apply, projAt_zero, projAt_one]
  rw [hs, hr]
  exact softsign_law r

end Proj

/-- The kernel's arrangement equals the reference's when the query and key layers' inputs are real. -/
theorem kernelOut_eq_referenceOut (x : A3 4 2048 1024) (Wq : A2 1024 1024) (bq : A1 1024) (Wk : A2 1024 1024)
    (bk : A1 1024) (Wv : A2 1024 1024) (bv : A1 1024) (Wo : A2 1024 1024) (bo : A1 1024)
    (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) :
    kernelOut x Wq bq Wk bk Wv bv Wo bo = referenceOut x Wq bq Wk bk Wv bv Wo bo := by
  funext j
  obtain ⟨b, t, f, rfl⟩ : ∃ (b : Fin 4) (t : Fin 2048) (f : Fin 1024), j = ix3 b t f := ⟨j 0, j 1, j 2, eq_ix3 j⟩
  show (∑ e : Fin 1024, splitHeads (attnArr
        (mergeHeads (qArr (rows x) (joinedWeights Wq Wk Wv) (joinedBias bq bk bv)))
        (mergeHeads (kArr (rows x) (joinedWeights Wq Wk Wv) (joinedBias bq bk bv)))
        (mergeHeads (vArr (rows x) (joinedWeights Wq Wk Wv) (joinedBias bq bk bv))))
          (ix4 (headOf e) (batchOf (tok b t)) (posOf (tok b t)) (laneOf e)) * Wo (ix2 f e)) + bo (ix1 f)
      = (∑ e : Fin 1024, ctxRef x Wq bq Wk bk Wv bv b (headOf e) t (laneOf e) * Wo (ix2 f e)) + bo (ix1 f)
  rw [batchOf_tok, posOf_tok]
  congr 1
  refine Finset.sum_congr rfl fun e _ => ?_
  rw [ctx_eq x Wq bq Wk bk Wv bv hx hWq hbq hWk hbk]

end Cert.Attn

end
-- ==== Proof.RealInputs.lean ====
/-
  The precondition makes every input real. It says, of each of the nine arrays, that every element's absolute value
  is below +∞, and joins the nine statements by "and". An extended real whose absolute value max x (-x) is below +∞
  is neither infinity, so it is a real number.
-/
import proofs.«133815_j49941879717923_2_alg».proof.Pre_finite_inputs
import proofs.«133815_j49941879717923_2_alg».proof.Proof.Gen.Pre_finite_inputs
import Idealize.ShloMosaic.Lib.ReduceAll
import Idealize.ShloMosaic.Lib.ValueIdx

noncomputable section

namespace Cert.Attn

open Idealize.ShloMosaic Cert.Pre_finite_inputs

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- If "every |v i| < +∞", taken as one conjunction over the whole array, holds, every element of v is real. -/
theorem all_real_of_abs_lt {s : Shape} (v : FVec Ideal s .f32) (hb : S_.BroadcastsInDim s (![] : Fin 0 → Fin s.rank))
    {axes : List (Fin s.rank)} (hr : s.ReducesTo axes S_) (hS : 0 < S_.numel) (j : S_.Idx)
    (e : Host.reduce IntOp.andi
          (cmpf .olt (Host.absf v) (broadcastInDim s ![] hb (constant (F := Ideal) S_ .f32 0x7F800000#32)))
          (constantI S_ 1 1#1) hr hS j = 1#1) (i : s.Idx) : ∃ r : ℝ, v i = (r : EReal) := by
  haveI : Subsingleton S_.Idx := ⟨fun a b => funext fun d => d.elim0⟩
  have h1 := Host.reduce_andi_all _ _ hr hS j e i
  rw [ValueIdx.cmpf_apply] at h1
  have h2 : BitVec.ofBool (decide (max (v i) (-(v i)) < Ideal.ofBits .f32 0x7F800000#32)) = 1#1 := h1
  have h3 : Ideal.ofBits .f32 0x7F800000#32 = ⊤ := by simp [Ideal.ofBits, Ideal.ieee]
  rw [h3] at h2
  refine real_of_abs_lt_top (v i) ?_
  by_contra hn
  rw [decide_eq_false hn] at h2
  exact absurd h2 (by decide)

/-- A conjunction of two truth words that is 1 has both words 1. -/
theorem andi_split (a b : IVec S_ 1) (j : S_.Idx) (h : andi a b j = 1#1) : a j = 1#1 ∧ b j = 1#1 :=
  IntOp.andi_eq_one.1 h

/-- Under the precondition, each of the nine arrays holds real numbers only. -/
theorem real_inputs (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (a7 : FVec Ideal S1024x1024 .f32) (a8 : FVec Ideal S1024 .f32)
    (h : Cert.Pre_finite_inputs.fn (F := Ideal) a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) := by
  have e := congrFun h ValueIdx.ix0
  dsimp only [fn, fn_part1, fn_part2] at e
  obtain ⟨e, h8⟩ := andi_split _ _ _ e
  obtain ⟨e, h7⟩ := andi_split _ _ _ e
  obtain ⟨e, h6⟩ := andi_split _ _ _ e
  obtain ⟨e, h5⟩ := andi_split _ _ _ e
  obtain ⟨e, h4⟩ := andi_split _ _ _ e
  obtain ⟨e, h3⟩ := andi_split _ _ _ e
  obtain ⟨e, h2⟩ := andi_split _ _ _ e
  obtain ⟨h0, h1⟩ := andi_split _ _ _ e
  exact ⟨all_real_of_abs_lt a0 _ _ _ _ h0, all_real_of_abs_lt a1 _ _ _ _ h1, all_real_of_abs_lt a2 _ _ _ _ h2,
    all_real_of_abs_lt a3 _ _ _ _ h3, all_real_of_abs_lt a4 _ _ _ _ h4, all_real_of_abs_lt a5 _ _ _ _ h5,
    all_real_of_abs_lt a6 _ _ _ _ h6, all_real_of_abs_lt a7 _ _ _ _ h7, all_real_of_abs_lt a8 _ _ _ _ h8⟩

end Cert.Attn

end
-- ==== Proof.lean ====
/-
  The proof of `Cert.Claim` (proofs.«133815_j49941879717923_2_alg».proof.Defs): multi-head attention with a softsign in
  place of the softmax — three kernels (a fused query / key / value projection, attention per (head, batch) pair, the
  output projection) among host re-layouts — against three linear layers, scores divided by √64, z / (|z| + 1), and a
  last linear layer.

  * The three frames. Each kernel program (the word-level one and its idealization, one text at two float instances)
    is run as seven segments: four stretches of host operations and the three kernels, each kernel's body a Hoare
    triple over its staging buffers (Proof/Kernel/…Body, Proof/KernelIdeal/…Body; the run: …/Stages.lean, `frame`). The
    reference has no kernel: its frame is its run with the result dropped.
  * `preserves` holds trivially: the idealization rewrote no operation.
  * `algebraic`. The kernel program's result is `Attn.kernelOut` of the nine arguments (Proof/KernelIdeal/Layouts.lean:
    each kernel's output array is a whole-array function of the arrays it finds, each host stretch a re-layout), the
    reference's is `Attn.referenceOut` (Proof/ReferenceValue.lean), and the two agree on real-valued arguments
    (Proof/ScoreLaw.lean): scaling the queries by 1/8 before the lane sum is dividing the sum by √64, and
    z · (1 / (1 + |z|)) is z / (|z| + 1) — both need the summands to be real numbers, which the precondition gives
    (Proof/RealInputs.lean); the remaining sums and products are the same terms on both sides.
-/
import proofs.«133815_j49941879717923_2_alg».proof.Defs
import proofs.«133815_j49941879717923_2_alg».proof.Proof.Gen.Kernel
import proofs.«133815_j49941879717923_2_alg».proof.Proof.Gen.KernelIdeal
import proofs.«133815_j49941879717923_2_alg».proof.Proof.Gen.ReferenceIdeal
import proofs.«133815_j49941879717923_2_alg».proof.Proof.Gen.Pre_finite_inputs
import proofs.«133815_j49941879717923_2_alg».proof.Proof.Gen.ReferenceIdeal.Run
import proofs.«133815_j49941879717923_2_alg».proof.Proof.Gen.ReferenceIdeal.Read
import proofs.«133815_j49941879717923_2_alg».proof.Proof.Kernel.Stages
import proofs.«133815_j49941879717923_2_alg».proof.Proof.KernelIdeal.Stages
import proofs.«133815_j49941879717923_2_alg».proof.Proof.KernelIdeal.Layouts
import proofs.«133815_j49941879717923_2_alg».proof.Proof.ReferenceValue
import proofs.«133815_j49941879717923_2_alg».proof.Proof.ScoreLaw
import proofs.«133815_j49941879717923_2_alg».proof.Proof.RealInputs
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On arguments that agree, the kernel program ends with `kernelOut` of them and the reference with
    `referenceOut`; the precondition makes the arguments real-valued, and on real-valued arguments the two functions
    are one. -/
theorem algebraic : Cert.algebraic_KernelIdeal_ReferenceIdeal := by
  intro m ρ m' ρ' hpre hagree
  refine ⟨fun c => Cert.Attn.kernelOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Layouts.result_value m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq _ _ _ _ _ _ _ _ _).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    obtain ⟨h0, h1, h2, h3, h4, -, -, -, -⟩ := Cert.Attn.real_inputs _ _ _ _ _ _ _ _ _ (hpre c)
    exact (Cert.Attn.kernelOut_eq_referenceOut _ _ _ _ _ _ _ _ _ h0 h1 h2 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
